-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part4 {F : FTy → Type} [FloatOps F] (main_arg14 : FVec F S512 .f32) (main_arg15 : FVec F S512 .f32) (main_arg16 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  main_v83

def fn_part3 {F : FTy → Type} [FloatOps F] (main_arg11 : FVec F S512x2048 .f32) (main_arg12 : FVec F S512 .f32) (main_arg13 : FVec F S512 .f32) (main_arg14 : FVec F S512 .f32) (main_arg15 : FVec F S512 .f32) (main_arg16 : FVec F S512 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S512x2048 .f32 := Host.absf main_arg11
  let main_cst_20 : FVec F S_ .f32 := constant S_ .f32 0x7F800000#32
  let main_v55 : FVec F S512x2048 .f32 := broadcastInDim S512x2048 ![] bcast_S_S512x2048 main_cst_20
  let main_v56 : IVec S512x2048 1 := cmpf .olt main_v54 main_v55
  let main_c_21 : IVec S_ 1 := constantI S_ 1 1#1
  let main_v57 : IVec S_ 1 := (fun x v => Host.reduce IntOp.andi x v reducesTo_S512x2048_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_v63 main_v67

def fn_part2 {F : FTy → Type} [FloatOps F] (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S512 .f32) (main_arg14 : FVec F S512 .f32) (main_arg15 : FVec F S512 .f32) (main_arg16 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S512 .f32) (main_arg14 : FVec F S512 .f32) (main_arg15 : FVec F S512 .f32) (main_arg16 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S512 .f32) (main_arg14 : FVec F S512 .f32) (main_arg15 : FVec F S512 .f32) (main_arg16 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x512 : Shape := ⟨2, ![65536, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S512x1536 : Shape := ⟨2, ![512, 1536]⟩
abbrev S1536 : Shape := ⟨1, ![1536]⟩
abbrev S512x1 : Shape := ⟨2, ![512, 1]⟩
abbrev S1x512 : Shape := ⟨2, ![1, 512]⟩
abbrev S1x1536 : Shape := ⟨2, ![1, 1536]⟩
abbrev S512x8x64 : Shape := ⟨3, ![512, 8, 64]⟩
abbrev S512x64 : Shape := ⟨2, ![512, 64]⟩
abbrev S512x1x64 : Shape := ⟨3, ![512, 1, 64]⟩
abbrev S512x8 : Shape := ⟨2, ![512, 8]⟩
abbrev S512x1x8 : Shape := ⟨3, ![512, 1, 8]⟩
abbrev S512x8x8 : Shape := ⟨3, ![512, 8, 8]⟩
abbrev S512x8x1 : Shape := ⟨3, ![512, 8, 1]⟩
abbrev S1x2048 : Shape := ⟨2, ![1, 2048]⟩

abbrev nBuf : Space → Nat
  | .hbm => 30
  | .vmem => 16
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S2048x512, .f32⟩
  | .hbm, ⟨10, _⟩ => ⟨S2048, .f32⟩
  | .hbm, ⟨11, _⟩ => ⟨S512x2048, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x1536, .f32⟩
  | .hbm, ⟨21, _⟩ => ⟨S512x1536, .bf16⟩
  | .hbm, ⟨22, _⟩ => ⟨S1536, .f32⟩
  | .hbm, ⟨23, _⟩ => ⟨S512x512, .f32⟩
  | .hbm, ⟨24, _⟩ => ⟨S512x512, .bf16⟩
  | .hbm, ⟨25, _⟩ => ⟨S512x2048, .f32⟩
  | .hbm, ⟨26, _⟩ => ⟨S512x2048, .bf16⟩
  | .hbm, ⟨27, _⟩ => ⟨S2048x512, .f32⟩
  | .hbm, ⟨28, _⟩ => ⟨S2048x512, .bf16⟩
  | .hbm, ⟨29, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x1536, .bf16⟩
  | .local _ .vmem, ⟨3, _⟩ => ⟨S1536, .f32⟩
  | .local _ .vmem, ⟨4, _⟩ => ⟨S512x512, .bf16⟩
  | .local _ .vmem, ⟨5, _⟩ => ⟨S512, .f32⟩
  | .local _ .vmem, ⟨6, _⟩ => ⟨S512x2048, .bf16⟩
  | .local _ .vmem, ⟨7, _⟩ => ⟨S2048, .f32⟩
  | .local _ .vmem, ⟨8, _⟩ => ⟨S2048x512, .bf16⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512x512, .f32⟩
  | .local _ .vmem, ⟨15, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S512x512_S512x512_1_0 : S512x512.Transposes [1, 0] S512x512
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  transposes_S2048x512_S512x2048_1_0 : S2048x512.Transposes [1, 0] S512x2048
  transposes_S512x2048_S2048x512_1_0 : S512x2048.Transposes [1, 0] S2048x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  reduces_S512x512_S512 : S512x512.Reduces [1] S512
  shapeCasts_S512_S512x1 : S512.ShapeCasts S512x1
  broadcasts_S512x1_S512x512 : S512x1.Broadcasts S512x512
  shapeCasts_S512_S1x512 : S512.ShapeCasts S1x512
  broadcasts_S1x512_S512x512 : S1x512.Broadcasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  shapeCasts_S512x512_S512x8x64 : S512x512.ShapeCasts S512x8x64
  slices_S512x512_o0_0_S512x64 : S512x512.Slices ![0, 0] S512x64
  shapeCasts_S512x64_S512x1x64 : S512x64.ShapeCasts S512x1x64
  broadcasts_S512x1x64_S512x8x64 : S512x1x64.Broadcasts S512x8x64
  reduces_S512x8x64_S512x8 : S512x8x64.Reduces [2] S512x8
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  shapeCasts_S512x8_S512x1x8 : S512x8.ShapeCasts S512x1x8
  concatenates_S512x1x8_S512x1x8_S512x1x8_S512x1x8_S512x1x8_S512x1x8_S512x1x8_S512x1x8_S512x8x8_d1 : Shape.Concatenates [S512x1x8, S512x1x8, S512x1x8, S512x1x8, S512x1x8, S512x1x8, S512x1x8, S512x1x8] S512x8x8 1
  reduces_S512x8x8_S512x8 : S512x8x8.Reduces [2] S512x8
  shapeCasts_S512x8_S512x8x1 : S512x8.ShapeCasts S512x8x1
  broadcasts_S512x8x1_S512x8x8 : S512x8x1.Broadcasts S512x8x8
  slices_S512x8x8_o0_0_0_S512x1x8 : S512x8x8.Slices ![0, 0, 0] S512x1x8
  shapeCasts_S512x1x8_S512x8 : S512x1x8.ShapeCasts S512x8
  broadcasts_S512x8x1_S512x8x64 : S512x8x1.Broadcasts S512x8x64
  reduces_S512x8x64_S512x64 : S512x8x64.Reduces [1] S512x64
  slices_S512x8x8_o0_1_0_S512x1x8 : S512x8x8.Slices ![0, 1, 0] S512x1x8
  slices_S512x8x8_o0_2_0_S512x1x8 : S512x8x8.Slices ![0, 2, 0] S512x1x8
  slices_S512x8x8_o0_3_0_S512x1x8 : S512x8x8.Slices ![0, 3, 0] S512x1x8
  slices_S512x8x8_o0_4_0_S512x1x8 : S512x8x8.Slices ![0, 4, 0] S512x1x8
  slices_S512x8x8_o0_5_0_S512x1x8 : S512x8x8.Slices ![0, 5, 0] S512x1x8
  slices_S512x8x8_o0_6_0_S512x1x8 : S512x8x8.Slices ![0, 6, 0] S512x1x8
  slices_S512x8x8_o0_7_0_S512x1x8 : S512x8x8.Slices ![0, 7, 0] S512x1x8
  concatenates_S512x64_S512x64_S512x64_S512x64_S512x64_S512x64_S512x64_S512x64_S512x512_d1 : Shape.Concatenates [S512x64, S512x64, S512x64, S512x64, S512x64, S512x64, S512x64, S512x64] S512x512 1
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x512_S512x1536_S512x1536_1_0_0_1_n_n_wf : DotDims.WF S512x512 S512x1536 S512x1536 [1] [0] [0] [1] [] []
  dot_S512x512_S512x512_S512x512_1_0_0_1_n_n_wf : DotDims.WF S512x512 S512x512 S512x512 [1] [0] [0] [1] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S65536x512.size a
  hwx0_13 : ∀ i : grid0.Coords, EltTy.bits .f32 = 32 ∨ (Rect.block (s := S65536x512) S512x512.size (cc0_transform_13 i) (hinb0_13 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S65536x8x64 : Shape := ⟨3, ![65536, 8, 64]⟩
abbrev S65536x8x8 : Shape := ⟨3, ![65536, 8, 8]⟩
abbrev S65536x8 : Shape := ⟨2, ![65536, 8]⟩
abbrev S65536x8x1 : Shape := ⟨3, ![65536, 8, 1]⟩
abbrev S65536x2048 : Shape := ⟨2, ![65536, 2048]⟩
abbrev S1x2048 : Shape := ⟨2, ![1, 2048]⟩

abbrev nBuf : Space → Nat
  | .hbm => 133
  | .vmem => 0
  | .smem => 0
  | _ => 0

abbrev hbmTy0_0 (i : Nat) : BufTy := match i % 128 with
  | 0 => ⟨S65536x512, .f32⟩
  | 1 => ⟨S512x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S2048x512, .f32⟩
  | 10 => ⟨S2048, .f32⟩
  | 11 => ⟨S512x2048, .f32⟩
  | 12 => ⟨S512, .f32⟩
  | 13 => ⟨S512, .f32⟩
  | 14 => ⟨S512, .f32⟩
  | 15 => ⟨S512, .f32⟩
  | 16 => ⟨S512, .f32⟩
  | 17 => ⟨S_, .f32⟩
  | 18 => ⟨S65536, .f32⟩
  | 19 => ⟨S65536x1, .f32⟩
  | 20 => ⟨S_, .f32⟩
  | 21 => ⟨S65536x1, .f32⟩
  | 22 => ⟨S65536x1, .f32⟩
  | 23 => ⟨S65536x512, .f32⟩
  | 24 => ⟨S65536x512, .f32⟩
  | 25 => ⟨S65536x512, .f32⟩
  | 26 => ⟨S_, .f32⟩
  | 27 => ⟨S65536, .f32⟩
  | 28 => ⟨S65536x1, .f32⟩
  | 29 => ⟨S_, .f32⟩
  | 30 => ⟨S65536x1, .f32⟩
  | 31 => ⟨S65536x1, .f32⟩
  | 32 => ⟨S65536x512, .f32⟩
  | 33 => ⟨S65536x512, .f32⟩
  | 34 => ⟨S_, .f32⟩
  | 35 => ⟨S65536x1, .f32⟩
  | 36 => ⟨S65536x1, .f32⟩
  | 37 => ⟨S65536x1, .f32⟩
  | 38 => ⟨S65536x512, .f32⟩
  | 39 => ⟨S65536x512, .f32⟩
  | 40 => ⟨S1x512, .f32⟩
  | 41 => ⟨S65536x512, .f32⟩
  | 42 => ⟨S65536x512, .f32⟩
  | 43 => ⟨S1x512, .f32⟩
  | 44 => ⟨S65536x512, .f32⟩
  | 45 => ⟨S65536x512, .f32⟩
  | 46 => ⟨S512x512, .f32⟩
  | 47 => ⟨S65536x512, .f32⟩
  | 48 => ⟨S1x512, .f32⟩
  | 49 => ⟨S65536x512, .f32⟩
  | 50 => ⟨S65536x512, .f32⟩
  | 51 => ⟨S65536x8x64, .f32⟩
  | 52 => ⟨S512x512, .f32⟩
  | 53 => ⟨S65536x512, .f32⟩
  | 54 => ⟨S1x512, .f32⟩
  | 55 => ⟨S65536x512, .f32⟩
  | 56 => ⟨S65536x512, .f32⟩
  | 57 => ⟨S65536x8x64, .f32⟩
  | 58 => ⟨S512x512, .f32⟩
  | 59 => ⟨S65536x512, .f32⟩
  | 60 => ⟨S1x512, .f32⟩
  | 61 => ⟨S65536x512, .f32⟩
  | 62 => ⟨S65536x512, .f32⟩
  | 63 => ⟨S65536x8x64, .f32⟩
  | 64 => ⟨S65536x8x8, .f32⟩
  | 65 => ⟨S_, .f32⟩
  | 66 => ⟨S65536x8x8, .f32⟩
  | 67 => ⟨S65536x8x8, .f32⟩
  | 68 => ⟨S_, .f32⟩
  | 69 => ⟨S65536x8, .f32⟩
  | 70 => ⟨S_, .f32⟩
  | 71 => ⟨S65536x8, .f32⟩
  | 72 => ⟨S65536x8, .f32⟩
  | 73 => ⟨S65536x8x1, .f32⟩
  | 74 => ⟨S65536x8x8, .f32⟩
  | 75 => ⟨S65536x8x8, .f32⟩
  | 76 => ⟨S65536x8x8, .f32⟩
  | 77 => ⟨S_, .f32⟩
  | 78 => ⟨S65536x8, .f32⟩
  | 79 => ⟨S65536x8x1, .f32⟩
  | 80 => ⟨S65536x8x8, .f32⟩
  | 81 => ⟨S65536x8x8, .f32⟩
  | 82 => ⟨S65536x8x64, .f32⟩
  | 83 => ⟨S65536x512, .f32⟩
  | 84 => ⟨S512x512, .f32⟩
  | 85 => ⟨S65536x512, .f32⟩
  | 86 => ⟨S1x512, .f32⟩
  | 87 => ⟨S65536x512, .f32⟩
  | 88 => ⟨S65536x512, .f32⟩
  | 89 => ⟨S65536x512, .f32⟩
  | 90 => ⟨S_, .f32⟩
  | 91 => ⟨S65536, .f32⟩
  | 92 => ⟨S65536x1, .f32⟩
  | 93 => ⟨S_, .f32⟩
  | 94 => ⟨S65536x1, .f32⟩
  | 95 => ⟨S65536x1, .f32⟩
  | 96 => ⟨S65536x512, .f32⟩
  | 97 => ⟨S65536x512, .f32⟩
  | 98 => ⟨S65536x512, .f32⟩
  | 99 => ⟨S_, .f32⟩
  | 100 => ⟨S65536, .f32⟩
  | 101 => ⟨S65536x1, .f32⟩
  | 102 => ⟨S_, .f32⟩
  | 103 => ⟨S65536x1, .f32⟩
  | 104 => ⟨S65536x1, .f32⟩
  | 105 => ⟨S65536x512, .f32⟩
  | 106 => ⟨S65536x512, .f32⟩
  | 107 => ⟨S_, .f32⟩
  | 108 => ⟨S65536x1, .f32⟩
  | 109 => ⟨S65536x1, .f32⟩
  | 110 => ⟨S65536x1, .f32⟩
  | 111 => ⟨S65536x512, .f32⟩
  | 112 => ⟨S65536x512, .f32⟩
  | 113 => ⟨S1x512, .f32⟩
  | 114 => ⟨S65536x512, .f32⟩
  | 115 => ⟨S65536x512, .f32⟩
  | 116 => ⟨S1x512, .f32⟩
  | 117 => ⟨S65536x512, .f32⟩
  | 118 => ⟨S65536x512, .f32⟩
  | 119 => ⟨S512x2048, .f32⟩
  | 120 => ⟨S65536x2048, .f32⟩
  | 121 => ⟨S1x2048, .f32⟩
  | 122 => ⟨S65536x2048, .f32⟩
  | 123 => ⟨S65536x2048, .f32⟩
  | 124 => ⟨S_, .f32⟩
  | 125 => ⟨S65536x2048, .f32⟩
  | 126 => ⟨S65536x2048, .f32⟩
  | 127 => ⟨S2048x512, .f32⟩
  | _ => ⟨S65536x512, .f32⟩

abbrev hbmTy0_1 (i : Nat) : BufTy := match i % 128 with
  | 0 => ⟨S65536x512, .f32⟩
  | 1 => ⟨S1x512, .f32⟩
  | 2 => ⟨S65536x512, .f32⟩
  | 3 => ⟨S65536x512, .f32⟩
  | 4 => ⟨S65536x512, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call0_cst : Ref sig .tc := ⟨.hbm, 124, rfl⟩
abbrev main_call0_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S512x512_S512x512_1_0 : S512x512.Transposes [1, 0] S512x512
  shapeCasts_S65536x512_S65536x8x64 : S65536x512.ShapeCasts S65536x8x64
  bcast_S_S65536x8x8 : S_.BroadcastsInDim S65536x8x8 (![] : Fin 0 → Fin S65536x8x8.rank)
  reducesTo_S65536x8x8_S65536x8_d2 : S65536x8x8.ReducesTo [2] S65536x8
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x8_0_1_2 : S65536x8x1.BroadcastsInDim S65536x8x8 (![0, 1, 2] : Fin 3 → Fin S65536x8x8.rank)
  shapeCasts_S65536x8x64_S65536x512 : S65536x8x64.ShapeCasts S65536x512
  transposes_S2048x512_S512x2048_1_0 : S2048x512.Transposes [1, 0] S512x2048
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  transposes_S512x2048_S2048x512_1_0 : S512x2048.Transposes [1, 0] S2048x512
  dot_S65536x512_S512x512_S65536x512_1_0_0_1_n_n_wf : DotDims.WF S65536x512 S512x512 S65536x512 [1] [0] [0] [1] [] []
  dot_S65536x8x64_S65536x8x64_S65536x8x8_2_2_1_1_0_0_wf : DotDims.WF S65536x8x64 S65536x8x64 S65536x8x8 [2] [2] [1] [1] [0] [0]
  dot_S65536x8x8_S65536x8x64_S65536x8x64_2_1_1_2_0_0_wf : DotDims.WF S65536x8x8 S65536x8x64 S65536x8x64 [2] [1] [1] [2] [0] [0]
  dot_S65536x512_S512x2048_S65536x2048_1_0_0_1_n_n_wf : DotDims.WF S65536x512 S512x2048 S65536x2048 [1] [0] [0] [1] [] []
  dot_S65536x2048_S2048x512_S65536x512_1_0_0_1_n_n_wf : DotDims.WF S65536x2048 S2048x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x8x64_S65536x8x64_S65536x8x8_2_2_1_1_0_0 : DotDims S65536x8x64 S65536x8x64 S65536x8x8 where
  lhsContracting := [2]
  rhsContracting := [2]
  lhsNonContracting := [1]
  rhsNonContracting := [1]
  lhsBatch := [0]
  rhsBatch := [0]
  wf := dot_S65536x8x64_S65536x8x64_S65536x8x8_2_2_1_1_0_0_wf
def dot_S65536x8x8_S65536x8x64_S65536x8x64_2_1_1_2_0_0 : DotDims S65536x8x8 S65536x8x64 S65536x8x64 where
  lhsContracting := [2]
  rhsContracting := [1]
  lhsNonContracting := [1]
  rhsNonContracting := [2]
  lhsBatch := [0]
  rhsBatch := [0]
  wf := dot_S65536x8x8_S65536x8x64_S65536x8x64_2_1_1_2_0_0_wf
def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf
def dot_S65536x2048_S2048x512_S65536x512_1_0_0_1_n_n : DotDims S65536x2048 S2048x512 S65536x512 where
  lhsContracting := [1]
  rhsContracting := [0]
  lhsNonContracting := [0]
  rhsNonContracting := [1]
  lhsBatch := []
  rhsBatch := []
  wf := dot_S65536x2048_S2048x512_S65536x512_1_0_0_1_n_n_wf

class Facts : Prop extends Facts₀ where

variable [Facts]
-- ==== Proof.BodyValB.lean ====
/-
  The value the kernel body stores, as ONE function of the thirteen blocks it loads: the skeleton's payloads
  composed in the order the body computes them. Block w is window w's: 0 the rows of x, 1 the joined
  transposed projection weights, 2 the joined projection biases, 3 the transposed output weights, 4 its bias,
  5 and 7 the two transposed feed-forward weights, 6 and 8 their biases, 9 to 12 the two gains and shifts.
-/
import proofs.«107231_j40132174414149_2_alg».proof.Proof.Gen.Kernel.Skeleton

noncomputable section

namespace Cert.Kernel.Hand

open Idealize.ShloMosaic Cert.Kernel Cert.Kernel.Gen

variable {F : FTy → Type} [FloatOps F]

/-- The projected queries (all 512 columns). -/
def valQ (x0 : Vec F S512x512 .f32) (x1 : Vec F S512x1536 .bf16) (x2 : Vec F S1536 .f32) (x9 x10 : Vec F S512 .f32) : FVec F S512x512 .f32 :=
  k0_pay3 x0 x9 x10 x1 x2
/-- The projected keys, as 8 heads of 64. -/
def valK (x0 : Vec F S512x512 .f32) (x1 : Vec F S512x1536 .bf16) (x2 : Vec F S1536 .f32) (x9 x10 : Vec F S512 .f32) : FVec F S512x8x64 .f32 :=
  k0_pay4 x0 x9 x10 x1 x2
/-- The projected values, as 8 heads of 64. -/
def valV (x0 : Vec F S512x512 .f32) (x1 : Vec F S512x1536 .bf16) (x2 : Vec F S1536 .f32) (x9 x10 : Vec F S512 .f32) : FVec F S512x8x64 .f32 :=
  k0_pay5 x0 x9 x10 x1 x2
/-- Query head 0 against every key head, entry by entry (before the sum over the 64 places). -/
def valQK0 (x0 : Vec F S512x512 .f32) (x1 : Vec F S512x1536 .bf16) (x2 : Vec F S1536 .f32) (x9 x10 : Vec F S512 .f32) : FVec F S512x8x64 .f32 :=
  k0_pay6 x0 x9 x10 x1 x2

/-- The 8 × 8 weights of every row. -/
def valW (x0 : Vec F S512x512 .f32) (x1 : Vec F S512x1536 .bf16) (x2 : Vec F S1536 .f32) (x9 x10 : Vec F S512 .f32) : FVec F S512x8x8 .f32 :=
  k0_pay15 (valK x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))

/-- Mixed head a (a = 0, 1, 2, 3) and the weights' row of head 4, as the body hands them on. -/
def valO0 (x0 : Vec F S512x512 .f32) (x1 : Vec F S512x1536 .bf16) (x2 : Vec F S1536 .f32) (x9 x10 : Vec F S512 .f32) : FVec F S512x64 .f32 :=
  k0_pay16 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO1 (x0 : Vec F S512x512 .f32) (x1 : Vec F S512x1536 .bf16) (x2 : Vec F S1536 .f32) (x9 x10 : Vec F S512 .f32) : FVec F S512x64 .f32 :=
  k0_pay17 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO2 (x0 : Vec F S512x512 .f32) (x1 : Vec F S512x1536 .bf16) (x2 : Vec F S1536 .f32) (x9 x10 : Vec F S512 .f32) : FVec F S512x64 .f32 :=
  k0_pay18 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO3 (x0 : Vec F S512x512 .f32) (x1 : Vec F S512x1536 .bf16) (x2 : Vec F S1536 .f32) (x9 x10 : Vec F S512 .f32) : FVec F S512x64 .f32 :=
  k0_pay19 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valW4 (x0 : Vec F S512x512 .f32) (x1 : Vec F S512x1536 .bf16) (x2 : Vec F S1536 .f32) (x9 x10 : Vec F S512 .f32) : FVec F S512x8 .f32 :=
  k0_pay20 (valK x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))

/-- The second half of the body — the output projection, the residual, the second normalisation and the
    feed-forward — over what the first half hands it: the rows x0, the values V, the weights W, the four mixed
    heads o0 … o3 and the weights' row w4 of head 4; and its own blocks 3 to 8, 11, 12. -/
def valTail (x0 : Vec F S512x512 .f32) (V : FVec F S512x8x64 .f32) (W : FVec F S512x8x8 .f32)
    (o0 o1 o2 o3 : FVec F S512x64 .f32) (w4 : FVec F S512x8 .f32)
    (x3 : Vec F S512x512 .bf16) (x4 : Vec F S512 .f32) (x5 : Vec F S512x2048 .bf16) (x6 : Vec F S2048 .f32)
    (x7 : Vec F S2048x512 .bf16) (x8 x11 x12 : Vec F S512 .f32) : FVec F S512x512 .f32 :=
  k0_pay1 (k0_pay21 x0 V W o0 o1 o2 o3 w4 x3 x4) x11 x12 (k0_pay23 x0 V W o0 o1 o2 o3 w4 x3 x4)
    (k0_pay24 x0 V W o0 o1 o2 o3 w4 x3 x4) x5 x6 x7 x8

/-- What the body stores into its output block. -/
def bodyVal (x0 : Vec F S512x512 .f32) (x1 : Vec F S512x1536 .bf16) (x2 : Vec F S1536 .f32) (x3 : Vec F S512x512 .bf16)
    (x4 : Vec F S512 .f32) (x5 : Vec F S512x2048 .bf16) (x6 : Vec F S2048 .f32) (x7 : Vec F S2048x512 .bf16)
    (x8 x9 x10 x11 x12 : Vec F S512 .f32) : FVec F S512x512 .f32 :=
  valTail x0 (valV x0 x1 x2 x9 x10) (valW x0 x1 x2 x9 x10) (valO0 x0 x1 x2 x9 x10) (valO1 x0 x1 x2 x9 x10)
    (valO2 x0 x1 x2 x9 x10) (valO3 x0 x1 x2 x9 x10) (valW4 x0 x1 x2 x9 x10) x3 x4 x5 x6 x7 x8 x11 x12

end Cert.Kernel.Hand

end
-- ==== Proof.FrameB.lean ====
/-
  The frame of the kernel program, by hand: the program runs to the end, faults nowhere, and leaves its
  seventeen argument arrays unchanged; and, for the value proof, every array of the one pipelined call after
  the run is named.

  @main is twelve host operations (four transposes, two joins of three arrays, four changes of format) and
  then one pipelined call over a grid of 128 points. At point t the call stages rows 512·t … 512·t+511 of x
  (window 0, fetched at every point) and the twelve whole weight, bias, gain and shift arrays (windows 1 to 12,
  fetched once), runs the body, and writes window 13's block back to rows 512·t … of the result. The body
  loads each input block whole, stores one value — `bodyVal` of the thirteen blocks — over the whole output
  block, and touches nothing else; so after the body the output's staging buffer holds that value whatever it
  held before, and every input's buffer its block. That is the proof data below; the launch theorem of the
  pipeline library then gives the run.
-/
import proofs.«107231_j40132174414149_2_alg».proof.Proof.Gen.Kernel.Launch
import proofs.«107231_j40132174414149_2_alg».proof.Proof.Gen.Kernel.Skeleton
import proofs.«107231_j40132174414149_2_alg».proof.Proof.Gen.Kernel.Points
import proofs.«107231_j40132174414149_2_alg».proof.Proof.BodyValB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core c's buffers when the call is entered: after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 15: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 16: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the arrays `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the arrays `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the arrays `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the arrays `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the arrays `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data over the arrays `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data over the arrays `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data over the arrays `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data over the arrays `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data over the arrays `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data over the arrays `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data over the arrays `V` whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the arrays `V`, a run to the pipeline library's frame post gives the frame claim's
    post: a staged argument by the library's reading of an input window's array, an argument no window stages by
    the post's second clause, each then by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c))),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).1 8).trans (((dats 0 c).arrAt_in 8 rfl _).trans ((hA c 8).trans (V_main_arg12 m c))),
      ((h c).1 9).trans (((dats 0 c).arrAt_in 9 rfl _).trans ((hA c 9).trans (V_main_arg13 m c))),
      ((h c).1 10).trans (((dats 0 c).arrAt_in 10 rfl _).trans ((hA c 10).trans (V_main_arg14 m c))),
      ((h c).1 11).trans (((dats 0 c).arrAt_in 11 rfl _).trans ((hA c 11).trans (V_main_arg15 m c))),
      ((h c).1 12).trans (((dats 0 c).arrAt_in 12 rfl _).trans ((hA c 12).trans (V_main_arg16 m c)))⟩) h

/-! ## The body's accesses: every load and the one store take a whole block -/

abbrev rS512x512 : Rect S512x512 := Rect.unit (s := S512x512) ![0, 0] S512x512.size inb_S512x512_S512x512_0_0
abbrev rS512x1536 : Rect S512x1536 := Rect.unit (s := S512x1536) ![0, 0] S512x1536.size inb_S512x1536_S512x1536_0_0
abbrev rS1536 : Rect S1536 := Rect.unit (s := S1536) ![0] S1536.size inb_S1536_S1536_0
abbrev rS512 : Rect S512 := Rect.unit (s := S512) ![0] S512.size inb_S512_S512_0
abbrev rS512x2048 : Rect S512x2048 := Rect.unit (s := S512x2048) ![0, 0] S512x2048.size inb_S512x2048_S512x2048_0_0
abbrev rS2048 : Rect S2048 := Rect.unit (s := S2048) ![0] S2048.size inb_S2048_S2048_0
abbrev rS2048x512 : Rect S2048x512 := Rect.unit (s := S2048x512) ![0, 0] S2048x512.size inb_S2048x512_S2048x512_0_0

/-! ## What the body leaves in the output window's buffer -/

/-- Window 13's staging buffer after the body, from the thirteen input blocks: its one store as a piece. -/
def out0_13 (x0 : Vec F S512x512 .f32) (x1 : Vec F S512x1536 .bf16) (x2 : Vec F S1536 .f32) (x3 : Vec F S512x512 .bf16) (x4 : Vec F S512 .f32) (x5 : Vec F S512x2048 .bf16) (x6 : Vec F S2048 .f32) (x7 : Vec F S2048x512 .bf16) (x8 : Vec F S512 .f32) (x9 : Vec F S512 .f32) (x10 : Vec F S512 .f32) (x11 : Vec F S512 .f32) (x12 : Vec F S512 .f32) : Vec F S512x512 .f32 :=
  View.canon [⟨rS512x512, bodyVal (View.ld x0 rS512x512) (View.ld x1 rS512x1536) (View.ld x2 rS1536) (View.ld x3 rS512x512) (View.ld x4 rS512) (View.ld x5 rS512x2048) (View.ld x6 rS2048) (View.ld x7 rS2048x512) (View.ld x8 rS512) (View.ld x9 rS512) (View.ld x10 rS512) (View.ld x11 rS512) (View.ld x12 rS512)⟩]

/-- The one store covers the buffer. -/
theorem cover0_13 (p0 : Vec F S512x512 .f32) (y : S512x512.Idx) :
    ∃ pc ∈ ([⟨rS512x512, p0⟩] : List (View.Piece (Elt F) S512x512 .f32)), y ∈ pc.1.set :=
  View.cover_of_tiled [⟨rS512x512, p0⟩] S512x512.size (by rfl) y

/-! ## The body's triple -/

set_option maxHeartbeats 4000000 in
/-- The body on whole staging memrefs, the inputs' at contents xW and the output's at anything, runs to the
    continuation holding the inputs' as they were and the output's at `out0_13` of the inputs'. -/
theorem sound_kernel (c : Dev nD) (E : Set ℕ) (i : grid0.Coords) (arg0 : Memref sig .tc .vmem S512x512 .f32) (harg0 : arg0.IsWhole) (arg1 : Memref sig .tc .vmem S512x1536 .bf16) (harg1 : arg1.IsWhole) (arg2 : Memref sig .tc .vmem S1536 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x2048 .bf16) (harg5 : arg5.IsWhole) (arg6 : Memref sig .tc .vmem S2048 .f32) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512x512 .f32) (harg13 : arg13.IsWhole)
    (x0 : Vec F S512x512 .f32) (x1 : Vec F S512x1536 .bf16) (x2 : Vec F S1536 .f32) (x3 : Vec F S512x512 .bf16) (x4 : Vec F S512 .f32) (x5 : Vec F S512x2048 .bf16) (x6 : Vec F S2048 .f32) (x7 : Vec F S2048x512 .bf16) (x8 : Vec F S512 .f32) (x9 : Vec F S512 .f32) (x10 : Vec F S512 .f32) (x11 : Vec F S512 .f32) (x12 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8 x9 x10 x11 x12)) -∗ K ⟨⟩))
      ⊢ wp frame (wpE (defs₀ (F := F)) Variants.none c none) E (cc0__fused_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0_13 _)

/-! ## The pipeline's proof data -/

/-- The proof data of the call on core c: the arrays as the call finds them; after the body at point t each
    input's buffer at its block and the output's at `out0_13` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the call at what the library computes from the proof data and every other unscoped buffer as
    the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Hand

end
-- ==== Proof.BodyValI.lean ====
/-
  The value the kernel body stores, as ONE function of the thirteen blocks it loads: the skeleton's payloads
  composed in the order the body computes them. Block w is window w's: 0 the rows of x, 1 the joined
  transposed projection weights, 2 the joined projection biases, 3 the transposed output weights, 4 its bias,
  5 and 7 the two transposed feed-forward weights, 6 and 8 their biases, 9 to 12 the two gains and shifts.
-/
import proofs.«107231_j40132174414149_2_alg».proof.Proof.Gen.KernelIdeal.Skeleton

noncomputable section

namespace Cert.KernelIdeal.Hand

open Idealize.ShloMosaic Cert.KernelIdeal Cert.KernelIdeal.Gen

variable {F : FTy → Type} [FloatOps F]

/-- The projected queries (all 512 columns). -/
def valQ (x0 : Vec F S512x512 .f32) (x1 : Vec F S512x1536 .bf16) (x2 : Vec F S1536 .f32) (x9 x10 : Vec F S512 .f32) : FVec F S512x512 .f32 :=
  k0_pay3 x0 x9 x10 x1 x2
/-- The projected keys, as 8 heads of 64. -/
def valK (x0 : Vec F S512x512 .f32) (x1 : Vec F S512x1536 .bf16) (x2 : Vec F S1536 .f32) (x9 x10 : Vec F S512 .f32) : FVec F S512x8x64 .f32 :=
  k0_pay4 x0 x9 x10 x1 x2
/-- The projected values, as 8 heads of 64. -/
def valV (x0 : Vec F S512x512 .f32) (x1 : Vec F S512x1536 .bf16) (x2 : Vec F S1536 .f32) (x9 x10 : Vec F S512 .f32) : FVec F S512x8x64 .f32 :=
  k0_pay5 x0 x9 x10 x1 x2
/-- Query head 0 against every key head, entry by entry (before the sum over the 64 places). -/
def valQK0 (x0 : Vec F S512x512 .f32) (x1 : Vec F S512x1536 .bf16) (x2 : Vec F S1536 .f32) (x9 x10 : Vec F S512 .f32) : FVec F S512x8x64 .f32 :=
  k0_pay6 x0 x9 x10 x1 x2

/-- The 8 × 8 weights of every row. -/
def valW (x0 : Vec F S512x512 .f32) (x1 : Vec F S512x1536 .bf16) (x2 : Vec F S1536 .f32) (x9 x10 : Vec F S512 .f32) : FVec F S512x8x8 .f32 :=
  k0_pay15 (valK x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))

/-- Mixed head a (a = 0, 1, 2, 3) and the weights' row of head 4, as the body hands them on. -/
def valO0 (x0 : Vec F S512x512 .f32) (x1 : Vec F S512x1536 .bf16) (x2 : Vec F S1536 .f32) (x9 x10 : Vec F S512 .f32) : FVec F S512x64 .f32 :=
  k0_pay16 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO1 (x0 : Vec F S512x512 .f32) (x1 : Vec F S512x1536 .bf16) (x2 : Vec F S1536 .f32) (x9 x10 : Vec F S512 .f32) : FVec F S512x64 .f32 :=
  k0_pay17 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO2 (x0 : Vec F S512x512 .f32) (x1 : Vec F S512x1536 .bf16) (x2 : Vec F S1536 .f32) (x9 x10 : Vec F S512 .f32) : FVec F S512x64 .f32 :=
  k0_pay18 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valO3 (x0 : Vec F S512x512 .f32) (x1 : Vec F S512x1536 .bf16) (x2 : Vec F S1536 .f32) (x9 x10 : Vec F S512 .f32) : FVec F S512x64 .f32 :=
  k0_pay19 (valK x0 x1 x2 x9 x10) (valV x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))
def valW4 (x0 : Vec F S512x512 .f32) (x1 : Vec F S512x1536 .bf16) (x2 : Vec F S1536 .f32) (x9 x10 : Vec F S512 .f32) : FVec F S512x8 .f32 :=
  k0_pay20 (valK x0 x1 x2 x9 x10) (k0_pay7 (valQK0 x0 x1 x2 x9 x10))
    (k0_pay8 (valQ x0 x1 x2 x9 x10) (valK x0 x1 x2 x9 x10)) (k0_pay9 (valQ x0 x1 x2 x9 x10) (valK x0 x1 x2 x9 x10))
    (k0_pay10 (valQ x0 x1 x2 x9 x10) (valK x0 x1 x2 x9 x10)) (k0_pay11 (valQ x0 x1 x2 x9 x10) (valK x0 x1 x2 x9 x10))
    (k0_pay12 (valQ x0 x1 x2 x9 x10) (valK x0 x1 x2 x9 x10)) (k0_pay13 (valQ x0 x1 x2 x9 x10) (valK x0 x1 x2 x9 x10))
    (k0_pay14 (valQ x0 x1 x2 x9 x10))

/-- The second half of the body — the output projection, the residual, the second normalisation and the
    feed-forward — over what the first half hands it: the rows x0, the values V, the weights W, the four mixed
    heads o0 … o3 and the weights' row w4 of head 4; and its own blocks 3 to 8, 11, 12. -/
def valTail (x0 : Vec F S512x512 .f32) (V : FVec F S512x8x64 .f32) (W : FVec F S512x8x8 .f32)
    (o0 o1 o2 o3 : FVec F S512x64 .f32) (w4 : FVec F S512x8 .f32)
    (x3 : Vec F S512x512 .bf16) (x4 : Vec F S512 .f32) (x5 : Vec F S512x2048 .bf16) (x6 : Vec F S2048 .f32)
    (x7 : Vec F S2048x512 .bf16) (x8 x11 x12 : Vec F S512 .f32) : FVec F S512x512 .f32 :=
  k0_pay1 (k0_pay21 x0 V W o0 o1 o2 o3 w4 x3 x4) x11 x12 (k0_pay23 x0 V W o0 o1 o2 o3 w4 x3 x4)
    (k0_pay24 x0 V W o0 o1 o2 o3 w4 x3 x4) x5 x6 x7 x8

/-- What the body stores into its output block. -/
def bodyVal (x0 : Vec F S512x512 .f32) (x1 : Vec F S512x1536 .bf16) (x2 : Vec F S1536 .f32) (x3 : Vec F S512x512 .bf16)
    (x4 : Vec F S512 .f32) (x5 : Vec F S512x2048 .bf16) (x6 : Vec F S2048 .f32) (x7 : Vec F S2048x512 .bf16)
    (x8 x9 x10 x11 x12 : Vec F S512 .f32) : FVec F S512x512 .f32 :=
  valTail x0 (valV x0 x1 x2 x9 x10) (valW x0 x1 x2 x9 x10) (valO0 x0 x1 x2 x9 x10) (valO1 x0 x1 x2 x9 x10)
    (valO2 x0 x1 x2 x9 x10) (valO3 x0 x1 x2 x9 x10) (valW4 x0 x1 x2 x9 x10) x3 x4 x5 x6 x7 x8 x11 x12

end Cert.KernelIdeal.Hand

end
-- ==== Proof.FrameI.lean ====
/-
  The frame of the kernel program, by hand: the program runs to the end, faults nowhere, and leaves its
  seventeen argument arrays unchanged; and, for the value proof, every array of the one pipelined call after
  the run is named.

  @main is twelve host operations (four transposes, two joins of three arrays, four changes of format) and
  then one pipelined call over a grid of 128 points. At point t the call stages rows 512·t … 512·t+511 of x
  (window 0, fetched at every point) and the twelve whole weight, bias, gain and shift arrays (windows 1 to 12,
  fetched once), runs the body, and writes window 13's block back to rows 512·t … of the result. The body
  loads each input block whole, stores one value — `bodyVal` of the thirteen blocks — over the whole output
  block, and touches nothing else; so after the body the output's staging buffer holds that value whatever it
  held before, and every input's buffer its block. That is the proof data below; the launch theorem of the
  pipeline library then gives the run.
-/
import proofs.«107231_j40132174414149_2_alg».proof.Proof.Gen.KernelIdeal.Launch
import proofs.«107231_j40132174414149_2_alg».proof.Proof.Gen.KernelIdeal.Skeleton
import proofs.«107231_j40132174414149_2_alg».proof.Proof.Gen.KernelIdeal.Points
import proofs.«107231_j40132174414149_2_alg».proof.Proof.BodyValI
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core c's buffers when the call is entered: after the twelve host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 15: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 16: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the arrays `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the arrays `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the arrays `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the arrays `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the arrays `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data over the arrays `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data over the arrays `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data over the arrays `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data over the arrays `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data over the arrays `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data over the arrays `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data over the arrays `V` whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the arrays `V`, a run to the pipeline library's frame post gives the frame claim's
    post: a staged argument by the library's reading of an input window's array, an argument no window stages by
    the post's second clause, each then by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c))),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).1 8).trans (((dats 0 c).arrAt_in 8 rfl _).trans ((hA c 8).trans (V_main_arg12 m c))),
      ((h c).1 9).trans (((dats 0 c).arrAt_in 9 rfl _).trans ((hA c 9).trans (V_main_arg13 m c))),
      ((h c).1 10).trans (((dats 0 c).arrAt_in 10 rfl _).trans ((hA c 10).trans (V_main_arg14 m c))),
      ((h c).1 11).trans (((dats 0 c).arrAt_in 11 rfl _).trans ((hA c 11).trans (V_main_arg15 m c))),
      ((h c).1 12).trans (((dats 0 c).arrAt_in 12 rfl _).trans ((hA c 12).trans (V_main_arg16 m c)))⟩) h

/-! ## The body's accesses: every load and the one store take a whole block -/

abbrev rS512x512 : Rect S512x512 := Rect.unit (s := S512x512) ![0, 0] S512x512.size inb_S512x512_S512x512_0_0
abbrev rS512x1536 : Rect S512x1536 := Rect.unit (s := S512x1536) ![0, 0] S512x1536.size inb_S512x1536_S512x1536_0_0
abbrev rS1536 : Rect S1536 := Rect.unit (s := S1536) ![0] S1536.size inb_S1536_S1536_0
abbrev rS512 : Rect S512 := Rect.unit (s := S512) ![0] S512.size inb_S512_S512_0
abbrev rS512x2048 : Rect S512x2048 := Rect.unit (s := S512x2048) ![0, 0] S512x2048.size inb_S512x2048_S512x2048_0_0
abbrev rS2048 : Rect S2048 := Rect.unit (s := S2048) ![0] S2048.size inb_S2048_S2048_0
abbrev rS2048x512 : Rect S2048x512 := Rect.unit (s := S2048x512) ![0, 0] S2048x512.size inb_S2048x512_S2048x512_0_0

/-! ## What the body leaves in the output window's buffer -/

/-- Window 13's staging buffer after the body, from the thirteen input blocks: its one store as a piece. -/
def out0_13 (x0 : Vec F S512x512 .f32) (x1 : Vec F S512x1536 .bf16) (x2 : Vec F S1536 .f32) (x3 : Vec F S512x512 .bf16) (x4 : Vec F S512 .f32) (x5 : Vec F S512x2048 .bf16) (x6 : Vec F S2048 .f32) (x7 : Vec F S2048x512 .bf16) (x8 : Vec F S512 .f32) (x9 : Vec F S512 .f32) (x10 : Vec F S512 .f32) (x11 : Vec F S512 .f32) (x12 : Vec F S512 .f32) : Vec F S512x512 .f32 :=
  View.canon [⟨rS512x512, bodyVal (View.ld x0 rS512x512) (View.ld x1 rS512x1536) (View.ld x2 rS1536) (View.ld x3 rS512x512) (View.ld x4 rS512) (View.ld x5 rS512x2048) (View.ld x6 rS2048) (View.ld x7 rS2048x512) (View.ld x8 rS512) (View.ld x9 rS512) (View.ld x10 rS512) (View.ld x11 rS512) (View.ld x12 rS512)⟩]

/-- The one store covers the buffer. -/
theorem cover0_13 (p0 : Vec F S512x512 .f32) (y : S512x512.Idx) :
    ∃ pc ∈ ([⟨rS512x512, p0⟩] : List (View.Piece (Elt F) S512x512 .f32)), y ∈ pc.1.set :=
  View.cover_of_tiled [⟨rS512x512, p0⟩] S512x512.size (by rfl) y

/-! ## The body's triple -/

set_option maxHeartbeats 4000000 in
/-- The body on whole staging memrefs, the inputs' at contents xW and the output's at anything, runs to the
    continuation holding the inputs' as they were and the output's at `out0_13` of the inputs'. -/
theorem sound_kernel (c : Dev nD) (E : Set ℕ) (i : grid0.Coords) (arg0 : Memref sig .tc .vmem S512x512 .f32) (harg0 : arg0.IsWhole) (arg1 : Memref sig .tc .vmem S512x1536 .bf16) (harg1 : arg1.IsWhole) (arg2 : Memref sig .tc .vmem S1536 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512x2048 .bf16) (harg5 : arg5.IsWhole) (arg6 : Memref sig .tc .vmem S2048 .f32) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512 .f32) (harg12 : arg12.IsWhole) (arg13 : Memref sig .tc .vmem S512x512 .f32) (harg13 : arg13.IsWhole)
    (x0 : Vec F S512x512 .f32) (x1 : Vec F S512x1536 .bf16) (x2 : Vec F S1536 .f32) (x3 : Vec F S512x512 .bf16) (x4 : Vec F S512 .f32) (x5 : Vec F S512x2048 .bf16) (x6 : Vec F S2048 .f32) (x7 : Vec F S2048x512 .bf16) (x8 : Vec F S512 .f32) (x9 : Vec F S512 .f32) (x10 : Vec F S512 .f32) (x11 : Vec F S512 .f32) (x12 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8 x9 x10 x11 x12)) -∗ K ⟨⟩))
      ⊢ wp frame (wpE (defs₀ (F := F)) Variants.none c none) E (cc0__fused_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0_13 _)

/-! ## The pipeline's proof data -/

/-- The proof data of the call on core c: the arrays as the call finds them; after the body at point t each
    input's buffer at its block and the output's at `out0_13` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the call at what the library computes from the proof data and every other unscoped buffer as
    the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Hand

end
-- ==== Proof.LibConcatCols3.lean ====
/-
  Three arrays joined side by side, read at an index given by its coordinates.

  An [a, b1], an [a, b2] and an [a, b3] array joined along the column axis give an [a, b] array whose entry at row p
  reads the first array at column k for the first b1 columns, the second array at column k for the columns b1 + k,
  and the third array at column k for the columns b1 + b2 + k.
-/
import Idealize.ShloMosaic.Lib.Pipeline.Value
import Idealize.ShloMosaic.Lib.ValueIdx

noncomputable section

namespace Cert.LibConcatCols3

open Idealize.ShloMosaic Idealize.ShloMosaic.ValueIdx

variable {α : Type}

/-- A column of the first piece. -/
theorem concatCols3_fst {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b1)
    (hk : k.val < b) :
    concatenate ⟨2, ![a, b]⟩ 1 [⟨⟨2, ![a, b1]⟩, x₁⟩, ⟨⟨2, ![a, b2]⟩, x₂⟩, ⟨⟨2, ![a, b3]⟩, x₃⟩] h (ix2 p ⟨k.val, hk⟩)
      = x₁ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨k.val, hk⟩) 0 (show 0 < 3 by omega) ⟨2, ![a, b1]⟩ x₁ rfl rfl 0 rfl
    (ix2 p k) (fun ax hax => ?_) (Nat.zero_add _)
  match ax with
  | ⟨0, _⟩ => rfl
  | ⟨1, _⟩ => exact absurd rfl hax

/-- A column of the second piece. -/
theorem concatCols3_snd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b2)
    (hk : b1 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + k.val, hk⟩)
      = x₂ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + k.val, hk⟩) 1 (show 1 < 3 by omega) ⟨2, ![a, b2]⟩ x₂ rfl rfl b1 ?_
    (ix2 p k) (fun ax hax => ?_) rfl
  · show [b1].sum = b1
    simp
  · match ax with
    | ⟨0, _⟩ => rfl
    | ⟨1, _⟩ => exact absurd rfl hax

/-- A column of the third piece. -/
theorem concatCols3_trd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b3)
    (hk : b1 + b2 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + b2 + k.val, hk⟩)
      = x₃ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + b2 + k.val, hk⟩) 2 (show 2 < 3 by omega) ⟨2, ![a, b3]⟩ x₃ rfl rfl (b1 + b2) ?_
    (ix2 p k) (fun ax hax => ?_) rfl
  · show [b1, b2].sum = b1 + b2
    simp
  · match ax with
    | ⟨0, _⟩ => rfl
    | ⟨1, _⟩ => exact absurd rfl hax

end Cert.LibConcatCols3

end
-- ==== Proof.HostArraysI.lean ====
/-
  The arrays the host operations hand the call, read at an entry (at the ideal instance, where a change of
  format is the identity): the joined transposed projection weights hold Wq, Wk, Wv entry (j, k) at row k and
  columns j, 512 + j, 1024 + j; the joined biases hold bq, bk, bv at places j, 512 + j, 1024 + j; the three
  other transposed weights hold entry (j, k) at (k, j).
-/
import proofs.«107231_j40132174414149_2_alg».proof.Proof.FrameI
import proofs.«107231_j40132174414149_2_alg».proof.Proof.LibConcatCols3
import Idealize.ShloMosaic.Lib.StableHlo.Run
import Idealize.ShloMosaic.Lib.ValueLayout
import Idealize.ShloMosaic.Lib.ValueIdx
import Idealize.ShloMosaic.Lib.Pipeline.Value

set_option maxRecDepth 16384

noncomputable section

namespace Cert.KernelIdeal.HostValue

open Cert.KernelIdeal Cert.KernelIdeal.Gen Cert.KernelIdeal.Hand Cert.KernelIdeal.Facts₀ Cert.KernelIdeal.Facts
open Idealize.ShloMosaic Idealize.ShloMosaic.TcCoe Idealize.SL.Sem Idealize.ShloMosaic.StableHlo Idealize.ShloMosaic.ValueIdx
open Cert.LibConcatCols3

/-- A host operation of three literal operands writes its function of the three operands' contents, each at
    its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Read one buffer after the twelve host operations: each operation's result at its own reference, any other
    reference passed through. -/
macro "host_results" : tactic =>
  `(tactic| (simp only [after_cons, after_nil]
             repeat (first
               | rw [nary3_result] | rw [unary_result]
               | (rw [unary_result_ne]; rotate_left; decide)
               | (rw [nary_result_ne]; rotate_left; decide))))

variable (m : (ℓ : Loc nD τ sig) → Buf (Elt Ideal) ℓ)

/-- Three square matrices transposed and joined side by side, read at row k: columns j, 512 + j, 1024 + j hold
    entry (j, k) of the first, the second, the third. -/
theorem joined3T_apply {α : Type} (A B C : (⟨2, ![512, 512]⟩ : Shape).Idx → α)
    (ht : (⟨2, ![512, 512]⟩ : Shape).Transposes [1, 0] ⟨2, ![512, 512]⟩)
    (hc : Shape.Concatenates [(⟨2, ![512, 512]⟩ : Shape), ⟨2, ![512, 512]⟩, ⟨2, ![512, 512]⟩] ⟨2, ![512, 1536]⟩ 1) (k j : Fin 512) :
    concatenate ⟨2, ![512, 1536]⟩ 1 [⟨⟨2, ![512, 512]⟩, transpose ⟨2, ![512, 512]⟩ [1, 0] A ht⟩, ⟨⟨2, ![512, 512]⟩, transpose ⟨2, ![512, 512]⟩ [1, 0] B ht⟩, ⟨⟨2, ![512, 512]⟩, transpose ⟨2, ![512, 512]⟩ [1, 0] C ht⟩] hc (ix2 k (⟨j.val, by omega⟩ : Fin 1536)) = A (ix2 j k)
    ∧ concatenate ⟨2, ![512, 1536]⟩ 1 [⟨⟨2, ![512, 512]⟩, transpose ⟨2, ![512, 512]⟩ [1, 0] A ht⟩, ⟨⟨2, ![512, 512]⟩, transpose ⟨2, ![512, 512]⟩ [1, 0] B ht⟩, ⟨⟨2, ![512, 512]⟩, transpose ⟨2, ![512, 512]⟩ [1, 0] C ht⟩] hc (ix2 k (⟨512 + j.val, by omega⟩ : Fin 1536)) = B (ix2 j k)
    ∧ concatenate ⟨2, ![512, 1536]⟩ 1 [⟨⟨2, ![512, 512]⟩, transpose ⟨2, ![512, 512]⟩ [1, 0] A ht⟩, ⟨⟨2, ![512, 512]⟩, transpose ⟨2, ![512, 512]⟩ [1, 0] B ht⟩, ⟨⟨2, ![512, 512]⟩, transpose ⟨2, ![512, 512]⟩ [1, 0] C ht⟩] hc (ix2 k (⟨1024 + j.val, by omega⟩ : Fin 1536)) = C (ix2 j k) :=
  ⟨(concatCols3_fst (a := 512) (b1 := 512) (b2 := 512) (b3 := 512) (b := 1536) _ _ _ hc k j _).trans (transpose_ix2_apply A ht k j),
   (concatCols3_snd (a := 512) (b1 := 512) (b2 := 512) (b3 := 512) (b := 1536) _ _ _ hc k j _).trans (transpose_ix2_apply B ht k j),
   (concatCols3_trd (a := 512) (b1 := 512) (b2 := 512) (b3 := 512) (b := 1536) _ _ _ hc k j _).trans (transpose_ix2_apply C ht k j)⟩

/-- Columns j, 512 + j, 1024 + j of row k of the joined weights are entry (j, k) of Wq, Wk, Wv. -/
theorem joinedW (c : Dev nD) (k j : Fin 512) :
    (V m c main_v4 : S512x1536.Idx → EReal) (ix2 k (⟨j.val, by omega⟩ : Fin 1536)) = (m ((c : Thread nD τ).loc main_arg1) : S512x512.Idx → EReal) (ix2 j k)
    ∧ (V m c main_v4 : S512x1536.Idx → EReal) (ix2 k (⟨512 + j.val, by omega⟩ : Fin 1536)) = (m ((c : Thread nD τ).loc main_arg3) : S512x512.Idx → EReal) (ix2 j k)
    ∧ (V m c main_v4 : S512x1536.Idx → EReal) (ix2 k (⟨1024 + j.val, by omega⟩ : Fin 1536)) = (m ((c : Thread nD τ).loc main_arg5) : S512x512.Idx → EReal) (ix2 j k) := by
  dsimp only [V, hostOps0]
  host_results
  exact joined3T_apply _ _ _ Gen.transposes_S512x512_S512x512_1_0 Gen.concatenates_S512x512_S512x512_S512x512_S512x1536_d1 k j

/-- Three vectors of 512 joined end to end, read in the piece number n at place j. -/
theorem join3_apply {α : Type} (x₁ x₂ x₃ : (⟨1, ![512]⟩ : Shape).Idx → α)
    (h : Shape.Concatenates [(⟨1, ![512]⟩ : Shape), ⟨1, ![512]⟩, ⟨1, ![512]⟩] ⟨1, ![1536]⟩ 0) (j : Fin 512) :
    concatenate ⟨1, ![1536]⟩ 0 [⟨⟨1, ![512]⟩, x₁⟩, ⟨⟨1, ![512]⟩, x₂⟩, ⟨⟨1, ![512]⟩, x₃⟩] h (ix1 (⟨j.val, by omega⟩ : Fin 1536)) = x₁ (ix1 j)
    ∧ concatenate ⟨1, ![1536]⟩ 0 [⟨⟨1, ![512]⟩, x₁⟩, ⟨⟨1, ![512]⟩, x₂⟩, ⟨⟨1, ![512]⟩, x₃⟩] h (ix1 (⟨512 + j.val, by omega⟩ : Fin 1536)) = x₂ (ix1 j)
    ∧ concatenate ⟨1, ![1536]⟩ 0 [⟨⟨1, ![512]⟩, x₁⟩, ⟨⟨1, ![512]⟩, x₂⟩, ⟨⟨1, ![512]⟩, x₃⟩] h (ix1 (⟨1024 + j.val, by omega⟩ : Fin 1536)) = x₃ (ix1 j) := by
  refine ⟨?_, ?_, ?_⟩
  · refine concatenate_apply_piece (t := ⟨1, ![1536]⟩) (0 : Fin 1) ([⟨⟨1, ![512]⟩, x₁⟩, ⟨⟨1, ![512]⟩, x₂⟩, ⟨⟨1, ![512]⟩, x₃⟩] : List ((s : Shape) × (s.Idx → α))) h _ 0 (show 0 < 3 by omega) ⟨1, ![512]⟩ x₁ rfl rfl 0 rfl
      (ix1 j) (fun ax hax => ?_) (Nat.zero_add _)
    match ax with
    | ⟨0, _⟩ => exact absurd rfl hax
  · refine concatenate_apply_piece (t := ⟨1, ![1536]⟩) (0 : Fin 1) ([⟨⟨1, ![512]⟩, x₁⟩, ⟨⟨1, ![512]⟩, x₂⟩, ⟨⟨1, ![512]⟩, x₃⟩] : List ((s : Shape) × (s.Idx → α))) h _ 1 (show 1 < 3 by omega) ⟨1, ![512]⟩ x₂ rfl rfl 512 ?_
      (ix1 j) (fun ax hax => ?_) rfl
    · show [512].sum = 512
      simp
    · match ax with
      | ⟨0, _⟩ => exact absurd rfl hax
  · refine concatenate_apply_piece (t := ⟨1, ![1536]⟩) (0 : Fin 1) ([⟨⟨1, ![512]⟩, x₁⟩, ⟨⟨1, ![512]⟩, x₂⟩, ⟨⟨1, ![512]⟩, x₃⟩] : List ((s : Shape) × (s.Idx → α))) h _ 2 (show 2 < 3 by omega) ⟨1, ![512]⟩ x₃ rfl rfl 1024 ?_
      (ix1 j) (fun ax hax => ?_) rfl
    · show [512, 512].sum = 1024
      simp
    · match ax with
      | ⟨0, _⟩ => exact absurd rfl hax

/-- Places j, 512 + j, 1024 + j of the joined biases are bq, bk, bv at j. -/
theorem joinedB (c : Dev nD) (j : Fin 512) :
    (V m c main_v5 : S1536.Idx → EReal) (ix1 (⟨j.val, by omega⟩ : Fin 1536)) = (m ((c : Thread nD τ).loc main_arg2) : S512.Idx → EReal) (ix1 j)
    ∧ (V m c main_v5 : S1536.Idx → EReal) (ix1 (⟨512 + j.val, by omega⟩ : Fin 1536)) = (m ((c : Thread nD τ).loc main_arg4) : S512.Idx → EReal) (ix1 j)
    ∧ (V m c main_v5 : S1536.Idx → EReal) (ix1 (⟨1024 + j.val, by omega⟩ : Fin 1536)) = (m ((c : Thread nD τ).loc main_arg6) : S512.Idx → EReal) (ix1 j) := by
  dsimp only [V, hostOps0]
  host_results
  exact join3_apply _ _ _ Gen.concatenates_S512_S512_S512_S1536_d0 j

/-- The transposed output weights hold Wo entry (j, k) at (k, j). -/
theorem transposedWo (c : Dev nD) (k j : Fin 512) :
    (V m c main_v7 : S512x512.Idx → EReal) (ix2 k j) = (m ((c : Thread nD τ).loc main_arg7) : S512x512.Idx → EReal) (ix2 j k) := by
  dsimp only [V, hostOps0]
  host_results
  exact transpose_ix2_apply _ _ k j

/-- The first transposed feed-forward weights hold W1 entry (f, k) at (k, f). -/
theorem transposedW1 (c : Dev nD) (k : Fin 512) (f : Fin 2048) :
    (V m c main_v9 : S512x2048.Idx → EReal) (ix2 k f) = (m ((c : Thread nD τ).loc main_arg9) : S2048x512.Idx → EReal) (ix2 f k) := by
  dsimp only [V, hostOps0]
  host_results
  exact transpose_ix2_apply _ _ k f

/-- The second transposed feed-forward weights hold W2 entry (j, f) at (f, j). -/
theorem transposedW2 (c : Dev nD) (f : Fin 2048) (j : Fin 512) :
    (V m c main_v11 : S2048x512.Idx → EReal) (ix2 f j) = (m ((c : Thread nD τ).loc main_arg11) : S512x2048.Idx → EReal) (ix2 j f) := by
  dsimp only [V, hostOps0]
  host_results
  exact transpose_ix2_apply _ _ f j

end Cert.KernelIdeal.HostValue

end
-- ==== Proof.Spec.lean ====
/-
  The function both programs compute, one row of the activations at a time.

  A row x ∈ ℝ^512 (here: extended reals) goes through
    h  = LN(x; g1, β1)                       (mean and variance over the 512 entries, ε added under the root)
    q, k, v = h·Wqᵀ + bq, h·Wkᵀ + bk, h·Wvᵀ + bv
    s[a, b] = ⟨q_a, k_b⟩ over the 64 entries of heads a and b, scaled by 1/8
    w[a, ·] = softmax over b of s[a, ·]       (an 8 × 8 mixing of the row's own heads)
    o_a = Σ_b w[a, b] · v_b,  the eight o_a side by side
    x' = x + o·Woᵀ + bo
    h' = LN(x'; g2, β2)
    y  = x' + max(h'·W1ᵀ + b1, 0)·W2ᵀ + b2.
  The two programs differ only in how the 8 × 8 weights are spelt: one multiplies the scores by the word
  of 1/8 and the exponentials by the reciprocal of their sum, the other divides by the word of 8 and by the
  sum, and takes one more maximum with −∞. `row` takes the weights as a parameter; `weightsMul` and
  `weightsDiv` are the two spellings.
-/
import Idealize.ShloMosaic.PureOps.Ideal
import Idealize.ShloMosaic.Lib.ValueIdx

noncomputable section

namespace Cert.Spec

open Idealize.ShloMosaic

/-- The mean of a row of 512: its sum divided by the word of 512. -/
def mean (v : Fin 512 → EReal) : EReal :=
  Ideal.div (∑ k : Fin 512, v k) (Ideal.ofBits .f32 0x44000000#32)

/-- A row centred at its mean. -/
def centred (v : Fin 512 → EReal) (j : Fin 512) : EReal := v j - mean v

/-- The variance of a row: the mean of the squares of the centred row. -/
def variance (v : Fin 512 → EReal) : EReal := mean fun k => centred v k * centred v k

/-- Layer normalisation of a row with gain g and shift b. -/
def layerNorm (v g b : Fin 512 → EReal) (j : Fin 512) : EReal :=
  centred v j * Ideal.rsqrt (variance v + Ideal.ofBits .f32 0x3727C5AC#32) * g j + b j

/-- A row times the transpose of a weight matrix, plus a bias: entry j is Σ_k h k · W j k + b j. -/
def affine {n m : Nat} (h : Fin n → EReal) (W : Fin m → Fin n → EReal) (b : Fin m → EReal) (j : Fin m) : EReal :=
  (∑ k : Fin n, h k * W j k) + b j

/-- Entry d of head a in a row of 512 = 8 heads of 64. -/
def headIdx (a : Fin 8) (d : Fin 64) : Fin 512 := ⟨64 * a.val + d.val, by omega⟩

/-- The head an entry of a row lies in, and its place there. -/
def headOf (j : Fin 512) : Fin 8 := ⟨j.val / 64, by omega⟩
def placeOf (j : Fin 512) : Fin 64 := ⟨j.val % 64, by omega⟩

/-- The unscaled score of query head a against key head b. -/
def score (q k : Fin 512 → EReal) (a b : Fin 8) : EReal :=
  ∑ d : Fin 64, q (headIdx a d) * k (headIdx b d)

/-- The maximum of eight values, folded from the word of −∞. -/
def rowMax (s : Fin 8 → EReal) : EReal :=
  (Finset.univ : Finset (Fin 8)).fold max (Ideal.ofBits .f32 0xFF800000#32) s

/-- Scores times the word of 1/8. -/
def scoresMul (q k : Fin 512 → EReal) (a b : Fin 8) : EReal :=
  score q k a b * Ideal.ofBits .f32 0x3E000000#32

/-- Scores divided by the word of 8. -/
def scoresDiv (q k : Fin 512 → EReal) (a b : Fin 8) : EReal :=
  Ideal.div (score q k a b) (Ideal.ofBits .f32 0x41000000#32)

/-- The exponentials of a row of eight scores less a value M. -/
def expLess (s : Fin 8 → EReal) (M : EReal) (b : Fin 8) : EReal := Ideal.exp (s b - M)

/-- The weights, first spelling: each exponential times the reciprocal (the word of 1 divided by the sum). -/
def weightsMul (q k : Fin 512 → EReal) (a b : Fin 8) : EReal :=
  expLess (scoresMul q k a) (rowMax (scoresMul q k a)) b
    * Ideal.div (Ideal.ofBits .f32 0x3F800000#32) (∑ b' : Fin 8, expLess (scoresMul q k a) (rowMax (scoresMul q k a)) b')

/-- The weights, second spelling: each exponential divided by the sum, the maximum taken once more against −∞. -/
def weightsDiv (q k : Fin 512 → EReal) (a b : Fin 8) : EReal :=
  Ideal.div (expLess (scoresDiv q k a) (max (Ideal.ofBits .f32 0xFF800000#32) (rowMax (scoresDiv q k a))) b)
    (∑ b' : Fin 8, expLess (scoresDiv q k a) (max (Ideal.ofBits .f32 0xFF800000#32) (rowMax (scoresDiv q k a))) b')

/-- The heads of v mixed by the weights w: entry j, in head a at place d, is Σ_b w a b · v (b, d). -/
def mix (w : Fin 8 → Fin 8 → EReal) (v : Fin 512 → EReal) (j : Fin 512) : EReal :=
  ∑ b : Fin 8, w (headOf j) b * v (headIdx b (placeOf j))

/-- The row after the attention half: x + mix·Woᵀ + bo. -/
def attnRow (W : (Fin 512 → EReal) → (Fin 512 → EReal) → Fin 8 → Fin 8 → EReal)
    (x : Fin 512 → EReal) (Wq : Fin 512 → Fin 512 → EReal) (bq : Fin 512 → EReal)
    (Wk : Fin 512 → Fin 512 → EReal) (bk : Fin 512 → EReal) (Wv : Fin 512 → Fin 512 → EReal) (bv : Fin 512 → EReal)
    (Wo : Fin 512 → Fin 512 → EReal) (bo : Fin 512 → EReal) (g1 beta1 : Fin 512 → EReal) (j : Fin 512) : EReal :=
  x j + affine (mix (W (affine (layerNorm x g1 beta1) Wq bq) (affine (layerNorm x g1 beta1) Wk bk))
      (affine (layerNorm x g1 beta1) Wv bv)) Wo bo j

/-- The feed-forward half on a row y: y + max(LN(y)·W1ᵀ + b1, 0)·W2ᵀ + b2. -/
def ffnRow (y : Fin 512 → EReal) (W1 : Fin 2048 → Fin 512 → EReal) (b1 : Fin 2048 → EReal)
    (W2 : Fin 512 → Fin 2048 → EReal) (b2 : Fin 512 → EReal) (g2 beta2 : Fin 512 → EReal) (j : Fin 512) : EReal :=
  y j + affine (fun f : Fin 2048 => max (affine (layerNorm y g2 beta2) W1 b1 f) (Ideal.ofBits .f32 0x00000000#32)) W2 b2 j

/-- The whole layer on one row. -/
def row (W : (Fin 512 → EReal) → (Fin 512 → EReal) → Fin 8 → Fin 8 → EReal)
    (x : Fin 512 → EReal) (Wq : Fin 512 → Fin 512 → EReal) (bq : Fin 512 → EReal)
    (Wk : Fin 512 → Fin 512 → EReal) (bk : Fin 512 → EReal) (Wv : Fin 512 → Fin 512 → EReal) (bv : Fin 512 → EReal)
    (Wo : Fin 512 → Fin 512 → EReal) (bo : Fin 512 → EReal)
    (W1 : Fin 2048 → Fin 512 → EReal) (b1 : Fin 2048 → EReal) (W2 : Fin 512 → Fin 2048 → EReal) (b2 : Fin 512 → EReal)
    (g1 beta1 g2 beta2 : Fin 512 → EReal) : Fin 512 → EReal :=
  ffnRow (attnRow W x Wq bq Wk bk Wv bv Wo bo g1 beta1) W1 b1 W2 b2 g2 beta2

end Cert.Spec

end
-- ==== Proof.Rows.lean ====
/-
  The rows of one block of 512 activations rows as the kernel body sees them: block 0 holds the rows of x,
  block 1 the three transposed projection matrices side by side ([512, 1536]: column j of the first third is
  row j of Wq, of the second of Wk, of the third of Wv), block 2 the three biases end to end, blocks 9 and 10
  the first gain and shift. `qRow`, `kRow`, `vRow` are row p's projected queries, keys and values as rows of 512.
  `mixedRow` is the row of the eight mixed heads as the second half of the body receives it: heads 0 to 3
  already mixed, head 4 from its row of weights, heads 5 to 7 from the whole table of weights.
-/
import proofs.«107231_j40132174414149_2_alg».proof.Proof.Spec

noncomputable section

namespace Cert.Rows

open Idealize.ShloMosaic Idealize.ShloMosaic.ValueIdx Cert.Spec

/-- Row p of block 0 after the first layer normalisation. -/
def hRow (x0 : (⟨2, ![512, 512]⟩ : Shape).Idx → EReal) (x9 x10 : (⟨1, ![512]⟩ : Shape).Idx → EReal) (p : Fin 512) : Fin 512 → EReal :=
  layerNorm (fun k => x0 (ix2 p k)) (fun k => x9 (ix1 k)) (fun k => x10 (ix1 k))

/-- Row j of the projection matrix whose transposed copy starts at column o of block 1 (o = 0, 512, 1024). -/
def wPart (x1 : (⟨2, ![512, 1536]⟩ : Shape).Idx → EReal) (o : Nat) (ho : o + 512 ≤ 1536) (j k : Fin 512) : EReal :=
  x1 (ix2 k (⟨o + j.val, by omega⟩ : Fin 1536))
/-- Entry j of the bias that starts at place o of block 2. -/
def bPart (x2 : (⟨1, ![1536]⟩ : Shape).Idx → EReal) (o : Nat) (ho : o + 512 ≤ 1536) (j : Fin 512) : EReal :=
  x2 (ix1 (⟨o + j.val, by omega⟩ : Fin 1536))

def qRow (x0 : (⟨2, ![512, 512]⟩ : Shape).Idx → EReal) (x1 : (⟨2, ![512, 1536]⟩ : Shape).Idx → EReal)
    (x2 : (⟨1, ![1536]⟩ : Shape).Idx → EReal) (x9 x10 : (⟨1, ![512]⟩ : Shape).Idx → EReal) (p : Fin 512) : Fin 512 → EReal :=
  affine (hRow x0 x9 x10 p) (wPart x1 0 (by omega)) (bPart x2 0 (by omega))
def kRow (x0 : (⟨2, ![512, 512]⟩ : Shape).Idx → EReal) (x1 : (⟨2, ![512, 1536]⟩ : Shape).Idx → EReal)
    (x2 : (⟨1, ![1536]⟩ : Shape).Idx → EReal) (x9 x10 : (⟨1, ![512]⟩ : Shape).Idx → EReal) (p : Fin 512) : Fin 512 → EReal :=
  affine (hRow x0 x9 x10 p) (wPart x1 512 (by omega)) (bPart x2 512 (by omega))
def vRow (x0 : (⟨2, ![512, 512]⟩ : Shape).Idx → EReal) (x1 : (⟨2, ![512, 1536]⟩ : Shape).Idx → EReal)
    (x2 : (⟨1, ![1536]⟩ : Shape).Idx → EReal) (x9 x10 : (⟨1, ![512]⟩ : Shape).Idx → EReal) (p : Fin 512) : Fin 512 → EReal :=
  affine (hRow x0 x9 x10 p) (wPart x1 1024 (by omega)) (bPart x2 1024 (by omega))

/-- The 8 × 8 weights of row p, first spelling. -/
def wRow (x0 : (⟨2, ![512, 512]⟩ : Shape).Idx → EReal) (x1 : (⟨2, ![512, 1536]⟩ : Shape).Idx → EReal)
    (x2 : (⟨1, ![1536]⟩ : Shape).Idx → EReal) (x9 x10 : (⟨1, ![512]⟩ : Shape).Idx → EReal) (p : Fin 512) : Fin 8 → Fin 8 → EReal :=
  weightsMul (qRow x0 x1 x2 x9 x10 p) (kRow x0 x1 x2 x9 x10 p)

theorem headOf_headIdx (a : Fin 8) (d : Fin 64) : headOf (headIdx a d) = a := by
  apply Fin.ext; simp only [headOf, headIdx]; omega
theorem placeOf_headIdx (a : Fin 8) (d : Fin 64) : placeOf (headIdx a d) = d := by
  apply Fin.ext; simp only [placeOf, headIdx]; omega
theorem headIdx_headOf_placeOf (j : Fin 512) : headIdx (headOf j) (placeOf j) = j := by
  apply Fin.ext; simp only [headOf, placeOf, headIdx]; omega

/-- The row of mixed heads as the second half of the body receives it. -/
def mixedRow (V : (⟨3, ![512, 8, 64]⟩ : Shape).Idx → EReal) (W : (⟨3, ![512, 8, 8]⟩ : Shape).Idx → EReal)
    (o0 o1 o2 o3 : (⟨2, ![512, 64]⟩ : Shape).Idx → EReal) (w4 : (⟨2, ![512, 8]⟩ : Shape).Idx → EReal) (p : Fin 512) (k : Fin 512) : EReal :=
  if (headOf k).val = 0 then o0 (ix2 p (placeOf k))
  else if (headOf k).val = 1 then o1 (ix2 p (placeOf k))
  else if (headOf k).val = 2 then o2 (ix2 p (placeOf k))
  else if (headOf k).val = 3 then o3 (ix2 p (placeOf k))
  else if (headOf k).val = 4 then ∑ b : Fin 8, w4 (ix2 p b) * V (ix3 p b (placeOf k))
  else ∑ b : Fin 8, W (ix3 p (headOf k) b) * V (ix3 p b (placeOf k))

end Cert.Rows

end
-- ==== Proof.KernelHeads.lean ====
/-
  The first half of the body on one block of 512 rows, read entry by entry: the layer normalisation of the rows,
  the fused projection to queries, keys and values, the 8 × 8 scores between the heads of one row, the softmax
  weights, and the mixing of the value heads by those weights.

  Everything here is re-indexing. The arithmetic of the body is, operation for operation, the arithmetic of the
  row functions: a row's mean is its sum divided by the word of 512; the normalised row is the centred row
  times the reciprocal root of the variance plus ε, times the gain, plus the shift; the projection at (p, c) is
  Σ_k h_p(k) · W(k, c) plus the bias at c, and its three thirds are the queries, keys and values; a [512, 512]
  block seen as 8 heads of 64 has head a, place d at column 64·a + d; the score of query head a against key
  head b is the sum over the 64 places of the products, times the word of 1/8; the eight panels of scores lie
  side by side along the middle axis of a [512, 8, 8] table; each row of the table goes to the exponentials of
  its entries less the row's maximum, times the reciprocal of their sum; and mixed head a at place d is
  Σ_b w(a, b) · v(b, d). The first part states each layout operation once, read at an index given by its
  coordinates, and each reduction as a sum or a fold over one coordinate; the second part chains them.
-/
import proofs.«107231_j40132174414149_2_alg».proof.Proof.BodyValI
import proofs.«107231_j40132174414149_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadsValue

open Idealize.ShloMosaic Cert.KernelIdeal Cert.KernelIdeal.Hand Cert.Rows Idealize.ShloMosaic.ValueIdx

/-! # Part one: the operations of the body read at an index -/

variable {α : Type}

/-- A sum over the columns of a [512, 512] block, read at row p. -/
theorem rowSum512_apply (v : FVec Ideal S512x512 .f32) (h : S512x512.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 512, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

/-- A [512] vector cast to a [512, 1] column reads, at (p, u), the vector at p. -/
theorem castCol_apply (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    omega)

/-- A [512, 1] column broadcast over 512 columns reads, at (p, j), the column at p. -/
theorem bcastCol_apply (x : S512x1.Idx → α) (h : S512x1.Broadcasts S512x512) (p j : Fin 512) :
    broadcastTo S512x512 x h (ix2 p j) = x (ix2 p (0 : Fin 1)) := by
  refine broadcastTo_apply x h (ix2 p j) (ix2 p (0 : Fin 1)) fun ax => ?_
  match ax with
  | ⟨0, _⟩ => rfl
  | ⟨1, _⟩ => rfl

/-! ## Layout operations of the body read at an index -/

/-- A [512, 512] block cast to [512, 8, 64] reads, at (p, a, d), the block at (p, 64·a + d). -/
theorem castHeads_apply (x : S512x512.Idx → α) (h : S512x512.ShapeCasts S512x8x64) (p : Fin 512) (a : Fin 8) (d : Fin 64) :
    shapeCast S512x8x64 x h (ix3 p a d) = x (ix2 p (⟨64 * a.val + d.val, by omega⟩ : Fin 512)) :=
  shapeCast_apply x h _ _ (by
    rw [Shape.rowMajor_val_two, Shape.rowMajor_val_three]
    show p.val * 512 + (64 * a.val + d.val) = (p.val * 8 + a.val) * 64 + d.val
    omega)

/-- A [512, 64] block cast to [512, 1, 64] reads, at (p, u, d), the block at (p, d). -/
theorem castMid64_apply (x : S512x64.Idx → α) (h : S512x64.ShapeCasts S512x1x64) (p : Fin 512) (u : Fin 1) (d : Fin 64) :
    shapeCast S512x1x64 x h (ix3 p u d) = x (ix2 p d) :=
  shapeCast_apply x h _ _ (by
    have hu : u.val = 0 := by omega
    rw [Shape.rowMajor_val_two, Shape.rowMajor_val_three]
    show p.val * 64 + d.val = (p.val * 1 + u.val) * 64 + d.val
    omega)

/-- A [512, 1, 64] block broadcast over 8 heads reads, at (p, b, d), the block at (p, 0, d). -/
theorem bcastMid64_apply (x : S512x1x64.Idx → α) (h : S512x1x64.Broadcasts S512x8x64) (p : Fin 512) (b : Fin 8) (d : Fin 64) :
    broadcastTo S512x8x64 x h (ix3 p b d) = x (ix3 p (0 : Fin 1) d) := by
  refine broadcastTo_apply x h (ix3 p b d) (ix3 p (0 : Fin 1) d) fun ax => ?_
  match ax with
  | ⟨0, _⟩ => rfl
  | ⟨1, _⟩ => rfl
  | ⟨2, _⟩ => rfl

/-- A [512, 8] block cast to [512, 1, 8] reads, at (p, u, b), the block at (p, b). -/
theorem castMid8_apply (x : S512x8.Idx → α) (h : S512x8.ShapeCasts S512x1x8) (p : Fin 512) (u : Fin 1) (b : Fin 8) :
    shapeCast S512x1x8 x h (ix3 p u b) = x (ix2 p b) :=
  shapeCast_apply x h _ _ (by
    have hu : u.val = 0 := by omega
    rw [Shape.rowMajor_val_two, Shape.rowMajor_val_three]
    show p.val * 8 + b.val = (p.val * 1 + u.val) * 8 + b.val
    omega)

/-- A [512, 1, 8] block cast to [512, 8] reads, at (p, b), the block at (p, 0, b). -/
theorem castDropMid8_apply (x : S512x1x8.Idx → α) (h : S512x1x8.ShapeCasts S512x8) (p : Fin 512) (b : Fin 8) :
    shapeCast S512x8 x h (ix2 p b) = x (ix3 p (0 : Fin 1) b) :=
  shapeCast_apply x h _ _ (by
    rw [Shape.rowMajor_val_two, Shape.rowMajor_val_three]
    show (p.val * 1 + 0) * 8 + b.val = p.val * 8 + b.val
    omega)

/-- A [512, 8] block cast to [512, 8, 1] reads, at (p, a, u), the block at (p, a). -/
theorem castLast1_apply (x : S512x8.Idx → α) (h : S512x8.ShapeCasts S512x8x1) (p : Fin 512) (a : Fin 8) (u : Fin 1) :
    shapeCast S512x8x1 x h (ix3 p a u) = x (ix2 p a) :=
  shapeCast_apply x h _ _ (by
    have hu : u.val = 0 := by omega
    rw [Shape.rowMajor_val_two, Shape.rowMajor_val_three]
    show p.val * 8 + a.val = (p.val * 8 + a.val) * 1 + u.val
    omega)

/-- A [512, 8, 1] block broadcast over 8 columns reads, at (p, a, b), the block at (p, a, 0). -/
theorem bcastLast8_apply (x : S512x8x1.Idx → α) (h : S512x8x1.Broadcasts S512x8x8) (p : Fin 512) (a b : Fin 8) :
    broadcastTo S512x8x8 x h (ix3 p a b) = x (ix3 p a (0 : Fin 1)) := by
  refine broadcastTo_apply x h (ix3 p a b) (ix3 p a (0 : Fin 1)) fun ax => ?_
  match ax with
  | ⟨0, _⟩ => rfl
  | ⟨1, _⟩ => rfl
  | ⟨2, _⟩ => rfl

/-- A [512, 8, 1] block broadcast over 64 places reads, at (p, b, d), the block at (p, b, 0). -/
theorem bcastLast64_apply (x : S512x8x1.Idx → α) (h : S512x8x1.Broadcasts S512x8x64) (p : Fin 512) (b : Fin 8) (d : Fin 64) :
    broadcastTo S512x8x64 x h (ix3 p b d) = x (ix3 p b (0 : Fin 1)) := by
  refine broadcastTo_apply x h (ix3 p b d) (ix3 p b (0 : Fin 1)) fun ax => ?_
  match ax with
  | ⟨0, _⟩ => rfl
  | ⟨1, _⟩ => rfl
  | ⟨2, _⟩ => rfl

/-! ## Reductions of the body read at an index -/

/-- A sum over the 64 places of a [512, 8, 64] block, read at (p, b). -/
theorem placeSum_apply (v : FVec Ideal S512x8x64 .f32) (h : S512x8x64.Reduces [2] S512x8) (hφ : FKind.Formats .f32)
    (hacc : (0x00000000#32 : BitVec 32) = FKind.add.neutral .f32 hφ) (p : Fin 512) (b : Fin 8) :
    multiReduction .add [2] S512x8 v 0x00000000#32 h hφ hacc (ix2 p b) = ∑ d : Fin 64, v (ix3 p b d) := by
  refine (Ideal.multiReduction_add_single v 0x00000000#32 h hφ hacc (ix2 p b)).trans ?_
  exact Finset.sum_congr rfl fun k _ => congrArg v (funext fun c => Fin.ext (by
    match c with
    | ⟨0, _⟩ => rfl
    | ⟨1, _⟩ => rfl
    | ⟨2, _⟩ => rfl))

/-- A sum over the 8 heads of a [512, 8, 64] block, read at (p, d). -/
theorem headSum_apply (v : FVec Ideal S512x8x64 .f32) (h : S512x8x64.Reduces [1] S512x64) (hφ : FKind.Formats .f32)
    (hacc : (0x00000000#32 : BitVec 32) = FKind.add.neutral .f32 hφ) (p : Fin 512) (d : Fin 64) :
    multiReduction .add [1] S512x64 v 0x00000000#32 h hφ hacc (ix2 p d) = ∑ b : Fin 8, v (ix3 p b d) := by
  refine (Ideal.multiReduction_add_single v 0x00000000#32 h hφ hacc (ix2 p d)).trans ?_
  exact Finset.sum_congr rfl fun k _ => congrArg v (funext fun c => Fin.ext (by
    match c with
    | ⟨0, _⟩ => rfl
    | ⟨1, _⟩ => rfl
    | ⟨2, _⟩ => rfl))

/-- A sum over the last axis of a [512, 8, 8] block, read at (p, a). -/
theorem colSum8_apply (v : FVec Ideal S512x8x8 .f32) (h : S512x8x8.Reduces [2] S512x8) (hφ : FKind.Formats .f32)
    (hacc : (0x00000000#32 : BitVec 32) = FKind.add.neutral .f32 hφ) (p : Fin 512) (a : Fin 8) :
    multiReduction .add [2] S512x8 v 0x00000000#32 h hφ hacc (ix2 p a) = ∑ b : Fin 8, v (ix3 p a b) := by
  refine (Ideal.multiReduction_add_single v 0x00000000#32 h hφ hacc (ix2 p a)).trans ?_
  exact Finset.sum_congr rfl fun k _ => congrArg v (funext fun c => Fin.ext (by
    match c with
    | ⟨0, _⟩ => rfl
    | ⟨1, _⟩ => rfl
    | ⟨2, _⟩ => rfl))

/-- A maximum over the last axis of a [512, 8, 8] block, read at (p, a): the fold of max from the word of −∞. -/
theorem colMax8_apply (v : FVec Ideal S512x8x8 .f32) (h : S512x8x8.Reduces [2] S512x8) (hφ : FKind.Formats .f32)
    (hacc : (0xFF800000#32 : BitVec 32) = FKind.maximumf.neutral .f32 hφ) (p : Fin 512) (a : Fin 8) :
    multiReduction .maximumf [2] S512x8 v 0xFF800000#32 h hφ hacc (ix2 p a)
      = (Finset.univ : Finset (Fin 8)).fold max (Ideal.ofBits .f32 0xFF800000#32) (fun b => v (ix3 p a b)) := by
  refine (Ideal.multiReduction_maximumf_single v 0xFF800000#32 h hφ hacc (ix2 p a)).trans ?_
  refine congrArg (fun f => (Finset.univ : Finset (Fin 8)).fold max (Ideal.ofBits .f32 0xFF800000#32) f) ?_
  exact funext fun k => congrArg v (funext fun c => Fin.ext (by
    match c with
    | ⟨0, _⟩ => rfl
    | ⟨1, _⟩ => rfl
    | ⟨2, _⟩ => rfl))

/-! ## The fused projection's matmul read at an index -/

theorem projLhs_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl
theorem projLhs_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem projRhs_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem projRhs_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl

/-- The matmul of a [512, 512] block with a [512, 1536] block into the zero accumulator: entry (p, c) is the sum over k of
    the left block at (p, k) times the right block at (k, c). -/
theorem projMatmul_apply (l : FVec Ideal S512x512 .bf16) (r : FVec Ideal S512x1536 .bf16) (p : Fin 512) (c : Fin 1536) :
    matmul dot_S512x512_S512x1536_S512x1536_1_0_0_1_n_n none l r (constant (F := Ideal) S512x1536 .f32 0x00000000#32) (ix2 p c)
      = ∑ k : Fin 512, l (ix2 p k) * r (ix2 k c) := by
  simp only [matmul]
  rw [Ideal.matmul_constant_zero_apply, ← Equiv.sum_comp (ValueIdx.contrEquiv1 dot_S512x512_S512x1536_S512x1536_1_0_0_1_n_n 512 rfl rfl).symm]
  refine Finset.sum_congr rfl fun k _ => ?_
  have hk := ValueIdx.contrEquiv1_symm_val dot_S512x512_S512x1536_S512x1536_1_0_0_1_n_n 512 rfl rfl k
  have el : dot_S512x512_S512x1536_S512x1536_1_0_0_1_n_n.lhsIdx (ix2 p c) ((ValueIdx.contrEquiv1 dot_S512x512_S512x1536_S512x1536_1_0_0_1_n_n 512 rfl rfl).symm k) = ix2 p k := funext fun a => Fin.ext (by
    match a with
    | ⟨0, _⟩ => exact projLhs_0 _ _
    | ⟨1, _⟩ => exact (projLhs_1 _ _).trans hk)
  have er : dot_S512x512_S512x1536_S512x1536_1_0_0_1_n_n.rhsIdx (ix2 p c) ((ValueIdx.contrEquiv1 dot_S512x512_S512x1536_S512x1536_1_0_0_1_n_n 512 rfl rfl).symm k) = ix2 k c := funext fun a => Fin.ext (by
    match a with
    | ⟨0, _⟩ => exact (projRhs_0 _ _).trans hk
    | ⟨1, _⟩ => exact projRhs_1 _ _)
  rw [el, er]

/-! ## Slices of the body read at an index -/

/-- The 64 columns from o of a [512, 512] block, as a [512, 1, 64] block, read at (p, u, d): the block at (p, o + d). -/
theorem headSlice_apply (Q : S512x512.Idx → α) (o : Nat) (h : S512x512.Slices ![0, o] S512x64) (hc : S512x64.ShapeCasts S512x1x64)
    (p : Fin 512) (u : Fin 1) (d : Fin 64) (k : Fin 512) (hk : k.val = o + d.val) :
    shapeCast S512x1x64 (extractStridedSlice S512x64 ![0, o] Q h) hc (ix3 p u d) = Q (ix2 p k) :=
  (castMid64_apply _ hc p u d).trans (slice2_axis1_apply o Q h p d k hk)

/-- The 512 columns from o of a [512, 1536] block read at (p, j): the block at (p, o + j). -/
theorem thirdSlice_apply (X : S512x1536.Idx → α) (o : Nat) (h : S512x1536.Slices ![0, o] S512x512)
    (p j : Fin 512) (k : Fin 1536) (hk : k.val = o + j.val) :
    extractStridedSlice S512x512 ![0, o] X h (ix2 p j) = X (ix2 p k) :=
  slice2_axis1_apply o X h p j k hk

/-- Row o of the [512, 8, 8] table as a [512, 8] block, read at (p, b): the table at (p, o, b). -/
theorem rowSlice_apply (W : S512x8x8.Idx → α) (o : Nat) (h : S512x8x8.Slices ![0, o, 0] S512x1x8) (hc : S512x1x8.ShapeCasts S512x8)
    (p : Fin 512) (b : Fin 8) (a : Fin 8) (ha : a.val = o) :
    shapeCast S512x8 (extractStridedSlice S512x1x8 ![0, o, 0] W h) hc (ix2 p b) = W (ix3 p a b) :=
  (castDropMid8_apply _ hc p b).trans (slice3_axis1_apply o W h p (0 : Fin 1) b a (by show a.val = o + 0; omega))

/-! ## Eight [512, 1, 8] pieces side by side along axis 1 -/

theorem concat8_piece (xs : List ((s : Shape) × (s.Idx → α))) (h : Shape.Concatenates (xs.map (·.1)) S512x8x8 1)
    (k : Nat) (hk : k < xs.length) (f : S512x1x8.Idx → α) (hxk : xs[k] = ⟨S512x1x8, f⟩)
    (hpre : (((xs.take k).map (·.1)).map fun s => if h : s.rank = S512x8x8.rank then s.size ((1 : Fin S512x8x8.rank).cast h.symm) else 0).sum = k)
    (p : Fin 512) (a b : Fin 8) (ha : a.val = k) :
    concatenate S512x8x8 1 xs h (ix3 p a b) = f (ix3 p (0 : Fin 1) b) :=
  concatenate_apply_piece 1 xs h (ix3 p a b) k hk S512x1x8 f hxk rfl k hpre (ix3 p (0 : Fin 1) b)
    (fun bb hb => by
      match bb with
      | ⟨0, _⟩ => rfl
      | ⟨1, _⟩ => exact absurd rfl hb
      | ⟨2, _⟩ => rfl)
    (by show k + 0 = a.val; omega)

/-- Eight [512, 1, 8] pieces along axis 1, read at (p, a, b): piece a at (p, 0, b). -/
theorem concat8_apply (f0 f1 f2 f3 f4 f5 f6 f7 : S512x1x8.Idx → α)
    (h : Shape.Concatenates [S512x1x8, S512x1x8, S512x1x8, S512x1x8, S512x1x8, S512x1x8, S512x1x8, S512x1x8] S512x8x8 1)
    (p : Fin 512) (b : Fin 8) (s : Fin 8 → α)
    (h0 : f0 (ix3 p (0 : Fin 1) b) = s 0) (h1 : f1 (ix3 p (0 : Fin 1) b) = s 1) (h2 : f2 (ix3 p (0 : Fin 1) b) = s 2)
    (h3 : f3 (ix3 p (0 : Fin 1) b) = s 3) (h4 : f4 (ix3 p (0 : Fin 1) b) = s 4) (h5 : f5 (ix3 p (0 : Fin 1) b) = s 5)
    (h6 : f6 (ix3 p (0 : Fin 1) b) = s 6) (h7 : f7 (ix3 p (0 : Fin 1) b) = s 7) (a : Fin 8) :
    concatenate S512x8x8 1 [⟨S512x1x8, f0⟩, ⟨S512x1x8, f1⟩, ⟨S512x1x8, f2⟩, ⟨S512x1x8, f3⟩, ⟨S512x1x8, f4⟩, ⟨S512x1x8, f5⟩,
      ⟨S512x1x8, f6⟩, ⟨S512x1x8, f7⟩] h (ix3 p a b) = s a := by
  let xs : List ((s : Shape) × (s.Idx → α)) := [⟨S512x1x8, f0⟩, ⟨S512x1x8, f1⟩, ⟨S512x1x8, f2⟩, ⟨S512x1x8, f3⟩, ⟨S512x1x8, f4⟩, ⟨S512x1x8, f5⟩,
      ⟨S512x1x8, f6⟩, ⟨S512x1x8, f7⟩]
  have hlen : xs.length = 8 := rfl
  show concatenate S512x8x8 1 xs h (ix3 p a b) = s a
  match a with
  | ⟨0, _⟩ => exact (concat8_piece xs h 0 (by omega) f0 rfl rfl p _ b rfl).trans h0
  | ⟨1, _⟩ => exact (concat8_piece xs h 1 (by omega) f1 rfl rfl p _ b rfl).trans h1
  | ⟨2, _⟩ => exact (concat8_piece xs h 2 (by omega) f2 rfl rfl p _ b rfl).trans h2
  | ⟨3, _⟩ => exact (concat8_piece xs h 3 (by omega) f3 rfl rfl p _ b rfl).trans h3
  | ⟨4, _⟩ => exact (concat8_piece xs h 4 (by omega) f4 rfl rfl p _ b rfl).trans h4
  | ⟨5, _⟩ => exact (concat8_piece xs h 5 (by omega) f5 rfl rfl p _ b rfl).trans h5
  | ⟨6, _⟩ => exact (concat8_piece xs h 6 (by omega) f6 rfl rfl p _ b rfl).trans h6
  | ⟨7, _⟩ => exact (concat8_piece xs h 7 (by omega) f7 rfl rfl p _ b rfl).trans h7

/-! ## The two transcendental operations at an index (the ideal instance's) -/

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-! ## One panel of scores -/

/-- One query head (a [512, 1, 64] block) against every key head: at (p, b), the sum over the 64 places of the products,
    times the word of 1/8. -/
theorem panel_apply (Qa : FVec Ideal S512x1x64 .f32) (K : FVec Ideal S512x8x64 .f32) (hb : S512x1x64.Broadcasts S512x8x64)
    (hr : S512x8x64.Reduces [2] S512x8) (hφ : FKind.Formats .f32) (hacc : (0x00000000#32 : BitVec 32) = FKind.add.neutral .f32 hφ)
    (p : Fin 512) (b : Fin 8) :
    mulf (multiReduction .add [2] S512x8 (mulf (broadcastTo S512x8x64 Qa hb) K) 0x00000000#32 hr hφ hacc)
        (broadcast S512x8 (Scalar.ofBits (F := Ideal) .f32 0x3E000000#32)) (ix2 p b)
      = (∑ d : Fin 64, Qa (ix3 p (0 : Fin 1) d) * K (ix3 p b d)) * Ideal.ofBits .f32 0x3E000000#32 := by
  refine (mulf_apply _ _ _).trans (congrArg₂ (· * ·) ?_ rfl)
  refine (placeSum_apply _ hr hφ hacc p b).trans (Finset.sum_congr rfl fun d _ => ?_)
  exact (mulf_apply _ _ _).trans (congrArg₂ (· * ·) (bcastMid64_apply Qa hb p b d) rfl)

/-! ## The weights from the table of scores -/

/-- The exponentials of a table's row less the row's maximum. -/
theorem expBlock_apply (L : FVec Ideal S512x8x8 .f32) (hr : S512x8x8.Reduces [2] S512x8) (hφ : FKind.Formats .f32)
    (hacc : (0xFF800000#32 : BitVec 32) = FKind.maximumf.neutral .f32 hφ) (hc : S512x8.ShapeCasts S512x8x1)
    (hb : S512x8x1.Broadcasts S512x8x8) (p : Fin 512) (a b : Fin 8) (S : Fin 8 → EReal) (hL : ∀ b', L (ix3 p a b') = S b') :
    exp (subf L (broadcastTo S512x8x8 (shapeCast S512x8x1 (multiReduction .maximumf [2] S512x8 L 0xFF800000#32 hr hφ hacc) hc) hb)) (ix3 p a b)
      = Cert.Spec.expLess S (Cert.Spec.rowMax S) b := by
  refine (exp_apply _ _).trans (congrArg Ideal.exp ?_)
  refine (subf_apply _ _ _).trans (congrArg₂ (· - ·) (hL b) ?_)
  refine (bcastLast8_apply _ hb p a b).trans ((castLast1_apply _ hc p a 0).trans ?_)
  refine (colMax8_apply L hr hφ hacc p a).trans ?_
  exact congrArg (fun f => (Finset.univ : Finset (Fin 8)).fold max (Ideal.ofBits .f32 0xFF800000#32) f) (funext hL)

/-- A table's entries times the reciprocal of their row's sum. -/
theorem normalise_apply (E : FVec Ideal S512x8x8 .f32) (hr : S512x8x8.Reduces [2] S512x8) (hφ : FKind.Formats .f32)
    (hacc : (0x00000000#32 : BitVec 32) = FKind.add.neutral .f32 hφ) (hc : S512x8.ShapeCasts S512x8x1)
    (hb : S512x8x1.Broadcasts S512x8x8) (p : Fin 512) (a b : Fin 8) (e : Fin 8 → EReal) (hE : ∀ b', E (ix3 p a b') = e b') :
    mulf E (broadcastTo S512x8x8 (divf (broadcast S512x8x1 (Scalar.ofBits (F := Ideal) .f32 0x3F800000#32))
        (shapeCast S512x8x1 (multiReduction .add [2] S512x8 E 0x00000000#32 hr hφ hacc) hc)) hb) (ix3 p a b)
      = e b * Ideal.div (Ideal.ofBits .f32 0x3F800000#32) (∑ b' : Fin 8, e b') := by
  refine (mulf_apply _ _ _).trans (congrArg₂ (· * ·) (hE b) ?_)
  refine (bcastLast8_apply _ hb p a b).trans ((divf_apply _ _ _).trans (congrArg₂ Ideal.div rfl ?_))
  refine (castLast1_apply _ hc p a 0).trans ((colSum8_apply E hr hφ hacc p a).trans ?_)
  exact Finset.sum_congr rfl fun b' _ => hE b'

/-! ## One row of the weights against the value heads -/

/-- Row a of the table of weights times the value heads, summed over the heads: at (p, d), Σ_b W(p, a, b) · V(p, b, d). -/
theorem mix_apply (W : FVec Ideal S512x8x8 .f32) (V : FVec Ideal S512x8x64 .f32) (o : Nat) (hs : S512x8x8.Slices ![0, o, 0] S512x1x8)
    (hc1 : S512x1x8.ShapeCasts S512x8) (hc2 : S512x8.ShapeCasts S512x8x1) (hb : S512x8x1.Broadcasts S512x8x64)
    (hr : S512x8x64.Reduces [1] S512x64) (hφ : FKind.Formats .f32) (hacc : (0x00000000#32 : BitVec 32) = FKind.add.neutral .f32 hφ)
    (a : Fin 8) (ha : a.val = o) (p : Fin 512) (d : Fin 64) :
    multiReduction .add [1] S512x64 (mulf (broadcastTo S512x8x64 (shapeCast S512x8x1 (shapeCast S512x8
        (extractStridedSlice S512x1x8 ![0, o, 0] W hs) hc1) hc2) hb) V) 0x00000000#32 hr hφ hacc (ix2 p d)
      = ∑ b : Fin 8, W (ix3 p a b) * V (ix3 p b d) := by
  refine (headSum_apply _ hr hφ hacc p d).trans (Finset.sum_congr rfl fun b _ => ?_)
  refine (mulf_apply _ _ _).trans (congrArg₂ (· * ·) ?_ rfl)
  exact (bcastLast64_apply _ hb p b d).trans ((castLast1_apply _ hc2 p b 0).trans (rowSlice_apply W o hs hc1 p b a ha))

/-! # Part two: the values of the first half of the body

## The first layer normalisation -/

/-- The mean of every row as a [512, 1] column: the row's sum divided by the word of 512. -/
theorem meanCol_apply (v : FVec Ideal S512x512 .f32) (hr : S512x512.Reduces [1] S512) (hφ : FKind.Formats .f32)
    (hacc : (0x00000000#32 : BitVec 32) = FKind.add.neutral .f32 hφ) (hc : S512.ShapeCasts S512x1) (p : Fin 512) (u : Fin 1) :
    divf (shapeCast S512x1 (multiReduction .add [1] S512 v 0x00000000#32 hr hφ hacc) hc)
        (broadcast S512x1 (Scalar.ofBits (F := Ideal) .f32 0x44000000#32)) (ix2 p u)
      = Cert.Spec.mean fun k => v (ix2 p k) :=
  (divf_apply _ _ _).trans (congrArg₂ Ideal.div ((castCol_apply _ hc p u).trans (rowSum512_apply v hr hφ hacc p)) rfl)

/-- A block less a [512, 1] column spread over the columns. -/
theorem centred_apply (x : FVec Ideal S512x512 .f32) (M : FVec Ideal S512x1 .f32) (hb : S512x1.Broadcasts S512x512)
    (p j : Fin 512) (m : EReal) (hM : M (ix2 p (0 : Fin 1)) = m) :
    subf x (broadcastTo S512x512 M hb) (ix2 p j) = x (ix2 p j) - m :=
  (subf_apply _ _ _).trans (congrArg₂ (· - ·) rfl ((bcastCol_apply M hb p j).trans hM))

/-- A [512] vector spread over the rows of a [512, 512] block reads, at (p, j), the vector at j. -/
theorem spreadRow_apply (g : FVec Ideal S512 .f32) (hc : S512.ShapeCasts S1x512) (hb : S1x512.Broadcasts S512x512) (p j : Fin 512) :
    broadcastTo S512x512 (shapeCast S1x512 g hc) hb (ix2 p j) = g (ix1 j) :=
  (broadcastTo_1b_ab_apply _ hb p j).trans (shapeCast_a_1a_apply g hc 0 j)

/-- The normalised block from the column M of means and the column V of variances: centred, times the reciprocal root of
    the variance plus ε, times the gain, plus the shift. -/
theorem lnCore_apply (x : FVec Ideal S512x512 .f32) (g b : FVec Ideal S512 .f32) (M V : FVec Ideal S512x1 .f32)
    (hb : S512x1.Broadcasts S512x512) (hc1 : S512.ShapeCasts S1x512) (hb1 : S1x512.Broadcasts S512x512) (p j : Fin 512)
    (m v : EReal) (hM : M (ix2 p (0 : Fin 1)) = m) (hV : V (ix2 p (0 : Fin 1)) = v) :
    addf (mulf (mulf (subf x (broadcastTo S512x512 M hb))
          (broadcastTo S512x512 (rsqrt (addf V (broadcast S512x1 (Scalar.ofBits (F := Ideal) .f32 0x3727C5AC#32)))) hb))
        (broadcastTo S512x512 (shapeCast S1x512 g hc1) hb1)) (broadcastTo S512x512 (shapeCast S1x512 b hc1) hb1) (ix2 p j)
      = (x (ix2 p j) - m) * Ideal.rsqrt (v + Ideal.ofBits .f32 0x3727C5AC#32) * g (ix1 j) + b (ix1 j) := by
  refine (addf_apply _ _ _).trans (congrArg₂ (· + ·) ?_ (spreadRow_apply b hc1 hb1 p j))
  refine (mulf_apply _ _ _).trans (congrArg₂ (· * ·) ?_ (spreadRow_apply g hc1 hb1 p j))
  refine (mulf_apply _ _ _).trans (congrArg₂ (· * ·) (centred_apply x M hb p j m hM) ?_)
  refine (bcastCol_apply _ hb p j).trans ((rsqrt_apply _ _).trans (congrArg Ideal.rsqrt ?_))
  exact (addf_apply _ _ _).trans (congrArg₂ (· + ·) hV rfl)

/-- The joined biases spread over the rows of a [512, 1536] block read, at (p, c), the bias at c. -/
theorem biasRow_apply (x2 : FVec Ideal S1536 .f32) (h1 : S1536.ShapeCasts S1536) (h2 : S1536.ShapeCasts S1x1536)
    (h3 : S1x1536.Broadcasts S512x1536) (p : Fin 512) (c : Fin 1536) :
    broadcastTo S512x1536 (shapeCast S1x1536 (shapeCast S1536 x2 h1) h2) h3 (ix2 p c) = x2 (ix1 c) :=
  (broadcastTo_1b_ab_apply _ h3 p c).trans ((shapeCast_a_1a_apply _ h2 0 c).trans (congrFun (shapeCast_self x2 h1) _))

/-! ## The fused projection -/

/-- The fused projection of block 0's normalised rows: entry (p, c) is Σ_k h_p(k) · W(k, c) plus the bias at c. -/
theorem pay2_apply (x0 : FVec Ideal S512x512 .f32) (x1 : FVec Ideal S512x1536 .bf16) (x2 : FVec Ideal S1536 .f32)
    (x9 x10 : FVec Ideal S512 .f32) (p : Fin 512) (c : Fin 1536) :
    Gen.k0_pay2 (F := Ideal) x0 x9 x10 x1 x2 (ix2 p c)
      = (∑ k : Fin 512, hRow x0 x9 x10 p k * x1 (ix2 k c)) + x2 (ix1 c) := by
  unfold Gen.k0_pay2
  refine (addf_apply _ _ _).trans (congrArg₂ (· + ·) ?_ (biasRow_apply x2 _ _ _ p c))
  refine (projMatmul_apply _ _ p c).trans (Finset.sum_congr rfl fun k _ => congrArg₂ (· * ·) ?_ ?_)
  · refine (truncf_apply (s := S512x512) (φ := .f32) (ψ := .bf16) _ _ (ix2 p k)).trans ?_
    refine (lnCore_apply x0 x9 x10 _ _ _ _ _ p k (Cert.Spec.mean fun k => x0 (ix2 p k)) (Cert.Spec.variance fun k => x0 (ix2 p k))
      (meanCol_apply x0 _ _ _ _ p 0) ((meanCol_apply _ _ _ _ _ p 0).trans ?_)).trans rfl
    refine congrArg Cert.Spec.mean (funext fun k' => ?_)
    exact (mulf_apply _ _ _).trans (congrArg₂ (· * ·)
      (centred_apply x0 _ _ p k' _ (meanCol_apply x0 _ _ _ _ p 0)) (centred_apply x0 _ _ p k' _ (meanCol_apply x0 _ _ _ _ p 0)))
  · exact congrFun (shapeCast_self x1 _) (ix2 k c)

/-! ## The projected queries, keys and values -/

section Blocks
variable (x0 : FVec Ideal S512x512 .f32) (x1 : FVec Ideal S512x1536 .bf16) (x2 : FVec Ideal S1536 .f32) (x9 x10 : FVec Ideal S512 .f32)

/-- The queries: the first third of the fused projection. -/
theorem valQ_apply (p j : Fin 512) : valQ (F := Ideal) x0 x1 x2 x9 x10 (ix2 p j) = qRow x0 x1 x2 x9 x10 p j := by
  unfold valQ Gen.k0_pay3
  exact (thirdSlice_apply _ 0 _ p j ⟨0 + j.val, by omega⟩ rfl).trans (pay2_apply x0 x1 x2 x9 x10 p _)

/-- The keys: the second third, head b at place d being column 64·b + d. -/
theorem valK_apply (p : Fin 512) (b : Fin 8) (d : Fin 64) :
    valK (F := Ideal) x0 x1 x2 x9 x10 (ix3 p b d) = kRow x0 x1 x2 x9 x10 p (Cert.Spec.headIdx b d) := by
  unfold valK Gen.k0_pay4
  exact (castHeads_apply _ _ p b d).trans
    ((thirdSlice_apply _ 512 _ p _ ⟨512 + (64 * b.val + d.val), by omega⟩ rfl).trans (pay2_apply x0 x1 x2 x9 x10 p _))

/-- The values: the last third, likewise. -/
theorem valV_apply (p : Fin 512) (b : Fin 8) (d : Fin 64) :
    valV (F := Ideal) x0 x1 x2 x9 x10 (ix3 p b d) = vRow x0 x1 x2 x9 x10 p (Cert.Spec.headIdx b d) := by
  unfold valV Gen.k0_pay5
  exact (castHeads_apply _ _ p b d).trans
    ((thirdSlice_apply _ 1024 _ p _ ⟨1024 + (64 * b.val + d.val), by omega⟩ rfl).trans (pay2_apply x0 x1 x2 x9 x10 p _))

end Blocks

/-! ## The eight panels of scores -/

/-- The 64 columns from 64·a of a block Q against every head of K, summed over the places, times the word of 1/8: the
    scaled score of query head a against key head b, when Q's row p is q and K's row p is k by heads. -/
theorem panelQK_apply (Q : FVec Ideal S512x512 .f32) (K : FVec Ideal S512x8x64 .f32) (o : Nat) (hs : S512x512.Slices ![0, o] S512x64)
    (hc : S512x64.ShapeCasts S512x1x64) (hb : S512x1x64.Broadcasts S512x8x64) (hr : S512x8x64.Reduces [2] S512x8)
    (hφ : FKind.Formats .f32) (hacc : (0x00000000#32 : BitVec 32) = FKind.add.neutral .f32 hφ) (p : Fin 512) (b : Fin 8)
    (q k : Fin 512 → EReal) (a : Fin 8) (ha : 64 * a.val = o) (hQ : ∀ j, Q (ix2 p j) = q j)
    (hK : ∀ b d, K (ix3 p b d) = k (Cert.Spec.headIdx b d)) :
    mulf (multiReduction .add [2] S512x8 (mulf (broadcastTo S512x8x64 (shapeCast S512x1x64 (extractStridedSlice S512x64 ![0, o] Q hs) hc) hb) K)
        0x00000000#32 hr hφ hacc) (broadcast S512x8 (Scalar.ofBits (F := Ideal) .f32 0x3E000000#32)) (ix2 p b)
      = Cert.Spec.scoresMul q k a b := by
  refine (panel_apply _ K hb hr hφ hacc p b).trans ?_
  unfold Cert.Spec.scoresMul Cert.Spec.score
  refine congrArg₂ (· * ·) (Finset.sum_congr rfl fun d _ => congrArg₂ (· * ·) ?_ (hK b d)) rfl
  exact (headSlice_apply Q o hs hc p 0 d (Cert.Spec.headIdx a d) (by show 64 * a.val + d.val = o + d.val; omega)).trans (hQ _)

section Panels
variable (Q : FVec Ideal S512x512 .f32) (K : FVec Ideal S512x8x64 .f32) (p : Fin 512) (b : Fin 8) (q k : Fin 512 → EReal)
  (hQ : ∀ j, Q (ix2 p j) = q j) (hK : ∀ b d, K (ix3 p b d) = k (Cert.Spec.headIdx b d))
include hQ hK

theorem pay8_apply : Gen.k0_pay8 (F := Ideal) Q K (ix2 p b) = Cert.Spec.scoresMul q k 1 b := by
  unfold Gen.k0_pay8; exact panelQK_apply Q K 64 _ _ _ _ _ _ p b q k 1 rfl hQ hK
theorem pay9_apply : Gen.k0_pay9 (F := Ideal) Q K (ix2 p b) = Cert.Spec.scoresMul q k 2 b := by
  unfold Gen.k0_pay9; exact panelQK_apply Q K 128 _ _ _ _ _ _ p b q k 2 rfl hQ hK
theorem pay10_apply : Gen.k0_pay10 (F := Ideal) Q K (ix2 p b) = Cert.Spec.scoresMul q k 3 b := by
  unfold Gen.k0_pay10; exact panelQK_apply Q K 192 _ _ _ _ _ _ p b q k 3 rfl hQ hK
theorem pay11_apply : Gen.k0_pay11 (F := Ideal) Q K (ix2 p b) = Cert.Spec.scoresMul q k 4 b := by
  unfold Gen.k0_pay11; exact panelQK_apply Q K 256 _ _ _ _ _ _ p b q k 4 rfl hQ hK
theorem pay12_apply : Gen.k0_pay12 (F := Ideal) Q K (ix2 p b) = Cert.Spec.scoresMul q k 5 b := by
  unfold Gen.k0_pay12; exact panelQK_apply Q K 320 _ _ _ _ _ _ p b q k 5 rfl hQ hK
theorem pay13_apply : Gen.k0_pay13 (F := Ideal) Q K (ix2 p b) = Cert.Spec.scoresMul q k 6 b := by
  unfold Gen.k0_pay13; exact panelQK_apply Q K 384 _ _ _ _ _ _ p b q k 6 rfl hQ hK

/-- The last query head, as the step that forms the weights receives it, against every key head. -/
theorem panel7_apply :
    (∑ d : Fin 64, Gen.k0_pay14 (F := Ideal) Q (ix3 p (0 : Fin 1) d) * K (ix3 p b d)) * Ideal.ofBits .f32 0x3E000000#32
      = Cert.Spec.scoresMul q k 7 b := by
  unfold Cert.Spec.scoresMul Cert.Spec.score
  refine congrArg₂ (· * ·) (Finset.sum_congr rfl fun d _ => congrArg₂ (· * ·) ?_ (hK b d)) rfl
  unfold Gen.k0_pay14
  exact (headSlice_apply Q 448 _ _ p 0 d (Cert.Spec.headIdx 7 d) (by show 64 * 7 + d.val = 448 + d.val; omega)).trans (hQ _)

end Panels

/-! ## The weights -/

/-- The step that forms the weights, over the key heads K, seven panels of scores and the last query head: when panel a's row p is
    S a and the last query head against K gives S 7, entry (p, a, b) is the exponential of S a b less the row's maximum,
    times the reciprocal of the row's sum of such exponentials. -/
theorem pay15_apply (K : FVec Ideal S512x8x64 .f32) (P0 P1 P2 P3 P4 P5 P6 : FVec Ideal S512x8 .f32) (Q7 : FVec Ideal S512x1x64 .f32)
    (p : Fin 512) (S : Fin 8 → Fin 8 → EReal)
    (h0 : ∀ b, P0 (ix2 p b) = S 0 b) (h1 : ∀ b, P1 (ix2 p b) = S 1 b) (h2 : ∀ b, P2 (ix2 p b) = S 2 b)
    (h3 : ∀ b, P3 (ix2 p b) = S 3 b) (h4 : ∀ b, P4 (ix2 p b) = S 4 b) (h5 : ∀ b, P5 (ix2 p b) = S 5 b)
    (h6 : ∀ b, P6 (ix2 p b) = S 6 b)
    (h7 : ∀ b, (∑ d : Fin 64, Q7 (ix3 p (0 : Fin 1) d) * K (ix3 p b d)) * Ideal.ofBits .f32 0x3E000000#32 = S 7 b) (a b : Fin 8) :
    Gen.k0_pay15 (F := Ideal) K P0 P1 P2 P3 P4 P5 P6 Q7 (ix3 p a b)
      = Cert.Spec.expLess (S a) (Cert.Spec.rowMax (S a)) b
        * Ideal.div (Ideal.ofBits .f32 0x3F800000#32) (∑ b' : Fin 8, Cert.Spec.expLess (S a) (Cert.Spec.rowMax (S a)) b') := by
  unfold Gen.k0_pay15
  refine (normalise_apply _ _ _ _ _ _ p a b (Cert.Spec.expLess (S a) (Cert.Spec.rowMax (S a)))
    (fun b' => expBlock_apply _ _ _ _ _ _ p a b' (S a) (fun b'' => ?_)))
  exact concat8_apply _ _ _ _ _ _ _ _ _ p b'' (fun a' => S a' b'')
    ((castMid8_apply P0 _ p 0 b'').trans (h0 b'')) ((castMid8_apply P1 _ p 0 b'').trans (h1 b''))
    ((castMid8_apply P2 _ p 0 b'').trans (h2 b'')) ((castMid8_apply P3 _ p 0 b'').trans (h3 b''))
    ((castMid8_apply P4 _ p 0 b'').trans (h4 b'')) ((castMid8_apply P5 _ p 0 b'').trans (h5 b''))
    ((castMid8_apply P6 _ p 0 b'').trans (h6 b''))
    ((castMid8_apply _ _ p 0 b'').trans ((panel_apply Q7 K _ _ _ _ p b'').trans (h7 b''))) a

/-! ## The weights and the mixed heads of block 0's rows -/

section Heads
variable (x0 : FVec Ideal S512x512 .f32) (x1 : FVec Ideal S512x1536 .bf16) (x2 : FVec Ideal S1536 .f32) (x9 x10 : FVec Ideal S512 .f32)

/-- Query head 0 against every key head (the panel the first part of the body forms entry by entry and the second sums). -/
theorem panel0_apply (p : Fin 512) (b : Fin 8) :
    Gen.k0_pay7 (F := Ideal) (valQK0 x0 x1 x2 x9 x10) (ix2 p b)
      = Cert.Spec.scoresMul (qRow x0 x1 x2 x9 x10 p) (kRow x0 x1 x2 x9 x10 p) 0 b := by
  unfold Gen.k0_pay7 valQK0 Gen.k0_pay6
  exact panelQK_apply (Gen.k0_pay3 x0 x9 x10 x1 x2) (Gen.k0_pay4 x0 x9 x10 x1 x2) 0 _ _ _ _ _ _ p b _ _ 0 rfl
    (valQ_apply x0 x1 x2 x9 x10 p) (valK_apply x0 x1 x2 x9 x10 p)

/-- The 8 × 8 weights of every row of the block. -/
theorem valW_apply (p : Fin 512) (a b : Fin 8) :
    valW (F := Ideal) x0 x1 x2 x9 x10 (ix3 p a b) = wRow x0 x1 x2 x9 x10 p a b := by
  unfold valW
  exact pay15_apply _ _ _ _ _ _ _ _ _ p (Cert.Spec.scoresMul (qRow x0 x1 x2 x9 x10 p) (kRow x0 x1 x2 x9 x10 p))
    (panel0_apply x0 x1 x2 x9 x10 p)
    (fun b => pay8_apply _ _ p b _ _ (valQ_apply x0 x1 x2 x9 x10 p) (valK_apply x0 x1 x2 x9 x10 p))
    (fun b => pay9_apply _ _ p b _ _ (valQ_apply x0 x1 x2 x9 x10 p) (valK_apply x0 x1 x2 x9 x10 p))
    (fun b => pay10_apply _ _ p b _ _ (valQ_apply x0 x1 x2 x9 x10 p) (valK_apply x0 x1 x2 x9 x10 p))
    (fun b => pay11_apply _ _ p b _ _ (valQ_apply x0 x1 x2 x9 x10 p) (valK_apply x0 x1 x2 x9 x10 p))
    (fun b => pay12_apply _ _ p b _ _ (valQ_apply x0 x1 x2 x9 x10 p) (valK_apply x0 x1 x2 x9 x10 p))
    (fun b => pay13_apply _ _ p b _ _ (valQ_apply x0 x1 x2 x9 x10 p) (valK_apply x0 x1 x2 x9 x10 p))
    (fun b => panel7_apply _ _ p b _ _ (valQ_apply x0 x1 x2 x9 x10 p) (valK_apply x0 x1 x2 x9 x10 p)) a b

/-- Mixed head 0: row 0 of the weights against the value heads. -/
theorem valO0_apply (p : Fin 512) (d : Fin 64) :
    valO0 (F := Ideal) x0 x1 x2 x9 x10 (ix2 p d)
      = ∑ b : Fin 8, wRow x0 x1 x2 x9 x10 p 0 b * vRow x0 x1 x2 x9 x10 p (Cert.Spec.headIdx b d) := by
  unfold valO0 Gen.k0_pay16
  refine (mix_apply _ _ 0 _ _ _ _ _ _ _ (0 : Fin 8) rfl p d).trans (Finset.sum_congr rfl fun b _ => congrArg₂ (· * ·) ?_ (valV_apply x0 x1 x2 x9 x10 p b d))
  exact valW_apply x0 x1 x2 x9 x10 p 0 b

/-- Mixed head 1. -/
theorem valO1_apply (p : Fin 512) (d : Fin 64) :
    valO1 (F := Ideal) x0 x1 x2 x9 x10 (ix2 p d)
      = ∑ b : Fin 8, wRow x0 x1 x2 x9 x10 p 1 b * vRow x0 x1 x2 x9 x10 p (Cert.Spec.headIdx b d) := by
  unfold valO1 Gen.k0_pay17
  refine (mix_apply _ _ 1 _ _ _ _ _ _ _ (1 : Fin 8) rfl p d).trans (Finset.sum_congr rfl fun b _ => congrArg₂ (· * ·) ?_ (valV_apply x0 x1 x2 x9 x10 p b d))
  exact valW_apply x0 x1 x2 x9 x10 p 1 b

/-- Mixed head 2. -/
theorem valO2_apply (p : Fin 512) (d : Fin 64) :
    valO2 (F := Ideal) x0 x1 x2 x9 x10 (ix2 p d)
      = ∑ b : Fin 8, wRow x0 x1 x2 x9 x10 p 2 b * vRow x0 x1 x2 x9 x10 p (Cert.Spec.headIdx b d) := by
  unfold valO2 Gen.k0_pay18
  refine (mix_apply _ _ 2 _ _ _ _ _ _ _ (2 : Fin 8) rfl p d).trans (Finset.sum_congr rfl fun b _ => congrArg₂ (· * ·) ?_ (valV_apply x0 x1 x2 x9 x10 p b d))
  exact valW_apply x0 x1 x2 x9 x10 p 2 b

/-- Mixed head 3. -/
theorem valO3_apply (p : Fin 512) (d : Fin 64) :
    valO3 (F := Ideal) x0 x1 x2 x9 x10 (ix2 p d)
      = ∑ b : Fin 8, wRow x0 x1 x2 x9 x10 p 3 b * vRow x0 x1 x2 x9 x10 p (Cert.Spec.headIdx b d) := by
  unfold valO3 Gen.k0_pay19
  refine (mix_apply _ _ 3 _ _ _ _ _ _ _ (3 : Fin 8) rfl p d).trans (Finset.sum_congr rfl fun b _ => congrArg₂ (· * ·) ?_ (valV_apply x0 x1 x2 x9 x10 p b d))
  exact valW_apply x0 x1 x2 x9 x10 p 3 b

/-- Row 4 of the weights, as the body hands it on. -/
theorem valW4_apply (p : Fin 512) (b : Fin 8) :
    valW4 (F := Ideal) x0 x1 x2 x9 x10 (ix2 p b) = wRow x0 x1 x2 x9 x10 p 4 b := by
  unfold valW4 Gen.k0_pay20
  exact (rowSlice_apply _ 4 _ _ p b (4 : Fin 8) rfl).trans (valW_apply x0 x1 x2 x9 x10 p 4 b)

end Heads

end Cert.KernelIdeal.HeadsValue
end
-- ==== Proof.KernelTail.lean ====
/-
  The second half of the kernel body read at an index. The body's value there is: the eight mixed heads side by
  side (heads 0 to 3 handed over already mixed, head 4 from its own row of weights, heads 5 to 7 from rows 5 to 7 of
  the 8 × 8 table of weights, each a weighted sum of the values over the head axis), times the transposed output
  weights into a zero accumulator, plus the bias row and the residual; then the layer normalisation of that value
  (mean and variance over each row of 512, the small constant added under the root), the first feed-forward product
  with its bias, the maximum with the zero word, the second product with its bias, and the residual again. Read at
  (p, j) this is the specification's feed-forward row of the row after the attention half, at j.

  First the layout operations the body uses, each read at an index given by coordinates, over variables of the
  literal shapes; then the three products into a zero accumulator; then one lemma per stage of the computation.
  At the ideal values a change of float format is the identity, a sum over one axis is a finite sum and a product
  into the zero accumulator is the sum of the products, so nothing beyond re-indexing is needed.
-/
import proofs.«107231_j40132174414149_2_alg».proof.Proof.BodyValI
import proofs.«107231_j40132174414149_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailValue

open Idealize.ShloMosaic Cert.KernelIdeal Cert.KernelIdeal.Hand Cert.Rows Idealize.ShloMosaic.ValueIdx

variable {α : Type}

/-! ## Layout operations at an index -/

/-- A column of 512 cast to [512, 1] reads, at (p, u), the column at p. -/
theorem cast_col (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- A [512, 1] column broadcast to [512, 512] reads, at (p, j), the column at (p, 0). -/
theorem bcast_col (v : S512x1.Idx → α) (h : S512x1.Broadcasts S512x512) (p j : Fin 512) :
    broadcastTo S512x512 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- A row of n cast to [1, n] and broadcast to [512, n] reads, at (p, j), the row at j. -/
theorem bcast_row512 (v : S512.Idx → α) (h : S512.ShapeCasts S1x512) (h' : S1x512.Broadcasts S512x512) (p j : Fin 512) :
    broadcastTo S512x512 (shapeCast S1x512 v h) h' (ix2 p j) = v (ix1 j) :=
  (broadcastTo_1b_ab_apply _ h' p j).trans (shapeCast_a_1a_apply v h 0 j)

theorem bcast_row2048 (v : S2048.Idx → α) (h : S2048.ShapeCasts S1x2048) (h' : S1x2048.Broadcasts S512x2048) (p : Fin 512) (f : Fin 2048) :
    broadcastTo S512x2048 (shapeCast S1x2048 v h) h' (ix2 p f) = v (ix1 f) :=
  (broadcastTo_1b_ab_apply _ h' p f).trans (shapeCast_a_1a_apply v h 0 f)

/-- A sum over axis 1 of a [512, 512] value reads, at p, the sum of row p. -/
theorem sum_row (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A [512, 8] value cast to [512, 8, 1] reads, at (p, b, u), the value at (p, b). -/
theorem cast_add_last (v : S512x8.Idx → α) (h : S512x8.ShapeCasts S512x8x1) (p : Fin 512) (b : Fin 8) (u : Fin 1) :
    shapeCast S512x8x1 v h (ix3 p b u) = v (ix2 p b) :=
  shapeCast_apply v h _ _ (by
    have hu : u.val = 0 := by omega
    rw [Shape.rowMajor_val_two, Shape.rowMajor_val_three]
    show p.val * 8 + b.val = (p.val * 8 + b.val) * 1 + u.val
    omega)

/-- A [512, 8, 1] value broadcast to [512, 8, 64] reads, at (p, b, d), the value at (p, b, 0). -/
theorem bcast_last (v : S512x8x1.Idx → α) (h : S512x8x1.Broadcasts S512x8x64) (p : Fin 512) (b : Fin 8) (d : Fin 64) :
    broadcastTo S512x8x64 v h (ix3 p b d) = v (ix3 p b (0 : Fin 1)) := by
  refine broadcastTo_apply v h (ix3 p b d) (ix3 p b (0 : Fin 1)) fun ax => ?_
  match ax with
  | ⟨0, _⟩ => rfl
  | ⟨1, _⟩ => rfl
  | ⟨2, _⟩ => rfl

/-- A [512, 1, 8] value cast to [512, 8] reads, at (p, b), the value at (p, 0, b). -/
theorem cast_drop_mid (v : S512x1x8.Idx → α) (h : S512x1x8.ShapeCasts S512x8) (p : Fin 512) (b : Fin 8) :
    shapeCast S512x8 v h (ix2 p b) = v (ix3 p (0 : Fin 1) b) :=
  shapeCast_apply v h _ _ (by
    rw [Shape.rowMajor_val_two, Shape.rowMajor_val_three]
    show (p.val * 1 + 0) * 8 + b.val = p.val * 8 + b.val
    omega)

/-- Row a of the 8 × 8 table of weights, cut out as [512, 1, 8] and cast to [512, 8, 1] then broadcast over the 64
    places: at (p, b, d) it is the table at (p, a, b). -/
theorem weights_row (W : S512x8x8.Idx → α) (o : Nat) (a : Fin 8) (ha : a.val = o) (hs : S512x8x8.Slices ![0, o, 0] S512x1x8)
    (h1 : S512x1x8.ShapeCasts S512x8) (h2 : S512x8.ShapeCasts S512x8x1) (h3 : S512x8x1.Broadcasts S512x8x64)
    (p : Fin 512) (b : Fin 8) (d : Fin 64) :
    broadcastTo S512x8x64 (shapeCast S512x8x1 (shapeCast S512x8 (extractStridedSlice S512x1x8 ![0, o, 0] W hs) h1) h2) h3 (ix3 p b d)
      = W (ix3 p a b) :=
  (bcast_last _ h3 p b d).trans <| (cast_add_last _ h2 p b 0).trans <| (cast_drop_mid _ h1 p b).trans <|
    slice3_axis1_apply o W hs p (0 : Fin 1) b a (by rw [ha]; rfl)

/-- A sum over axis 1 of a [512, 8, 64] value reads, at (p, d), the sum over the 8 heads. -/
theorem sum_heads (src : FVec Ideal S512x8x64 .f32) (h : S512x8x64.Reduces [1] S512x64) (hφ : FKind.Formats .f32)
    (hacc : (0x00000000#32 : BitVec 32) = 0x00000000#32) (p : Fin 512) (d : Fin 64) :
    multiReduction (F := Ideal) .add [1] S512x64 src 0x00000000#32 h hφ hacc (ix2 p d) = ∑ b : Fin 8, src (ix3 p b d) := by
  refine (Ideal.multiReduction_add_single src 0x00000000#32 h hφ hacc (ix2 p d)).trans ?_
  refine Finset.sum_congr rfl fun k _ => congrArg src ?_
  funext a
  match a with
  | ⟨0, _⟩ => rfl
  | ⟨1, _⟩ => rfl
  | ⟨2, _⟩ => rfl

/-- Eight [512, 64] pieces side by side: column k of row p, with k = 64·n + d, is piece n at (p, d). -/
theorem concat_piece (xs : List ((s : Shape) × (s.Idx → α))) (h : Shape.Concatenates (xs.map (·.1)) S512x512 1)
    (p k : Fin 512) (n : Nat) (hn : n < xs.length) (x : S512x64.Idx → α) (hx : xs[n] = ⟨S512x64, x⟩)
    (hpre : (((xs.take n).map (·.1)).map fun s => if h : s.rank = S512x512.rank then s.size ((1 : Fin S512x512.rank).cast h.symm) else 0).sum = 64 * n)
    (d : Fin 64) (hd : 64 * n + d.val = k.val) :
    concatenate S512x512 1 xs h (ix2 p k) = x (ix2 p d) :=
  concatenate_apply_piece (1 : Fin S512x512.rank) xs h (ix2 p k) n hn S512x64 x hx rfl (64 * n) hpre (ix2 p d)
    (fun b hb => by
      match b with
      | ⟨0, _⟩ => rfl
      | ⟨1, _⟩ => exact absurd rfl hb)
    hd

/-! ## Products into the zero accumulator -/

theorem matmul_out_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem matmul_out_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
/-- A product into the zero accumulator reads, at (p, j), the sum over the contracted axis of the products. -/
theorem matmul_out (l : FVec Ideal S512x512 .bf16) (r : FVec Ideal S512x512 .bf16) (p : Fin 512) (j : Fin 512) :
    matmul dot_S512x512_S512x512_S512x512_1_0_0_1_n_n none l r (constant (F := Ideal) S512x512 .f32 0x00000000#32) (ix2 p j)
      = ∑ k : Fin 512, l (ix2 p k) * r (ix2 k j) := by
  refine (Ideal.matmul_constant_zero_apply dot_S512x512_S512x512_S512x512_1_0_0_1_n_n none l r (ix2 p j)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p j) ((contrEquiv1 dot_S512x512_S512x512_S512x512_1_0_0_1_n_n 512 rfl rfl).symm k) = ix2 p k :=
    funext fun a => Fin.ext (by
      match a with
      | ⟨0, _⟩ => exact matmul_out_lhs0 _ _
      | ⟨1, _⟩ => exact (dot_S512x512_S512x512_S512x512_1_0_0_1_n_n.lhsIdx_val_of_single rfl (ix2 p j) _).trans hk)
  have er : dot_S512x512_S512x512_S512x512_1_0_0_1_n_n.rhsIdx (ix2 p j) ((contrEquiv1 dot_S512x512_S512x512_S512x512_1_0_0_1_n_n 512 rfl rfl).symm k) = ix2 k j :=
    funext fun a => Fin.ext (by
      match a with
      | ⟨0, _⟩ => exact (dot_S512x512_S512x512_S512x512_1_0_0_1_n_n.rhsIdx_val_of_single rfl (ix2 p j) _).trans hk
      | ⟨1, _⟩ => exact matmul_out_rhs1 _ _)
  rw [el, er]

theorem matmul_up_lhs0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem matmul_up_rhs1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl
/-- A product into the zero accumulator reads, at (p, j), the sum over the contracted axis of the products. -/
theorem matmul_up (l : FVec Ideal S512x512 .bf16) (r : FVec Ideal S512x2048 .bf16) (p : Fin 512) (j : Fin 2048) :
    matmul dot_S512x512_S512x2048_S512x2048_1_0_0_1_n_n none l r (constant (F := Ideal) S512x2048 .f32 0x00000000#32) (ix2 p j)
      = ∑ k : Fin 512, l (ix2 p k) * r (ix2 k j) := by
  refine (Ideal.matmul_constant_zero_apply dot_S512x512_S512x2048_S512x2048_1_0_0_1_n_n none l r (ix2 p j)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p j) ((contrEquiv1 dot_S512x512_S512x2048_S512x2048_1_0_0_1_n_n 512 rfl rfl).symm k) = ix2 p k :=
    funext fun a => Fin.ext (by
      match a with
      | ⟨0, _⟩ => exact matmul_up_lhs0 _ _
      | ⟨1, _⟩ => exact (dot_S512x512_S512x2048_S512x2048_1_0_0_1_n_n.lhsIdx_val_of_single rfl (ix2 p j) _).trans hk)
  have er : dot_S512x512_S512x2048_S512x2048_1_0_0_1_n_n.rhsIdx (ix2 p j) ((contrEquiv1 dot_S512x512_S512x2048_S512x2048_1_0_0_1_n_n 512 rfl rfl).symm k) = ix2 k j :=
    funext fun a => Fin.ext (by
      match a with
      | ⟨0, _⟩ => exact (dot_S512x512_S512x2048_S512x2048_1_0_0_1_n_n.rhsIdx_val_of_single rfl (ix2 p j) _).trans hk
      | ⟨1, _⟩ => exact matmul_up_rhs1 _ _)
  rw [el, er]

theorem matmul_down_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem matmul_down_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl
/-- A product into the zero accumulator reads, at (p, j), the sum over the contracted axis of the products. -/
theorem matmul_down (l : FVec Ideal S512x2048 .bf16) (r : FVec Ideal S2048x512 .bf16) (p : Fin 512) (j : Fin 512) :
    matmul dot_S512x2048_S2048x512_S512x512_1_0_0_1_n_n none l r (constant (F := Ideal) S512x512 .f32 0x00000000#32) (ix2 p j)
      = ∑ k : Fin 2048, l (ix2 p k) * r (ix2 k j) := by
  refine (Ideal.matmul_constant_zero_apply dot_S512x2048_S2048x512_S512x512_1_0_0_1_n_n none l r (ix2 p j)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p j) ((contrEquiv1 dot_S512x2048_S2048x512_S512x512_1_0_0_1_n_n 2048 rfl rfl).symm k) = ix2 p k :=
    funext fun a => Fin.ext (by
      match a with
      | ⟨0, _⟩ => exact matmul_down_lhs0 _ _
      | ⟨1, _⟩ => exact (dot_S512x2048_S2048x512_S512x512_1_0_0_1_n_n.lhsIdx_val_of_single rfl (ix2 p j) _).trans hk)
  have er : dot_S512x2048_S2048x512_S512x512_1_0_0_1_n_n.rhsIdx (ix2 p j) ((contrEquiv1 dot_S512x2048_S2048x512_S512x512_1_0_0_1_n_n 2048 rfl rfl).symm k) = ix2 k j :=
    funext fun a => Fin.ext (by
      match a with
      | ⟨0, _⟩ => exact (dot_S512x2048_S2048x512_S512x512_1_0_0_1_n_n.rhsIdx_val_of_single rfl (ix2 p j) _).trans hk
      | ⟨1, _⟩ => exact matmul_down_rhs1 _ _)
  rw [el, er]

/-! ## The stages of the second half -/

/-- The mean column of a [512, 512] value: at (p, ·) the mean of row p. -/
theorem mean_col (y : FVec Ideal S512x512 .f32) (h1 : S512x512.Reduces [1] S512) (hφ : FKind.Formats .f32)
    (hacc : (0x00000000#32 : BitVec 32) = 0x00000000#32) (h2 : S512.ShapeCasts S512x1) (p : Fin 512) (u : Fin 1) :
    divf (shapeCast S512x1 (multiReduction (F := Ideal) .add [1] S512 y 0x00000000#32 h1 hφ hacc) h2)
        (broadcast S512x1 (Scalar.ofBits (F := Ideal) .f32 0x44000000#32)) (ix2 p u)
      = Cert.Spec.mean (fun k => y (ix2 p k)) :=
  congrArg (fun s => Ideal.div s (Ideal.ofBits .f32 0x44000000#32)) ((cast_col _ h2 p u).trans (sum_row y h1 hφ hacc p))

/-- Layer normalisation of every row of a [512, 512] value y, from its mean (broadcast over the row) and its
    variance column: at (p, j) it is the specification's layer norm of row p at j. -/
theorem layerNorm_apply (y mu : FVec Ideal S512x512 .f32) (var : FVec Ideal S512x1 .f32) (g b : FVec Ideal S512 .f32)
    (hmu : ∀ p j : Fin 512, mu (ix2 p j) = Cert.Spec.mean (fun k => y (ix2 p k)))
    (hvar : ∀ (p : Fin 512) (u : Fin 1), var (ix2 p u) = Cert.Spec.variance (fun k => y (ix2 p k)))
    (hb : S512x1.Broadcasts S512x512) (hc : S512.ShapeCasts S1x512) (hr : S1x512.Broadcasts S512x512) (p j : Fin 512) :
    addf (mulf (mulf (subf y mu)
            (broadcastTo S512x512 (rsqrt (addf var (broadcast S512x1 (Scalar.ofBits (F := Ideal) .f32 0x3727C5AC#32)))) hb))
          (broadcastTo S512x512 (shapeCast S1x512 g hc) hr))
        (broadcastTo S512x512 (shapeCast S1x512 b hc) hr) (ix2 p j)
      = Cert.Spec.layerNorm (fun k => y (ix2 p k)) (fun k => g (ix1 k)) (fun k => b (ix1 k)) j := by
  show (y (ix2 p j) - mu (ix2 p j)) * broadcastTo S512x512 (rsqrt (addf var (broadcast S512x1 (Scalar.ofBits (F := Ideal) .f32 0x3727C5AC#32)))) hb (ix2 p j)
      * broadcastTo S512x512 (shapeCast S1x512 g hc) hr (ix2 p j) + broadcastTo S512x512 (shapeCast S1x512 b hc) hr (ix2 p j) = _
  rw [bcast_col _ hb p j, bcast_row512 g hc hr p j, bcast_row512 b hc hr p j, hmu p j]
  show (y (ix2 p j) - _) * Ideal.rsqrt (var (ix2 p (0 : Fin 1)) + Ideal.ofBits .f32 0x3727C5AC#32) * g (ix1 j) + b (ix1 j) = _
  rw [hvar p 0]
  rfl

/-- The variance column of a [512, 512] value y from its mean column m: at (p, ·) the variance of row p. -/
theorem var_col (y : FVec Ideal S512x512 .f32) (m : FVec Ideal S512x1 .f32)
    (hm : ∀ (p : Fin 512) (u : Fin 1), m (ix2 p u) = Cert.Spec.mean (fun k => y (ix2 p k)))
    (hb : S512x1.Broadcasts S512x512) (h1 : S512x512.Reduces [1] S512) (hφ : FKind.Formats .f32)
    (hacc : (0x00000000#32 : BitVec 32) = 0x00000000#32) (h2 : S512.ShapeCasts S512x1) (p : Fin 512) (u : Fin 1) :
    divf (shapeCast S512x1 (multiReduction (F := Ideal) .add [1] S512
            (mulf (subf y (broadcastTo S512x512 m hb)) (subf y (broadcastTo S512x512 m hb))) 0x00000000#32 h1 hφ hacc) h2)
        (broadcast S512x1 (Scalar.ofBits (F := Ideal) .f32 0x44000000#32)) (ix2 p u)
      = Cert.Spec.variance (fun k => y (ix2 p k)) := by
  refine (mean_col _ h1 hφ hacc h2 p u).trans (congrArg Cert.Spec.mean (funext fun k => ?_))
  show (y (ix2 p k) - broadcastTo S512x512 m hb (ix2 p k)) * (y (ix2 p k) - broadcastTo S512x512 m hb (ix2 p k)) = _
  rw [bcast_col m hb p k, hm p 0]
  rfl

/-- The mean column of the value after the attention half. -/
theorem pay22_apply (x0 : FVec Ideal S512x512 .f32) (V : FVec Ideal S512x8x64 .f32) (W : FVec Ideal S512x8x8 .f32) (o0 o1 o2 o3 : FVec Ideal S512x64 .f32) (w4 : FVec Ideal S512x8 .f32)
    (x3 : FVec Ideal S512x512 .bf16) (x4 : FVec Ideal S512 .f32) (p : Fin 512) (u : Fin 1) :
    Gen.k0_pay22 (F := Ideal) x0 V W o0 o1 o2 o3 w4 x3 x4 (ix2 p u) = Cert.Spec.mean (fun k => Gen.k0_pay21 (F := Ideal) x0 V W o0 o1 o2 o3 w4 x3 x4 (ix2 p k)) := by
  unfold Gen.k0_pay22
  exact mean_col _ _ _ _ _ p u

/-- Its variance column. -/
theorem pay23_apply (x0 : FVec Ideal S512x512 .f32) (V : FVec Ideal S512x8x64 .f32) (W : FVec Ideal S512x8x8 .f32) (o0 o1 o2 o3 : FVec Ideal S512x64 .f32) (w4 : FVec Ideal S512x8 .f32)
    (x3 : FVec Ideal S512x512 .bf16) (x4 : FVec Ideal S512 .f32) (p : Fin 512) (u : Fin 1) :
    Gen.k0_pay23 (F := Ideal) x0 V W o0 o1 o2 o3 w4 x3 x4 (ix2 p u) = Cert.Spec.variance (fun k => Gen.k0_pay21 (F := Ideal) x0 V W o0 o1 o2 o3 w4 x3 x4 (ix2 p k)) := by
  unfold Gen.k0_pay23
  exact var_col _ _ (pay22_apply x0 V W o0 o1 o2 o3 w4 x3 x4) _ _ _ _ _ p u

/-- Its mean broadcast over each row. -/
theorem pay24_apply (x0 : FVec Ideal S512x512 .f32) (V : FVec Ideal S512x8x64 .f32) (W : FVec Ideal S512x8x8 .f32) (o0 o1 o2 o3 : FVec Ideal S512x64 .f32) (w4 : FVec Ideal S512x8 .f32)
    (x3 : FVec Ideal S512x512 .bf16) (x4 : FVec Ideal S512 .f32) (p j : Fin 512) :
    Gen.k0_pay24 (F := Ideal) x0 V W o0 o1 o2 o3 w4 x3 x4 (ix2 p j) = Cert.Spec.mean (fun k => Gen.k0_pay21 (F := Ideal) x0 V W o0 o1 o2 o3 w4 x3 x4 (ix2 p k)) := by
  unfold Gen.k0_pay24
  exact (bcast_col _ _ p j).trans (pay22_apply x0 V W o0 o1 o2 o3 w4 x3 x4 p 0)

/-- The feed-forward half over a value y with its mean (broadcast) and variance column given: at (p, j) the
    specification's feed-forward row of row p of y. -/
theorem pay1_apply (y mu : FVec Ideal S512x512 .f32) (var : FVec Ideal S512x1 .f32) (g b : FVec Ideal S512 .f32)
    (x5 : FVec Ideal S512x2048 .bf16) (x6 : FVec Ideal S2048 .f32) (x7 : FVec Ideal S2048x512 .bf16) (x8 : FVec Ideal S512 .f32)
    (hmu : ∀ p j : Fin 512, mu (ix2 p j) = Cert.Spec.mean (fun k => y (ix2 p k)))
    (hvar : ∀ (p : Fin 512) (u : Fin 1), var (ix2 p u) = Cert.Spec.variance (fun k => y (ix2 p k))) (p j : Fin 512) :
    Gen.k0_pay1 (F := Ideal) y g b var mu x5 x6 x7 x8 (ix2 p j)
      = Cert.Spec.ffnRow (fun k => y (ix2 p k)) (fun f k => x5 (ix2 k f)) (fun f => x6 (ix1 f)) (fun j f => x7 (ix2 f j))
          (fun j => x8 (ix1 j)) (fun j => g (ix1 j)) (fun j => b (ix1 j)) j := by
  unfold Gen.k0_pay1 Cert.Spec.ffnRow
  refine (addf_apply _ _ _).trans (congrArg (y (ix2 p j) + ·) ?_)
  refine (addf_apply _ _ _).trans (congrArg₂ (· + ·) ?_ (bcast_row512 x8 _ _ p j))
  refine (matmul_down _ _ p j).trans (Finset.sum_congr rfl fun f _ => congrArg₂ (· * ·) ?_ (congrFun (shapeCast_self x7 _) _))
  refine (truncf_apply (φ := .f32) (ψ := .bf16) _ Gen.bitsLt_bf16_f32 _).trans ((maximumf_apply _ _ _).trans (congrArg₂ max ?_ rfl))
  refine (addf_apply _ _ _).trans (congrArg₂ (· + ·) ?_ (bcast_row2048 x6 _ _ p f))
  refine (matmul_up _ _ p f).trans (Finset.sum_congr rfl fun k _ => congrArg₂ (· * ·) ?_ (congrFun (shapeCast_self x5 _) _))
  exact (truncf_apply (φ := .f32) (ψ := .bf16) _ Gen.bitsLt_bf16_f32 _).trans (layerNorm_apply y mu var g b hmu hvar _ _ _ p k)

/-- One mixed head: weights w b (spread over the 64 places as B) times the values, summed over the 8 heads. -/
theorem head_mix (B V : FVec Ideal S512x8x64 .f32) (w : Fin 8 → EReal) (p : Fin 512) (d : Fin 64)
    (hB : ∀ b : Fin 8, B (ix3 p b d) = w b) (h : S512x8x64.Reduces [1] S512x64) (hφ : FKind.Formats .f32)
    (hacc : (0x00000000#32 : BitVec 32) = 0x00000000#32) :
    multiReduction (F := Ideal) .add [1] S512x64 (mulf B V) 0x00000000#32 h hφ hacc (ix2 p d) = ∑ b : Fin 8, w b * V (ix3 p b d) :=
  (sum_heads _ h hφ hacc p d).trans (Finset.sum_congr rfl fun b _ => congrArg (· * V (ix3 p b d)) (hB b))

/-- The eight heads side by side: heads 0 to 3 as given, head 4 from its row of weights, heads 5 to 7 from rows 5 to
    7 of the table of weights. Column k of row p is the specification's mixed row at k. -/
theorem concat_mixed (V : FVec Ideal S512x8x64 .f32) (W : FVec Ideal S512x8x8 .f32) (o0 o1 o2 o3 : FVec Ideal S512x64 .f32)
    (w4 : FVec Ideal S512x8 .f32) (c4 c5 c6 c7 : FVec Ideal S512x64 .f32)
    (h4 : ∀ (p : Fin 512) (d : Fin 64), c4 (ix2 p d) = ∑ b : Fin 8, w4 (ix2 p b) * V (ix3 p b d))
    (h5 : ∀ (p : Fin 512) (d : Fin 64), c5 (ix2 p d) = ∑ b : Fin 8, W (ix3 p (5 : Fin 8) b) * V (ix3 p b d))
    (h6 : ∀ (p : Fin 512) (d : Fin 64), c6 (ix2 p d) = ∑ b : Fin 8, W (ix3 p (6 : Fin 8) b) * V (ix3 p b d))
    (h7 : ∀ (p : Fin 512) (d : Fin 64), c7 (ix2 p d) = ∑ b : Fin 8, W (ix3 p (7 : Fin 8) b) * V (ix3 p b d))
    (h : Shape.Concatenates [S512x64, S512x64, S512x64, S512x64, S512x64, S512x64, S512x64, S512x64] S512x512 1) (p k : Fin 512) :
    concatenate S512x512 1 [⟨S512x64, o0⟩, ⟨S512x64, o1⟩, ⟨S512x64, o2⟩, ⟨S512x64, o3⟩, ⟨S512x64, c4⟩, ⟨S512x64, c5⟩, ⟨S512x64, c6⟩, ⟨S512x64, c7⟩] h (ix2 p k) = mixedRow V W o0 o1 o2 o3 w4 p k := by
  have hq : (Cert.Spec.headOf k).val = k.val / 64 := rfl
  have hr : (Cert.Spec.placeOf k).val = k.val % 64 := rfl
  have hk := k.isLt
  unfold mixedRow
  split_ifs with e0 e1 e2 e3 e4
  · exact concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 0 (Nat.lt_of_sub_eq_succ rfl) o0 rfl rfl _ (by omega)
  · exact concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 1 (Nat.lt_of_sub_eq_succ rfl) o1 rfl rfl _ (by omega)
  · exact concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 2 (Nat.lt_of_sub_eq_succ rfl) o2 rfl rfl _ (by omega)
  · exact concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 3 (Nat.lt_of_sub_eq_succ rfl) o3 rfl rfl _ (by omega)
  · exact (concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 4 (Nat.lt_of_sub_eq_succ rfl) c4 rfl rfl _ (by omega)).trans (h4 p _)
  · have hc : (Cert.Spec.headOf k).val = 5 ∨ (Cert.Spec.headOf k).val = 6 ∨ (Cert.Spec.headOf k).val = 7 := by omega
    rcases hc with c | c | c
    · rw [show Cert.Spec.headOf k = (5 : Fin 8) from Fin.ext c]
      exact (concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 5 (Nat.lt_of_sub_eq_succ rfl) c5 rfl rfl _ (by omega)).trans (h5 p _)
    · rw [show Cert.Spec.headOf k = (6 : Fin 8) from Fin.ext c]
      exact (concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 6 (Nat.lt_of_sub_eq_succ rfl) c6 rfl rfl _ (by omega)).trans (h6 p _)
    · rw [show Cert.Spec.headOf k = (7 : Fin 8) from Fin.ext c]
      exact (concat_piece [⟨S512x64, o0⟩, ⟨S512x64, o1⟩, ⟨S512x64, o2⟩, ⟨S512x64, o3⟩, ⟨S512x64, c4⟩, ⟨S512x64, c5⟩, ⟨S512x64, c6⟩, ⟨S512x64, c7⟩] h p k 7 (Nat.lt_of_sub_eq_succ rfl) c7 rfl rfl _ (by omega)).trans (h7 p _)

/-- The value after the attention half: the rows of x plus the mixed heads through the output projection. -/
theorem pay21_apply (x0 : FVec Ideal S512x512 .f32) (V : FVec Ideal S512x8x64 .f32) (W : FVec Ideal S512x8x8 .f32) (o0 o1 o2 o3 : FVec Ideal S512x64 .f32) (w4 : FVec Ideal S512x8 .f32)
    (x3 : FVec Ideal S512x512 .bf16) (x4 : FVec Ideal S512 .f32) (p j : Fin 512) :
    Gen.k0_pay21 (F := Ideal) x0 V W o0 o1 o2 o3 w4 x3 x4 (ix2 p j)
      = x0 (ix2 p j) + Cert.Spec.affine (mixedRow V W o0 o1 o2 o3 w4 p) (fun j k => x3 (ix2 k j)) (fun j => x4 (ix1 j)) j := by
  unfold Gen.k0_pay21 Cert.Spec.affine
  refine (addf_apply _ _ _).trans (congrArg (x0 (ix2 p j) + ·) ?_)
  refine (addf_apply _ _ _).trans (congrArg₂ (· + ·) ?_ (bcast_row512 x4 _ _ p j))
  refine (matmul_out _ _ p j).trans (Finset.sum_congr rfl fun k _ => congrArg₂ (· * ·) ?_ (congrFun (shapeCast_self x3 _) _))
  refine (truncf_apply (φ := .f32) (ψ := .bf16) _ Gen.bitsLt_bf16_f32 _).trans ?_
  refine concat_mixed V W o0 o1 o2 o3 w4 _ _ _ _ (fun p d => ?_) (fun p d => ?_) (fun p d => ?_) (fun p d => ?_) _ p k
  · exact head_mix _ V (fun b => w4 (ix2 p b)) p d (fun b => (bcast_last _ _ p b d).trans (cast_add_last w4 _ p b 0)) _ _ _
  · exact head_mix _ V (fun b => W (ix3 p (5 : Fin 8) b)) p d (fun b => weights_row W 5 5 rfl _ _ _ _ p b d) _ _ _
  · exact head_mix _ V (fun b => W (ix3 p (6 : Fin 8) b)) p d (fun b => weights_row W 6 6 rfl _ _ _ _ p b d) _ _ _
  · exact head_mix _ V (fun b => W (ix3 p (7 : Fin 8) b)) p d (fun b => weights_row W 7 7 rfl _ _ _ _ p b d) _ _ _

/-- The second half of the body, read at (p, j): the specification's feed-forward row of the row after the
    attention half. -/
theorem valTail_apply (x0 : FVec Ideal S512x512 .f32) (V : FVec Ideal S512x8x64 .f32) (W : FVec Ideal S512x8x8 .f32) (o0 o1 o2 o3 : FVec Ideal S512x64 .f32) (w4 : FVec Ideal S512x8 .f32)
    (x3 : FVec Ideal S512x512 .bf16) (x4 : FVec Ideal S512 .f32) (x5 : FVec Ideal S512x2048 .bf16) (x6 : FVec Ideal S2048 .f32) (x7 : FVec Ideal S2048x512 .bf16) (x8 x11 x12 : FVec Ideal S512 .f32) (p j : Fin 512) :
    valTail (F := Ideal) x0 V W o0 o1 o2 o3 w4 x3 x4 x5 x6 x7 x8 x11 x12 (ix2 p j)
      = Cert.Spec.ffnRow (fun j' => x0 (ix2 p j') + Cert.Spec.affine (mixedRow V W o0 o1 o2 o3 w4 p) (fun j k => x3 (ix2 k j)) (fun j => x4 (ix1 j)) j')
          (fun f k => x5 (ix2 k f)) (fun f => x6 (ix1 f)) (fun j f => x7 (ix2 f j)) (fun j => x8 (ix1 j)) (fun j => x11 (ix1 j)) (fun j => x12 (ix1 j)) j := by
  unfold valTail
  refine (pay1_apply _ _ _ x11 x12 x5 x6 x7 x8 (pay24_apply x0 V W o0 o1 o2 o3 w4 x3 x4) (pay23_apply x0 V W o0 o1 o2 o3 w4 x3 x4) p j).trans ?_
  exact congrArg (fun y => Cert.Spec.ffnRow y (fun f k => x5 (ix2 k f)) (fun f => x6 (ix1 f)) (fun j f => x7 (ix2 f j))
    (fun j => x8 (ix1 j)) (fun j => x11 (ix1 j)) (fun j => x12 (ix1 j)) j) (funext fun k => pay21_apply x0 V W o0 o1 o2 o3 w4 x3 x4 p k)

end Cert.KernelIdeal.TailValue

end
-- ==== Proof.KernelBlock.lean ====
/-
  One row of the block the kernel body stores, as the layer's row function of the thirteen blocks it loads
  (the 8 × 8 weights spelt by multiplication): the first half of the body hands the second the values, the
  weights and the mixed heads; the second half finishes the mixing, projects, adds the residual, normalises
  and runs the feed-forward.
-/
import proofs.«107231_j40132174414149_2_alg».proof.Proof.BodyValI
import proofs.«107231_j40132174414149_2_alg».proof.Proof.Rows
import proofs.«107231_j40132174414149_2_alg».proof.Proof.KernelHeads
import proofs.«107231_j40132174414149_2_alg».proof.Proof.KernelTail

noncomputable section

namespace Cert.KernelIdeal.BlockValue

open Cert.KernelIdeal Cert.KernelIdeal.Hand Cert.Rows Cert.Spec Idealize.ShloMosaic Idealize.ShloMosaic.ValueIdx

/-- Row p of the stored block, from the thirteen loaded blocks. -/
def blockRow (x0 : FVec Ideal S512x512 .f32) (x1 : FVec Ideal S512x1536 .bf16) (x2 : FVec Ideal S1536 .f32) (x3 : FVec Ideal S512x512 .bf16) (x4 : FVec Ideal S512 .f32) (x5 : FVec Ideal S512x2048 .bf16) (x6 : FVec Ideal S2048 .f32) (x7 : FVec Ideal S2048x512 .bf16) (x8 : FVec Ideal S512 .f32) (x9 : FVec Ideal S512 .f32) (x10 : FVec Ideal S512 .f32) (x11 : FVec Ideal S512 .f32) (x12 : FVec Ideal S512 .f32) (p : Fin 512) : Fin 512 → EReal :=
  row weightsMul (fun k => x0 (ix2 p k)) (wPart x1 0 (by omega)) (bPart x2 0 (by omega)) (wPart x1 512 (by omega)) (bPart x2 512 (by omega))
    (wPart x1 1024 (by omega)) (bPart x2 1024 (by omega)) (fun j k => x3 (ix2 k j)) (fun j => x4 (ix1 j))
    (fun f k => x5 (ix2 k f)) (fun f => x6 (ix1 f)) (fun j f => x7 (ix2 f j)) (fun j => x8 (ix1 j))
    (fun j => x9 (ix1 j)) (fun j => x10 (ix1 j)) (fun j => x11 (ix1 j)) (fun j => x12 (ix1 j))

open Cert.KernelIdeal.HeadsValue Cert.KernelIdeal.TailValue

/-- The row of mixed heads the second half receives is the specification's mixing of the value heads by the
    weights: heads 0 to 3 arrive mixed, head 4 is mixed from its row of weights, heads 5 to 7 from the table. -/
theorem mixedRow_eq (x0 : FVec Ideal S512x512 .f32) (x1 : FVec Ideal S512x1536 .bf16) (x2 : FVec Ideal S1536 .f32) (x9 x10 : FVec Ideal S512 .f32) (p : Fin 512) :
    mixedRow (valV (F := Ideal) x0 x1 x2 x9 x10) (valW (F := Ideal) x0 x1 x2 x9 x10) (valO0 (F := Ideal) x0 x1 x2 x9 x10) (valO1 (F := Ideal) x0 x1 x2 x9 x10)
        (valO2 (F := Ideal) x0 x1 x2 x9 x10) (valO3 (F := Ideal) x0 x1 x2 x9 x10) (valW4 (F := Ideal) x0 x1 x2 x9 x10) p
      = mix (wRow x0 x1 x2 x9 x10 p) (vRow x0 x1 x2 x9 x10 p) := by
  funext k
  unfold mixedRow mix
  split_ifs with h0 h1 h2 h3 h4
  · have e : headOf k = (0 : Fin 8) := Fin.ext h0
    rw [valO0_apply, e]
  · have e : headOf k = (1 : Fin 8) := Fin.ext h1
    rw [valO1_apply, e]
  · have e : headOf k = (2 : Fin 8) := Fin.ext h2
    rw [valO2_apply, e]
  · have e : headOf k = (3 : Fin 8) := Fin.ext h3
    rw [valO3_apply, e]
  · have e : headOf k = (4 : Fin 8) := Fin.ext h4
    rw [e]
    exact Finset.sum_congr rfl fun b _ => by rw [valW4_apply, valV_apply]
  · exact Finset.sum_congr rfl fun b _ => by rw [valW_apply, valV_apply]

/-- The stored block at (p, j). -/
theorem bodyVal_apply (x0 : FVec Ideal S512x512 .f32) (x1 : FVec Ideal S512x1536 .bf16) (x2 : FVec Ideal S1536 .f32) (x3 : FVec Ideal S512x512 .bf16) (x4 : FVec Ideal S512 .f32) (x5 : FVec Ideal S512x2048 .bf16) (x6 : FVec Ideal S2048 .f32) (x7 : FVec Ideal S2048x512 .bf16) (x8 : FVec Ideal S512 .f32) (x9 : FVec Ideal S512 .f32) (x10 : FVec Ideal S512 .f32) (x11 : FVec Ideal S512 .f32) (x12 : FVec Ideal S512 .f32) (p j : Fin 512) :
    bodyVal (F := Ideal) x0 x1 x2 x3 x4 x5 x6 x7 x8 x9 x10 x11 x12 (ix2 p j) = blockRow x0 x1 x2 x3 x4 x5 x6 x7 x8 x9 x10 x11 x12 p j := by
  unfold bodyVal
  rw [valTail_apply, mixedRow_eq]
  rfl

end Cert.KernelIdeal.BlockValue

end
-- ==== Proof.Layer.lean ====
/-
  The whole layer as one function of the seventeen argument arrays: entry (n, j) of the result is entry j of
  the specification's row function applied to row n of x and the weight, bias, gain and shift arrays, the
  8 × 8 weights spelt by the parameter W.
-/
import proofs.«107231_j40132174414149_2_alg».proof.Proof.Spec

noncomputable section

namespace Cert.Layer

open Idealize.ShloMosaic Idealize.ShloMosaic.ValueIdx Cert.Spec

/-- Row n of the layer's result. -/
def layerRow (W : (Fin 512 → EReal) → (Fin 512 → EReal) → Fin 8 → Fin 8 → EReal)
    (A0 : (⟨2, ![65536, 512]⟩ : Shape).Idx → EReal) (A1 : (⟨2, ![512, 512]⟩ : Shape).Idx → EReal) (A2 : (⟨1, ![512]⟩ : Shape).Idx → EReal)
    (A3 : (⟨2, ![512, 512]⟩ : Shape).Idx → EReal) (A4 : (⟨1, ![512]⟩ : Shape).Idx → EReal)
    (A5 : (⟨2, ![512, 512]⟩ : Shape).Idx → EReal) (A6 : (⟨1, ![512]⟩ : Shape).Idx → EReal)
    (A7 : (⟨2, ![512, 512]⟩ : Shape).Idx → EReal) (A8 : (⟨1, ![512]⟩ : Shape).Idx → EReal)
    (A9 : (⟨2, ![2048, 512]⟩ : Shape).Idx → EReal) (A10 : (⟨1, ![2048]⟩ : Shape).Idx → EReal)
    (A11 : (⟨2, ![512, 2048]⟩ : Shape).Idx → EReal) (A12 A13 A14 A15 A16 : (⟨1, ![512]⟩ : Shape).Idx → EReal)
    (n : Fin 65536) : Fin 512 → EReal :=
  row W (fun k => A0 (ix2 n k)) (fun j k => A1 (ix2 j k)) (fun j => A2 (ix1 j)) (fun j k => A3 (ix2 j k)) (fun j => A4 (ix1 j))
    (fun j k => A5 (ix2 j k)) (fun j => A6 (ix1 j)) (fun j k => A7 (ix2 j k)) (fun j => A8 (ix1 j))
    (fun f k => A9 (ix2 f k)) (fun f => A10 (ix1 f)) (fun j f => A11 (ix2 j f)) (fun j => A12 (ix1 j))
    (fun j => A13 (ix1 j)) (fun j => A14 (ix1 j)) (fun j => A15 (ix1 j)) (fun j => A16 (ix1 j))

/-- The layer's result array. -/
def layer (W : (Fin 512 → EReal) → (Fin 512 → EReal) → Fin 8 → Fin 8 → EReal)
    (A0 : (⟨2, ![65536, 512]⟩ : Shape).Idx → EReal) (A1 : (⟨2, ![512, 512]⟩ : Shape).Idx → EReal) (A2 : (⟨1, ![512]⟩ : Shape).Idx → EReal)
    (A3 : (⟨2, ![512, 512]⟩ : Shape).Idx → EReal) (A4 : (⟨1, ![512]⟩ : Shape).Idx → EReal)
    (A5 : (⟨2, ![512, 512]⟩ : Shape).Idx → EReal) (A6 : (⟨1, ![512]⟩ : Shape).Idx → EReal)
    (A7 : (⟨2, ![512, 512]⟩ : Shape).Idx → EReal) (A8 : (⟨1, ![512]⟩ : Shape).Idx → EReal)
    (A9 : (⟨2, ![2048, 512]⟩ : Shape).Idx → EReal) (A10 : (⟨1, ![2048]⟩ : Shape).Idx → EReal)
    (A11 : (⟨2, ![512, 2048]⟩ : Shape).Idx → EReal) (A12 A13 A14 A15 A16 : (⟨1, ![512]⟩ : Shape).Idx → EReal) :
    (⟨2, ![65536, 512]⟩ : Shape).Idx → EReal :=
  fun i => layerRow W A0 A1 A2 A3 A4 A5 A6 A7 A8 A9 A10 A11 A12 A13 A14 A15 A16 ⟨(i 0).val, (i 0).isLt⟩ ⟨(i 1).val, (i 1).isLt⟩

theorem layer_apply (W : (Fin 512 → EReal) → (Fin 512 → EReal) → Fin 8 → Fin 8 → EReal)
    (A0 : (⟨2, ![65536, 512]⟩ : Shape).Idx → EReal) (A1 : (⟨2, ![512, 512]⟩ : Shape).Idx → EReal) (A2 : (⟨1, ![512]⟩ : Shape).Idx → EReal)
    (A3 : (⟨2, ![512, 512]⟩ : Shape).Idx → EReal) (A4 : (⟨1, ![512]⟩ : Shape).Idx → EReal)
    (A5 : (⟨2, ![512, 512]⟩ : Shape).Idx → EReal) (A6 : (⟨1, ![512]⟩ : Shape).Idx → EReal)
    (A7 : (⟨2, ![512, 512]⟩ : Shape).Idx → EReal) (A8 : (⟨1, ![512]⟩ : Shape).Idx → EReal)
    (A9 : (⟨2, ![2048, 512]⟩ : Shape).Idx → EReal) (A10 : (⟨1, ![2048]⟩ : Shape).Idx → EReal)
    (A11 : (⟨2, ![512, 2048]⟩ : Shape).Idx → EReal) (A12 A13 A14 A15 A16 : (⟨1, ![512]⟩ : Shape).Idx → EReal)
    (n : Fin 65536) (j : Fin 512) :
    layer W A0 A1 A2 A3 A4 A5 A6 A7 A8 A9 A10 A11 A12 A13 A14 A15 A16 (ix2 n j)
      = layerRow W A0 A1 A2 A3 A4 A5 A6 A7 A8 A9 A10 A11 A12 A13 A14 A15 A16 n j := rfl

end Cert.Layer

end
-- ==== Proof.KernelArray.lean ====
/-
  From blocks to the array: the result array after the run is the layer's function of the argument arrays.

  Point t of the grid writes back the block of rows 512·t … 512·t + 511. Its input block 0 is those rows of x;
  the other twelve input blocks are whole arrays — the four host-made ones read back to the arguments they were
  made from — so row p of the stored block is row 512·t + p of the layer. The 128 blocks cover the 65536 rows.
-/
import proofs.«107231_j40132174414149_2_alg».proof.Proof.FrameI
import proofs.«107231_j40132174414149_2_alg».proof.Proof.HostArraysI
import proofs.«107231_j40132174414149_2_alg».proof.Proof.KernelBlock
import proofs.«107231_j40132174414149_2_alg».proof.Proof.Layer
import Idealize.ShloMosaic.Lib.Pipeline.Value

set_option maxRecDepth 16384

noncomputable section

namespace Cert.KernelIdeal.ArrayValue

open Cert.KernelIdeal Cert.KernelIdeal.Gen Cert.KernelIdeal.Hand Cert.KernelIdeal.HostValue Cert.KernelIdeal.BlockValue
open Cert.Rows Cert.Layer Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the grid -/

/-- Windows 0 and 13 move down one block of rows per point. -/
theorem idx_rows : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)
/-- Window 1 stays at block 0. -/
theorem idx1 : ∀ t : Fin cfg0.N, win0_1.index t (0 : Fin 2) = 0 ∧ win0_1.index t (1 : Fin 2) = 0 :=
  (by decide +kernel : ∀ t : Fin grid0.N, _)
/-- Window 2 stays at block 0. -/
theorem idx2 : ∀ t : Fin cfg0.N, win0_2.index t (0 : Fin 1) = 0 :=
  (by decide +kernel : ∀ t : Fin grid0.N, _)
/-- Window 3 stays at block 0. -/
theorem idx3 : ∀ t : Fin cfg0.N, win0_3.index t (0 : Fin 2) = 0 ∧ win0_3.index t (1 : Fin 2) = 0 :=
  (by decide +kernel : ∀ t : Fin grid0.N, _)
/-- Window 4 stays at block 0. -/
theorem idx4 : ∀ t : Fin cfg0.N, win0_4.index t (0 : Fin 1) = 0 :=
  (by decide +kernel : ∀ t : Fin grid0.N, _)
/-- Window 5 stays at block 0. -/
theorem idx5 : ∀ t : Fin cfg0.N, win0_5.index t (0 : Fin 2) = 0 ∧ win0_5.index t (1 : Fin 2) = 0 :=
  (by decide +kernel : ∀ t : Fin grid0.N, _)
/-- Window 6 stays at block 0. -/
theorem idx6 : ∀ t : Fin cfg0.N, win0_6.index t (0 : Fin 1) = 0 :=
  (by decide +kernel : ∀ t : Fin grid0.N, _)
/-- Window 7 stays at block 0. -/
theorem idx7 : ∀ t : Fin cfg0.N, win0_7.index t (0 : Fin 2) = 0 ∧ win0_7.index t (1 : Fin 2) = 0 :=
  (by decide +kernel : ∀ t : Fin grid0.N, _)
/-- Window 8 stays at block 0. -/
theorem idx8 : ∀ t : Fin cfg0.N, win0_8.index t (0 : Fin 1) = 0 :=
  (by decide +kernel : ∀ t : Fin grid0.N, _)
/-- Window 9 stays at block 0. -/
theorem idx9 : ∀ t : Fin cfg0.N, win0_9.index t (0 : Fin 1) = 0 :=
  (by decide +kernel : ∀ t : Fin grid0.N, _)
/-- Window 10 stays at block 0. -/
theorem idx10 : ∀ t : Fin cfg0.N, win0_10.index t (0 : Fin 1) = 0 :=
  (by decide +kernel : ∀ t : Fin grid0.N, _)
/-- Window 11 stays at block 0. -/
theorem idx11 : ∀ t : Fin cfg0.N, win0_11.index t (0 : Fin 1) = 0 :=
  (by decide +kernel : ∀ t : Fin grid0.N, _)
/-- Window 12 stays at block 0. -/
theorem idx12 : ∀ t : Fin cfg0.N, win0_12.index t (0 : Fin 1) = 0 :=
  (by decide +kernel : ∀ t : Fin grid0.N, _)

/-! ## The input blocks, read -/

/-- Block 0 at point t is rows 512·t … of x. -/
theorem iblk0_apply (c : Dev nD) (t : Fin cfg0.N) (p k : Fin 512) (h : 512 * t.val + p.val < 65536) :
    (iblk m c 0 t : Vec Ideal S512x512 .f32) (ix2 p k)
      = (m ((c : Thread nD τ).loc main_arg0) : S65536x512.Idx → EReal) (ix2 (⟨512 * t.val + p.val, h⟩ : Fin 65536) k) := by
  obtain ⟨e0, e1, -, -⟩ := idx_rows t
  unfold iblk
  rw [View.read_apply]
  show V m c main_arg0 _ = _
  rw [V_main_arg0]
  congr 1
  funext a
  apply Fin.ext
  match a with
  | ⟨0, _⟩ => show win0_0.index t 0 * 512 + 1 * p.val = 512 * t.val + p.val; rw [e0]; omega
  | ⟨1, _⟩ => show win0_0.index t 1 * 512 + 1 * k.val = k.val; rw [e1]; omega
/-- Block 1 at any point is the whole array. -/
theorem iblk1_apply (c : Dev nD) (t : Fin cfg0.N) (y : S512x1536.Idx) :
    (iblk m c 1 t : Vec Ideal S512x1536 .bf16) y = (V m c main_v4 : S512x1536.Idx → EReal) y := by
  obtain ⟨e0, e1⟩ := idx1 t
  unfold iblk
  rw [View.read_apply]
  show V m c main_v4 _ = V m c main_v4 y
  congr 1
  funext a
  apply Fin.ext
  match a with
  | ⟨0, _⟩ => show win0_1.index t 0 * 512 + 1 * (y 0).val = (y 0).val; rw [e0]; omega
  | ⟨1, _⟩ => show win0_1.index t 1 * 1536 + 1 * (y 1).val = (y 1).val; rw [e1]; omega
/-- Block 2 at any point is the whole array. -/
theorem iblk2_apply (c : Dev nD) (t : Fin cfg0.N) (y : S1536.Idx) :
    (iblk m c 2 t : Vec Ideal S1536 .f32) y = (V m c main_v5 : S1536.Idx → EReal) y := by
  obtain e0 := idx2 t
  unfold iblk
  rw [View.read_apply]
  show V m c main_v5 _ = V m c main_v5 y
  congr 1
  funext a
  apply Fin.ext
  match a with
  | ⟨0, _⟩ => show win0_2.index t 0 * 1536 + 1 * (y 0).val = (y 0).val; rw [e0]; omega
/-- Block 3 at any point is the whole array. -/
theorem iblk3_apply (c : Dev nD) (t : Fin cfg0.N) (y : S512x512.Idx) :
    (iblk m c 3 t : Vec Ideal S512x512 .bf16) y = (V m c main_v7 : S512x512.Idx → EReal) y := by
  obtain ⟨e0, e1⟩ := idx3 t
  unfold iblk
  rw [View.read_apply]
  show V m c main_v7 _ = V m c main_v7 y
  congr 1
  funext a
  apply Fin.ext
  match a with
  | ⟨0, _⟩ => show win0_3.index t 0 * 512 + 1 * (y 0).val = (y 0).val; rw [e0]; omega
  | ⟨1, _⟩ => show win0_3.index t 1 * 512 + 1 * (y 1).val = (y 1).val; rw [e1]; omega
/-- Block 4 at any point is the whole array. -/
theorem iblk4_apply (c : Dev nD) (t : Fin cfg0.N) (y : S512.Idx) :
    (iblk m c 4 t : Vec Ideal S512 .f32) y = (V m c main_arg8 : S512.Idx → EReal) y := by
  obtain e0 := idx4 t
  unfold iblk
  rw [View.read_apply]
  show V m c main_arg8 _ = V m c main_arg8 y
  congr 1
  funext a
  apply Fin.ext
  match a with
  | ⟨0, _⟩ => show win0_4.index t 0 * 512 + 1 * (y 0).val = (y 0).val; rw [e0]; omega
/-- Block 5 at any point is the whole array. -/
theorem iblk5_apply (c : Dev nD) (t : Fin cfg0.N) (y : S512x2048.Idx) :
    (iblk m c 5 t : Vec Ideal S512x2048 .bf16) y = (V m c main_v9 : S512x2048.Idx → EReal) y := by
  obtain ⟨e0, e1⟩ := idx5 t
  unfold iblk
  rw [View.read_apply]
  show V m c main_v9 _ = V m c main_v9 y
  congr 1
  funext a
  apply Fin.ext
  match a with
  | ⟨0, _⟩ => show win0_5.index t 0 * 512 + 1 * (y 0).val = (y 0).val; rw [e0]; omega
  | ⟨1, _⟩ => show win0_5.index t 1 * 2048 + 1 * (y 1).val = (y 1).val; rw [e1]; omega
/-- Block 6 at any point is the whole array. -/
theorem iblk6_apply (c : Dev nD) (t : Fin cfg0.N) (y : S2048.Idx) :
    (iblk m c 6 t : Vec Ideal S2048 .f32) y = (V m c main_arg10 : S2048.Idx → EReal) y := by
  obtain e0 := idx6 t
  unfold iblk
  rw [View.read_apply]
  show V m c main_arg10 _ = V m c main_arg10 y
  congr 1
  funext a
  apply Fin.ext
  match a with
  | ⟨0, _⟩ => show win0_6.index t 0 * 2048 + 1 * (y 0).val = (y 0).val; rw [e0]; omega
/-- Block 7 at any point is the whole array. -/
theorem iblk7_apply (c : Dev nD) (t : Fin cfg0.N) (y : S2048x512.Idx) :
    (iblk m c 7 t : Vec Ideal S2048x512 .bf16) y = (V m c main_v11 : S2048x512.Idx → EReal) y := by
  obtain ⟨e0, e1⟩ := idx7 t
  unfold iblk
  rw [View.read_apply]
  show V m c main_v11 _ = V m c main_v11 y
  congr 1
  funext a
  apply Fin.ext
  match a with
  | ⟨0, _⟩ => show win0_7.index t 0 * 2048 + 1 * (y 0).val = (y 0).val; rw [e0]; omega
  | ⟨1, _⟩ => show win0_7.index t 1 * 512 + 1 * (y 1).val = (y 1).val; rw [e1]; omega
/-- Block 8 at any point is the whole array. -/
theorem iblk8_apply (c : Dev nD) (t : Fin cfg0.N) (y : S512.Idx) :
    (iblk m c 8 t : Vec Ideal S512 .f32) y = (V m c main_arg12 : S512.Idx → EReal) y := by
  obtain e0 := idx8 t
  unfold iblk
  rw [View.read_apply]
  show V m c main_arg12 _ = V m c main_arg12 y
  congr 1
  funext a
  apply Fin.ext
  match a with
  | ⟨0, _⟩ => show win0_8.index t 0 * 512 + 1 * (y 0).val = (y 0).val; rw [e0]; omega
/-- Block 9 at any point is the whole array. -/
theorem iblk9_apply (c : Dev nD) (t : Fin cfg0.N) (y : S512.Idx) :
    (iblk m c 9 t : Vec Ideal S512 .f32) y = (V m c main_arg13 : S512.Idx → EReal) y := by
  obtain e0 := idx9 t
  unfold iblk
  rw [View.read_apply]
  show V m c main_arg13 _ = V m c main_arg13 y
  congr 1
  funext a
  apply Fin.ext
  match a with
  | ⟨0, _⟩ => show win0_9.index t 0 * 512 + 1 * (y 0).val = (y 0).val; rw [e0]; omega
/-- Block 10 at any point is the whole array. -/
theorem iblk10_apply (c : Dev nD) (t : Fin cfg0.N) (y : S512.Idx) :
    (iblk m c 10 t : Vec Ideal S512 .f32) y = (V m c main_arg14 : S512.Idx → EReal) y := by
  obtain e0 := idx10 t
  unfold iblk
  rw [View.read_apply]
  show V m c main_arg14 _ = V m c main_arg14 y
  congr 1
  funext a
  apply Fin.ext
  match a with
  | ⟨0, _⟩ => show win0_10.index t 0 * 512 + 1 * (y 0).val = (y 0).val; rw [e0]; omega
/-- Block 11 at any point is the whole array. -/
theorem iblk11_apply (c : Dev nD) (t : Fin cfg0.N) (y : S512.Idx) :
    (iblk m c 11 t : Vec Ideal S512 .f32) y = (V m c main_arg15 : S512.Idx → EReal) y := by
  obtain e0 := idx11 t
  unfold iblk
  rw [View.read_apply]
  show V m c main_arg15 _ = V m c main_arg15 y
  congr 1
  funext a
  apply Fin.ext
  match a with
  | ⟨0, _⟩ => show win0_11.index t 0 * 512 + 1 * (y 0).val = (y 0).val; rw [e0]; omega
/-- Block 12 at any point is the whole array. -/
theorem iblk12_apply (c : Dev nD) (t : Fin cfg0.N) (y : S512.Idx) :
    (iblk m c 12 t : Vec Ideal S512 .f32) y = (V m c main_arg16 : S512.Idx → EReal) y := by
  obtain e0 := idx12 t
  unfold iblk
  rw [View.read_apply]
  show V m c main_arg16 _ = V m c main_arg16 y
  congr 1
  funext a
  apply Fin.ext
  match a with
  | ⟨0, _⟩ => show win0_12.index t 0 * 512 + 1 * (y 0).val = (y 0).val; rw [e0]; omega

/-- The row function at equal arguments. -/
theorem row_congr (W : (Fin 512 → EReal) → (Fin 512 → EReal) → Fin 8 → Fin 8 → EReal)
    {x x' : Fin 512 → EReal} {Wq Wq' : Fin 512 → Fin 512 → EReal} {bq bq' : Fin 512 → EReal} {Wk Wk' : Fin 512 → Fin 512 → EReal} {bk bk' : Fin 512 → EReal} {Wv Wv' : Fin 512 → Fin 512 → EReal} {bv bv' : Fin 512 → EReal} {Wo Wo' : Fin 512 → Fin 512 → EReal} {bo bo' : Fin 512 → EReal} {W1 W1' : Fin 2048 → Fin 512 → EReal} {b1 b1' : Fin 2048 → EReal} {W2 W2' : Fin 512 → Fin 2048 → EReal} {b2 b2' : Fin 512 → EReal} {g1 g1' : Fin 512 → EReal} {beta1 beta1' : Fin 512 → EReal} {g2 g2' : Fin 512 → EReal} {beta2 beta2' : Fin 512 → EReal}
    (h0 : x = x') (h1 : Wq = Wq') (h2 : bq = bq') (h3 : Wk = Wk') (h4 : bk = bk') (h5 : Wv = Wv') (h6 : bv = bv') (h7 : Wo = Wo') (h8 : bo = bo') (h9 : W1 = W1') (h10 : b1 = b1') (h11 : W2 = W2') (h12 : b2 = b2') (h13 : g1 = g1') (h14 : beta1 = beta1') (h15 : g2 = g2') (h16 : beta2 = beta2') :
    row W x Wq bq Wk bk Wv bv Wo bo W1 b1 W2 b2 g1 beta1 g2 beta2 = row W x' Wq' bq' Wk' bk' Wv' bv' Wo' bo' W1' b1' W2' b2' g1' beta1' g2' beta2' := by
  subst h0 h1 h2 h3 h4 h5 h6 h7 h8 h9 h10 h11 h12 h13 h14 h15 h16
  rfl

/-- Row p of the block stored at point t is row 512·t + p of the layer. -/
theorem blockRow_eq (c : Dev nD) (t : Fin cfg0.N) (p : Fin 512) (h : 512 * t.val + p.val < 65536) :
    blockRow (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) p
      = layerRow weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal) (⟨512 * t.val + p.val, h⟩ : Fin 65536) := by
  unfold blockRow layerRow
  refine row_congr weightsMul ?_ ?_ ?_ ?_ ?_ ?_ ?_ ?_ ?_ ?_ ?_ ?_ ?_ ?_ ?_ ?_ ?_
  · exact funext fun k => iblk0_apply m c t p k h
  · exact funext fun j => funext fun k => by
      unfold wPart; rw [iblk1_apply]
      have e : (⟨0 + j.val, by omega⟩ : Fin 1536) = ⟨j.val, by omega⟩ := Fin.ext (Nat.zero_add _)
      rw [e]; exact (joinedW m c k j).1
  · exact funext fun j => by
      unfold bPart; rw [iblk2_apply]
      have e : (⟨0 + j.val, by omega⟩ : Fin 1536) = ⟨j.val, by omega⟩ := Fin.ext (Nat.zero_add _)
      rw [e]; exact (joinedB m c j).1
  · exact funext fun j => funext fun k => by unfold wPart; rw [iblk1_apply]; exact (joinedW m c k j).2.1
  · exact funext fun j => by unfold bPart; rw [iblk2_apply]; exact (joinedB m c j).2.1
  · exact funext fun j => funext fun k => by unfold wPart; rw [iblk1_apply]; exact (joinedW m c k j).2.2
  · exact funext fun j => by unfold bPart; rw [iblk2_apply]; exact (joinedB m c j).2.2
  · exact funext fun j => funext fun k => by rw [iblk3_apply]; exact transposedWo m c k j
  · exact funext fun j => by rw [iblk4_apply, V_main_arg8]
  · exact funext fun f => funext fun k => by rw [iblk5_apply]; exact transposedW1 m c k f
  · exact funext fun f => by rw [iblk6_apply, V_main_arg10]
  · exact funext fun j => funext fun f => by rw [iblk7_apply]; exact transposedW2 m c f j
  · exact funext fun j => by rw [iblk8_apply, V_main_arg12]
  · exact funext fun j => by rw [iblk9_apply, V_main_arg13]
  · exact funext fun j => by rw [iblk10_apply, V_main_arg14]
  · exact funext fun j => by rw [iblk11_apply, V_main_arg15]
  · exact funext fun j => by rw [iblk12_apply, V_main_arg16]

/-! ## What each point writes back, the cover, the final array -/

/-- Point t writes back block t of the layer's function of the arguments. -/
theorem flushed_eq (c : Dev nD) (t : Fin cfg0.N) :
    (dats m 0 c).flushed 13 t = ((cfg0.win 13).blk t).view.read (Elt Ideal)
      (layer weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal)) := by
  show (cfg0.win 13).cut (grid0.coords t) ((dats m 0 c).after 13 t) = _
  rw [after0_13]
  unfold out0_13
  rw [View.canon_unit_zero hz2]
  simp only [View.ld_unit_zero (S := S512x512) hz2, View.ld_unit_zero (S := S512x1536) hz2, View.ld_unit_zero (S := S1536) hz1,
    View.ld_unit_zero (S := S512) hz1, View.ld_unit_zero (S := S512x2048) hz2, View.ld_unit_zero (S := S2048) hz1,
    View.ld_unit_zero (S := S2048x512) hz2]
  obtain ⟨-, -, e0, e1⟩ := idx_rows t
  have hN : grid0.N = 128 := N_0
  have ht : t.val < 128 := hN ▸ t.isLt
  funext y
  obtain ⟨p, q, rfl⟩ : ∃ (p q : Fin 512), y = ix2 p q := ⟨y 0, y 1, eq_ix2 y⟩
  show bodyVal (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 p q)
      = layer weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal) (((cfg0.win 13).blk t).view.emb (ix2 p q))
  rw [bodyVal_apply, blockRow_eq m c t p (by omega)]
  show layerRow weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal) _ q = layerRow weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal) _ _
  congr 1 <;> apply Fin.ext
  · show 512 * t.val + p.val = win0_13.index t 0 * 512 + 1 * p.val
    rw [e0]; omega
  · show q.val = win0_13.index t 1 * 512 + 1 * q.val
    rw [e1]; omega

/-- An index of the result array is in point t's block iff each coordinate is in the block's range. -/
theorem mem_blk (t : Fin cfg0.N) (i : S65536x512.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v12).slice (win0_13.rect t)).set ↔ _
  rw [View.set_slice_whole, Rect.mem_set_unit]
  exact Iff.rfl

/-- Every index of the result array is in the block of the point its row falls in. -/
theorem cover (i : S65536x512.Idx) : ∃ t : Fin cfg0.N, (cfg0.win 13).flush t = true ∧ i ∈ ((cfg0.win 13).blk t).view.set := by
  have hN : grid0.N = 128 := N_0
  have hi0 : (i 0).val < 65536 := (i 0).isLt
  have hi1 : (i 1).val < 512 := (i 1).isLt
  have hlt : (i 0).val / 512 < grid0.N := by rw [hN]; omega
  refine ⟨⟨(i 0).val / 512, hlt⟩, flush0_13 _, ?_⟩
  rw [mem_blk]
  obtain ⟨-, -, e0, e1⟩ := idx_rows ⟨(i 0).val / 512, hlt⟩
  intro a
  match a with
  | ⟨0, _⟩ =>
    show win0_13.index ⟨(i 0).val / 512, hlt⟩ 0 * 512 ≤ (i 0).val ∧ (i 0).val < win0_13.index ⟨(i 0).val / 512, hlt⟩ 0 * 512 + 512
    rw [e0]; show (i 0).val / 512 * 512 ≤ (i 0).val ∧ (i 0).val < (i 0).val / 512 * 512 + 512; omega
  | ⟨1, _⟩ =>
    show win0_13.index ⟨(i 0).val / 512, hlt⟩ 1 * 512 ≤ (i 1).val ∧ (i 1).val < win0_13.index ⟨(i 0).val / 512, hlt⟩ 1 * 512 + 512
    rw [e1]; omega

/-- The result array after the run is the layer's function of the argument arrays. -/
theorem final (c : Dev nD) : (dats m 0 c).arrAt 13 cfg0.N = layer weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal) :=
  (dats m 0 c).arrAt_eq_of_cover 13 _ (fun t _ => flushed_eq m c t) cover

/-- The run, read: the result array at the layer's function of the arguments, the arguments unchanged. -/
theorem run : θ_run defs (onTc (τ := τ) (main (F := Ideal))) ⟨m, fun _ => 0, ρ⟩ (fun r => ∀ c : Dev nD,
      r.2.mem ((c.tc : Thread nD τ).loc main_v12) = layer weightsMul (m ((c : Thread nD τ).loc main_arg0) : S65536x512.Idx → EReal) (m ((c : Thread nD τ).loc main_arg1) : S512x512.Idx → EReal) (m ((c : Thread nD τ).loc main_arg2) : S512.Idx → EReal) (m ((c : Thread nD τ).loc main_arg3) : S512x512.Idx → EReal) (m ((c : Thread nD τ).loc main_arg4) : S512.Idx → EReal) (m ((c : Thread nD τ).loc main_arg5) : S512x512.Idx → EReal) (m ((c : Thread nD τ).loc main_arg6) : S512.Idx → EReal) (m ((c : Thread nD τ).loc main_arg7) : S512x512.Idx → EReal) (m ((c : Thread nD τ).loc main_arg8) : S512.Idx → EReal) (m ((c : Thread nD τ).loc main_arg9) : S2048x512.Idx → EReal) (m ((c : Thread nD τ).loc main_arg10) : S2048.Idx → EReal) (m ((c : Thread nD τ).loc main_arg11) : S512x2048.Idx → EReal) (m ((c : Thread nD τ).loc main_arg12) : S512.Idx → EReal) (m ((c : Thread nD τ).loc main_arg13) : S512.Idx → EReal) (m ((c : Thread nD τ).loc main_arg14) : S512.Idx → EReal) (m ((c : Thread nD τ).loc main_arg15) : S512.Idx → EReal) (m ((c : Thread nD τ).loc main_arg16) : S512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1 13).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats m 0 c).arrAt_in 4 rfl _).trans ((A_eq m c 4).trans (V_main_arg8 m c))),
      ((h c).2 main_arg9 (Pipeline.mem_restRefs_of main_arg9 (by decide) (by decide))).trans (V_main_arg9 m c),
      ((h c).1 6).trans (((dats m 0 c).arrAt_in 6 rfl _).trans ((A_eq m c 6).trans (V_main_arg10 m c))),
      ((h c).2 main_arg11 (Pipeline.mem_restRefs_of main_arg11 (by decide) (by decide))).trans (V_main_arg11 m c),
      ((h c).1 8).trans (((dats m 0 c).arrAt_in 8 rfl _).trans ((A_eq m c 8).trans (V_main_arg12 m c))),
      ((h c).1 9).trans (((dats m 0 c).arrAt_in 9 rfl _).trans ((A_eq m c 9).trans (V_main_arg13 m c))),
      ((h c).1 10).trans (((dats m 0 c).arrAt_in 10 rfl _).trans ((A_eq m c 10).trans (V_main_arg14 m c))),
      ((h c).1 11).trans (((dats m 0 c).arrAt_in 11 rfl _).trans ((A_eq m c 11).trans (V_main_arg15 m c))),
      ((h c).1 12).trans (((dats m 0 c).arrAt_in 12 rfl _).trans ((A_eq m c 12).trans (V_main_arg16 m c)))⟩) (run_main m ρ)

end Cert.KernelIdeal.ArrayValue

end
-- ==== Proof.RefAttn.lean ====
/-
  The attention half of the reference program, read at one entry.

  The program works on an array x of 65536 rows of 512 entries; every operation up to the first residual
  treats the rows independently. Read at entry (n, j), stage by stage:
    · the two sums over a row, divided by the word of 512, are the row's mean and the mean of the squares of the
      centred row; the centred row times the reciprocal root of (variance + ε), times the gain, plus the shift, is
      the layer normalisation h of row n;
    · each projection is a contraction of h against a transposed weight matrix plus a broadcast bias:
      entry j is Σ_k h k · W j k + b j;
    · the reshape of a row of 512 into 8 heads of 64 reads entry (a, d) at column 64·a + d;
    · the first batched contraction is the score of head a against head b, divided by the word of 8;
    · the maximum over b is a fold of max from the word of −∞, taken once more against −∞ and subtracted; the
      exponentials are divided by their sum: the 8 × 8 weights of row n;
    · the second batched contraction mixes the heads of v by the weights, and the reshape back to 512 reads entry j
      in head j / 64 at place j % 64;
    · the last projection and the residual close the row.
  Nothing is rearranged: apart from 0 + s = s for the sums' initial value, every step is a change of index.
-/
import proofs.«107231_j40132174414149_2_alg».proof.Proof.Gen.ReferenceIdeal.Read
import proofs.«107231_j40132174414149_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The arrays as rows, matrices and vectors -/

/-- Row n of an array of 65536 rows of 512. -/
abbrev rowOf (x : (⟨S65536x512, .f32⟩ : BufTy).Contents (Elt Ideal)) (n : Fin 65536) : Fin 512 → EReal := fun k => x (ix2 n k)
/-- A 512 × 512 array by its two coordinates. -/
abbrev matOf (w : (⟨S512x512, .f32⟩ : BufTy).Contents (Elt Ideal)) : Fin 512 → Fin 512 → EReal := fun j k => w (ix2 j k)
/-- A vector of 512 by its coordinate. -/
abbrev vecOf (b : (⟨S512, .f32⟩ : BufTy).Contents (Elt Ideal)) : Fin 512 → EReal := fun j => b (ix1 j)

/-! ## The program's index maps at coordinates

Each layout operation and each contraction reads its operand at an index computed from the result's; at an index
given by its coordinates these are again indices given by coordinates. All but the two reshapes hold coordinate by
coordinate by unfolding; a reshape is the row-major position, divided out. -/

theorem idx_v0_v1 (n : Fin 65536) (k : Fin 512) : idx_main_v0 (idx_main_v1 (ix2 n (0 : Fin 1))) k = ix2 n k := by
  funext c; match c with
  | ⟨0, _⟩ => rfl
  | ⟨1, _⟩ => rfl
theorem idx_v7_v8 (n : Fin 65536) (k : Fin 512) : idx_main_v7 (idx_main_v8 (ix2 n (0 : Fin 1))) k = ix2 n k := by
  funext c; match c with
  | ⟨0, _⟩ => rfl
  | ⟨1, _⟩ => rfl
theorem idx_v4 (n : Fin 65536) (j : Fin 512) : idx_main_v4 (ix2 n j) = ix2 n (0 : Fin 1) := by
  funext c; match c with
  | ⟨0, _⟩ => rfl
  | ⟨1, _⟩ => rfl
theorem idx_v11 (n : Fin 65536) (j : Fin 512) : idx_main_v11 (ix2 n j) = ix2 n (0 : Fin 1) := by
  funext c; match c with
  | ⟨0, _⟩ => rfl
  | ⟨1, _⟩ => rfl
theorem idx_v16 (n : Fin 65536) (j : Fin 512) : idx_main_v16 (ix2 n j) = ix2 n (0 : Fin 1) := by
  funext c; match c with
  | ⟨0, _⟩ => rfl
  | ⟨1, _⟩ => rfl
theorem idx_v18_v19 (n : Fin 65536) (j : Fin 512) : idx_main_v18 (idx_main_v19 (ix2 n j)) = ix1 j := by
  funext c; match c with
  | ⟨0, _⟩ => rfl
theorem idx_v21_v22 (n : Fin 65536) (j : Fin 512) : idx_main_v21 (idx_main_v22 (ix2 n j)) = ix1 j := by
  funext c; match c with
  | ⟨0, _⟩ => rfl
theorem idx_v26_v27 (n : Fin 65536) (j : Fin 512) : idx_main_v26 (idx_main_v27 (ix2 n j)) = ix1 j := by
  funext c; match c with
  | ⟨0, _⟩ => rfl
theorem idx_v32_v33 (n : Fin 65536) (j : Fin 512) : idx_main_v32 (idx_main_v33 (ix2 n j)) = ix1 j := by
  funext c; match c with
  | ⟨0, _⟩ => rfl
theorem idx_v38_v39 (n : Fin 65536) (j : Fin 512) : idx_main_v38 (idx_main_v39 (ix2 n j)) = ix1 j := by
  funext c; match c with
  | ⟨0, _⟩ => rfl
theorem idx_v60_v61 (n : Fin 65536) (j : Fin 512) : idx_main_v60 (idx_main_v61 (ix2 n j)) = ix1 j := by
  funext c; match c with
  | ⟨0, _⟩ => rfl
theorem lidx_v25 (n : Fin 65536) (j k : Fin 512) : lidx_main_v25 (ix2 n j) k = ix2 n k := by
  funext c; match c with
  | ⟨0, _⟩ => rfl
  | ⟨1, _⟩ => rfl
theorem ridx_v25 (n : Fin 65536) (j k : Fin 512) : ridx_main_v25 (ix2 n j) k = ix2 k j := by
  funext c; match c with
  | ⟨0, _⟩ => rfl
  | ⟨1, _⟩ => rfl
theorem lidx_v31 (n : Fin 65536) (j k : Fin 512) : lidx_main_v31 (ix2 n j) k = ix2 n k := by
  funext c; match c with
  | ⟨0, _⟩ => rfl
  | ⟨1, _⟩ => rfl
theorem ridx_v31 (n : Fin 65536) (j k : Fin 512) : ridx_main_v31 (ix2 n j) k = ix2 k j := by
  funext c; match c with
  | ⟨0, _⟩ => rfl
  | ⟨1, _⟩ => rfl
theorem lidx_v37 (n : Fin 65536) (j k : Fin 512) : lidx_main_v37 (ix2 n j) k = ix2 n k := by
  funext c; match c with
  | ⟨0, _⟩ => rfl
  | ⟨1, _⟩ => rfl
theorem ridx_v37 (n : Fin 65536) (j k : Fin 512) : ridx_main_v37 (ix2 n j) k = ix2 k j := by
  funext c; match c with
  | ⟨0, _⟩ => rfl
  | ⟨1, _⟩ => rfl
theorem lidx_v59 (n : Fin 65536) (j k : Fin 512) : lidx_main_v59 (ix2 n j) k = ix2 n k := by
  funext c; match c with
  | ⟨0, _⟩ => rfl
  | ⟨1, _⟩ => rfl
theorem ridx_v59 (n : Fin 65536) (j k : Fin 512) : ridx_main_v59 (ix2 n j) k = ix2 k j := by
  funext c; match c with
  | ⟨0, _⟩ => rfl
  | ⟨1, _⟩ => rfl
theorem idx_v24 (k j : Fin 512) : idx_main_v24 (ix2 k j) = ix2 j k := by
  funext c; match c with
  | ⟨0, _⟩ => rfl
  | ⟨1, _⟩ => rfl
theorem idx_v30 (k j : Fin 512) : idx_main_v30 (ix2 k j) = ix2 j k := by
  funext c; match c with
  | ⟨0, _⟩ => rfl
  | ⟨1, _⟩ => rfl
theorem idx_v36 (k j : Fin 512) : idx_main_v36 (ix2 k j) = ix2 j k := by
  funext c; match c with
  | ⟨0, _⟩ => rfl
  | ⟨1, _⟩ => rfl
theorem idx_v58 (k j : Fin 512) : idx_main_v58 (ix2 k j) = ix2 j k := by
  funext c; match c with
  | ⟨0, _⟩ => rfl
  | ⟨1, _⟩ => rfl
/-- Entry (a, d) of the row cut into 8 heads of 64 is column 64·a + d. -/
theorem idx_v29 (n : Fin 65536) (a : Fin 8) (d : Fin 64) : idx_main_v29 (ix3 n a d) = ix2 n (Spec.headIdx a d) := by
  have ha := a.isLt; have hd := d.isLt
  funext c; match c with
  | ⟨0, _⟩ => exact Fin.ext (by show ((n.val * 8 + a.val) * 64 + d.val) / 512 = n.val; omega)
  | ⟨1, _⟩ => exact Fin.ext (by show ((n.val * 8 + a.val) * 64 + d.val) % 512 = 64 * a.val + d.val; omega)
/-- Entry (a, d) of the row cut into 8 heads of 64 is column 64·a + d. -/
theorem idx_v35 (n : Fin 65536) (a : Fin 8) (d : Fin 64) : idx_main_v35 (ix3 n a d) = ix2 n (Spec.headIdx a d) := by
  have ha := a.isLt; have hd := d.isLt
  funext c; match c with
  | ⟨0, _⟩ => exact Fin.ext (by show ((n.val * 8 + a.val) * 64 + d.val) / 512 = n.val; omega)
  | ⟨1, _⟩ => exact Fin.ext (by show ((n.val * 8 + a.val) * 64 + d.val) % 512 = 64 * a.val + d.val; omega)
/-- Entry (a, d) of the row cut into 8 heads of 64 is column 64·a + d. -/
theorem idx_v41 (n : Fin 65536) (a : Fin 8) (d : Fin 64) : idx_main_v41 (ix3 n a d) = ix2 n (Spec.headIdx a d) := by
  have ha := a.isLt; have hd := d.isLt
  funext c; match c with
  | ⟨0, _⟩ => exact Fin.ext (by show ((n.val * 8 + a.val) * 64 + d.val) / 512 = n.val; omega)
  | ⟨1, _⟩ => exact Fin.ext (by show ((n.val * 8 + a.val) * 64 + d.val) % 512 = 64 * a.val + d.val; omega)
theorem lidx_v42 (n : Fin 65536) (a b : Fin 8) (k : Fin 64) : lidx_main_v42 (ix3 n a b) k = ix3 n a k := by
  funext c; match c with
  | ⟨0, _⟩ => rfl
  | ⟨1, _⟩ => rfl
  | ⟨2, _⟩ => rfl
theorem ridx_v42 (n : Fin 65536) (a b : Fin 8) (k : Fin 64) : ridx_main_v42 (ix3 n a b) k = ix3 n b k := by
  funext c; match c with
  | ⟨0, _⟩ => rfl
  | ⟨1, _⟩ => rfl
  | ⟨2, _⟩ => rfl
theorem idx_v49 (n : Fin 65536) (a b : Fin 8) : idx_main_v49 (ix3 n a b) = ix3 n a (0 : Fin 1) := by
  funext c; match c with
  | ⟨0, _⟩ => rfl
  | ⟨1, _⟩ => rfl
  | ⟨2, _⟩ => rfl
theorem idx_v54 (n : Fin 65536) (a b : Fin 8) : idx_main_v54 (ix3 n a b) = ix3 n a (0 : Fin 1) := by
  funext c; match c with
  | ⟨0, _⟩ => rfl
  | ⟨1, _⟩ => rfl
  | ⟨2, _⟩ => rfl
theorem idx_v48 (n : Fin 65536) (a : Fin 8) : idx_main_v48 (ix3 n a (0 : Fin 1)) = ix2 n a := by
  funext c; match c with
  | ⟨0, _⟩ => rfl
  | ⟨1, _⟩ => rfl
theorem idx_v53 (n : Fin 65536) (a : Fin 8) : idx_main_v53 (ix3 n a (0 : Fin 1)) = ix2 n a := by
  funext c; match c with
  | ⟨0, _⟩ => rfl
  | ⟨1, _⟩ => rfl
theorem idx_v52 (n : Fin 65536) (a k : Fin 8) : idx_main_v52 (ix2 n a) k = ix3 n a k := by
  funext c; match c with
  | ⟨0, _⟩ => rfl
  | ⟨1, _⟩ => rfl
  | ⟨2, _⟩ => rfl
theorem lidx_v56 (n : Fin 65536) (a : Fin 8) (d : Fin 64) (k : Fin 8) : lidx_main_v56 (ix3 n a d) k = ix3 n a k := by
  funext c; match c with
  | ⟨0, _⟩ => rfl
  | ⟨1, _⟩ => rfl
  | ⟨2, _⟩ => rfl
theorem ridx_v56 (n : Fin 65536) (a : Fin 8) (d : Fin 64) (k : Fin 8) : ridx_main_v56 (ix3 n a d) k = ix3 n k d := by
  funext c; match c with
  | ⟨0, _⟩ => rfl
  | ⟨1, _⟩ => rfl
  | ⟨2, _⟩ => rfl
/-- Entry j of the row put back together lies in head j / 64 at place j % 64. -/
theorem idx_v57 (n : Fin 65536) (j : Fin 512) : idx_main_v57 (ix2 n j) = ix3 n (Spec.headOf j) (Spec.placeOf j) := by
  have hj := j.isLt
  funext c; match c with
  | ⟨0, _⟩ => exact Fin.ext (by show (n.val * 512 + j.val) / 512 = n.val; omega)
  | ⟨1, _⟩ => exact Fin.ext (by show (n.val * 512 + j.val) / 64 % 8 = j.val / 64; omega)
  | ⟨2, _⟩ => exact Fin.ext (by show (n.val * 512 + j.val) % 64 = j.val % 64; omega)

/-! ## The layer normalisation of row n -/

/-- The layer-normalised row n. -/
abbrev hRow (a0 : (⟨S65536x512, .f32⟩ : BufTy).Contents (Elt Ideal)) (a13 a14 : (⟨S512, .f32⟩ : BufTy).Contents (Elt Ideal)) (n : Fin 65536) : Fin 512 → EReal :=
  Spec.layerNorm (rowOf a0 n) (vecOf a13) (vecOf a14)

/-- The first sum over a row, divided by the word of 512: the row's mean (the sum starts from the zero word). -/
theorem mean_apply (a0 : (⟨S65536x512, .f32⟩ : BufTy).Contents (Elt Ideal)) (n : Fin 65536) :
    val_main_v3 (F := Ideal) a0 (ix2 n (0 : Fin 1)) = Spec.mean (rowOf a0 n) := by
  rw [val_main_v3_apply, val_main_v1_apply, val_main_v0_apply, val_main_v2_apply, val_main_cst_0_apply, val_main_cst_apply]
  simp only [idx_v0_v1, Ideal.ofBits_def, Ideal.hostDivf_def, Ideal.ofBits_zero_f32, zero_add]
  rfl

/-- The row less its mean (the program computes it twice: once for the variance, once for the result). -/
theorem centred_apply (a0 : (⟨S65536x512, .f32⟩ : BufTy).Contents (Elt Ideal)) (n : Fin 65536) (j : Fin 512) :
    val_main_v5 (F := Ideal) a0 (ix2 n j) = Spec.centred (rowOf a0 n) j := by
  rw [val_main_v5_apply, val_main_v4_apply, idx_v4, mean_apply]
  rfl
theorem centred_apply' (a0 : (⟨S65536x512, .f32⟩ : BufTy).Contents (Elt Ideal)) (n : Fin 65536) (j : Fin 512) :
    val_main_v12 (F := Ideal) a0 (ix2 n j) = Spec.centred (rowOf a0 n) j := by
  rw [val_main_v12_apply, val_main_v11_apply, idx_v11, mean_apply]
  rfl

/-- The second sum, of the squares of the centred row, divided by the word of 512: the variance. -/
theorem variance_apply (a0 : (⟨S65536x512, .f32⟩ : BufTy).Contents (Elt Ideal)) (n : Fin 65536) :
    val_main_v10 (F := Ideal) a0 (ix2 n (0 : Fin 1)) = Spec.variance (rowOf a0 n) := by
  rw [val_main_v10_apply, val_main_v8_apply, val_main_v7_apply, val_main_v9_apply, val_main_cst_2_apply, val_main_cst_1_apply]
  simp only [idx_v7_v8, val_main_v6_apply, centred_apply, Ideal.ofBits_def, Ideal.hostDivf_def, Ideal.mulf_def,
    Ideal.ofBits_zero_f32, zero_add]
  rfl

/-- The centred row times the reciprocal root of the variance plus ε. -/
theorem normed_apply (a0 : (⟨S65536x512, .f32⟩ : BufTy).Contents (Elt Ideal)) (n : Fin 65536) (j : Fin 512) :
    val_main_v17 (F := Ideal) a0 (ix2 n j)
      = Spec.centred (rowOf a0 n) j * Ideal.rsqrt (Spec.variance (rowOf a0 n) + Ideal.ofBits .f32 0x3727C5AC#32) := by
  rw [val_main_v17_apply, centred_apply', val_main_v16_apply, idx_v16, val_main_v15_apply, val_main_v14_apply,
    variance_apply, val_main_v13_apply, val_main_cst_3_apply]
  rfl

/-- Times the gain, plus the shift: the layer normalisation of row n at entry j. -/
theorem ln_apply (a0 : (⟨S65536x512, .f32⟩ : BufTy).Contents (Elt Ideal)) (a13 a14 : (⟨S512, .f32⟩ : BufTy).Contents (Elt Ideal)) (n : Fin 65536) (j : Fin 512) :
    val_main_v23 (F := Ideal) a0 a13 a14 (ix2 n j) = hRow a0 a13 a14 n j := by
  rw [val_main_v23_apply, val_main_v20_apply, normed_apply, val_main_v19_apply, val_main_v18_apply, idx_v18_v19,
    val_main_v22_apply, val_main_v21_apply, idx_v21_v22]
  rfl

/-! ## The three projections, and the row cut into heads -/

/-- A projection of the normalised row n: h·Wᵀ + b. -/
abbrev proj (a0 : (⟨S65536x512, .f32⟩ : BufTy).Contents (Elt Ideal)) (w : (⟨S512x512, .f32⟩ : BufTy).Contents (Elt Ideal)) (b a13 a14 : (⟨S512, .f32⟩ : BufTy).Contents (Elt Ideal)) (n : Fin 65536) : Fin 512 → EReal :=
  Spec.affine (hRow a0 a13 a14 n) (matOf w) (vecOf b)

/-- The contraction over k of h against the transposed weights, plus the bias broadcast down the rows. -/
theorem q_apply (a0 : (⟨S65536x512, .f32⟩ : BufTy).Contents (Elt Ideal)) (a1 : (⟨S512x512, .f32⟩ : BufTy).Contents (Elt Ideal)) (a2 a13 a14 : (⟨S512, .f32⟩ : BufTy).Contents (Elt Ideal)) (n : Fin 65536) (j : Fin 512) :
    val_main_v28 (F := Ideal) a0 a1 a2 a13 a14 (ix2 n j) = proj a0 a1 a2 a13 a14 n j := by
  rw [val_main_v28_apply, val_main_v25_apply, val_main_v27_apply, val_main_v26_apply, idx_v26_v27]
  simp only [lidx_v25, ridx_v25, val_main_v24_apply, idx_v24, ln_apply]
  rfl
/-- Cut into 8 heads of 64: entry (a, d) is the projection's entry 64·a + d. -/
theorem qh_apply (a0 : (⟨S65536x512, .f32⟩ : BufTy).Contents (Elt Ideal)) (a1 : (⟨S512x512, .f32⟩ : BufTy).Contents (Elt Ideal)) (a2 a13 a14 : (⟨S512, .f32⟩ : BufTy).Contents (Elt Ideal)) (n : Fin 65536) (a : Fin 8) (d : Fin 64) :
    val_main_v29 (F := Ideal) a0 a1 a2 a13 a14 (ix3 n a d) = proj a0 a1 a2 a13 a14 n (Spec.headIdx a d) := by
  rw [val_main_v29_apply, idx_v29, q_apply]

/-- The contraction over k of h against the transposed weights, plus the bias broadcast down the rows. -/
theorem k_apply (a0 : (⟨S65536x512, .f32⟩ : BufTy).Contents (Elt Ideal)) (a3 : (⟨S512x512, .f32⟩ : BufTy).Contents (Elt Ideal)) (a4 a13 a14 : (⟨S512, .f32⟩ : BufTy).Contents (Elt Ideal)) (n : Fin 65536) (j : Fin 512) :
    val_main_v34 (F := Ideal) a0 a3 a4 a13 a14 (ix2 n j) = proj a0 a3 a4 a13 a14 n j := by
  rw [val_main_v34_apply, val_main_v31_apply, val_main_v33_apply, val_main_v32_apply, idx_v32_v33]
  simp only [lidx_v31, ridx_v31, val_main_v30_apply, idx_v30, ln_apply]
  rfl
/-- Cut into 8 heads of 64: entry (a, d) is the projection's entry 64·a + d. -/
theorem kh_apply (a0 : (⟨S65536x512, .f32⟩ : BufTy).Contents (Elt Ideal)) (a3 : (⟨S512x512, .f32⟩ : BufTy).Contents (Elt Ideal)) (a4 a13 a14 : (⟨S512, .f32⟩ : BufTy).Contents (Elt Ideal)) (n : Fin 65536) (a : Fin 8) (d : Fin 64) :
    val_main_v35 (F := Ideal) a0 a3 a4 a13 a14 (ix3 n a d) = proj a0 a3 a4 a13 a14 n (Spec.headIdx a d) := by
  rw [val_main_v35_apply, idx_v35, k_apply]

/-- The contraction over k of h against the transposed weights, plus the bias broadcast down the rows. -/
theorem v_apply (a0 : (⟨S65536x512, .f32⟩ : BufTy).Contents (Elt Ideal)) (a5 : (⟨S512x512, .f32⟩ : BufTy).Contents (Elt Ideal)) (a6 a13 a14 : (⟨S512, .f32⟩ : BufTy).Contents (Elt Ideal)) (n : Fin 65536) (j : Fin 512) :
    val_main_v40 (F := Ideal) a0 a5 a6 a13 a14 (ix2 n j) = proj a0 a5 a6 a13 a14 n j := by
  rw [val_main_v40_apply, val_main_v37_apply, val_main_v39_apply, val_main_v38_apply, idx_v38_v39]
  simp only [lidx_v37, ridx_v37, val_main_v36_apply, idx_v36, ln_apply]
  rfl
/-- Cut into 8 heads of 64: entry (a, d) is the projection's entry 64·a + d. -/
theorem vh_apply (a0 : (⟨S65536x512, .f32⟩ : BufTy).Contents (Elt Ideal)) (a5 : (⟨S512x512, .f32⟩ : BufTy).Contents (Elt Ideal)) (a6 a13 a14 : (⟨S512, .f32⟩ : BufTy).Contents (Elt Ideal)) (n : Fin 65536) (a : Fin 8) (d : Fin 64) :
    val_main_v41 (F := Ideal) a0 a5 a6 a13 a14 (ix3 n a d) = proj a0 a5 a6 a13 a14 n (Spec.headIdx a d) := by
  rw [val_main_v41_apply, idx_v41, v_apply]

/-! ## The 8 × 8 weights of row n -/

/-- The batched contraction over the 64 places: the score of head a against head b. -/
theorem score_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a b : Fin 8) :
    val_main_v42 (F := Ideal) a0 a1 a2 a3 a4 a13 a14 (ix3 n a b) = Spec.score (proj a0 a1 a2 a13 a14 n) (proj a0 a3 a4 a13 a14 n) a b := by
  rw [val_main_v42_apply]
  simp only [lidx_v42, ridx_v42, qh_apply, kh_apply]
  rfl

/-- Divided by the word of 8. -/
theorem scoresDiv_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a b : Fin 8) :
    val_main_v44 (F := Ideal) a0 a1 a2 a3 a4 a13 a14 (ix3 n a b) = Spec.scoresDiv (proj a0 a1 a2 a13 a14 n) (proj a0 a3 a4 a13 a14 n) a b := by
  rw [val_main_v44_apply, score_apply, val_main_v43_apply, val_main_cst_4_apply]
  rfl

/-- Result index (n, a) of the reduction over the last axis, with coordinate k put back, is (n, a, k). -/
theorem lift_last (h : S65536x8x8.Reduces [2] S65536x8) (n : Fin 65536) (a : Fin 8) (k : Fin (S65536x8x8.size 2)) :
    h.lift (ix2 n a) k = ix3 n a (⟨k.val, k.isLt⟩ : Fin 8) := by
  funext c; apply Fin.ext
  match c with
  | ⟨0, _⟩ => rfl
  | ⟨1, _⟩ => rfl
  | ⟨2, _⟩ => rfl

/-- A reduction with the maximum over the last axis of an [65536, 8, 8] array, at (n, a): the fold of max, from the
    initial value, over the eight entries (n, a, ·). -/
theorem reduceMax_apply (x : FVec Ideal S65536x8x8 .f32) (init : FVec Ideal S_ .f32)
    (h' : S65536x8x8.ReducesTo [2] S65536x8) (hu : 0 < S_.numel) (n : Fin 65536) (a : Fin 8) :
    Host.reduce FloatOps.maximumf x init h' hu (ix2 n a)
      = (Finset.univ : Finset (Fin 8)).fold max (init (Shape.Idx.first hu)) (fun b => x (ix3 n a b)) := by
  have h : S65536x8x8.Reduces [2] S65536x8 := by decide
  rw [Host.reduce_eq_fold_single FloatOps.maximumf x _ h' h hu]
  have hf : (x ∘ h.lift (ix2 n a)) = fun k : Fin 8 => x (ix3 n a k) := funext fun k => congrArg x (lift_last h n a k)
  exact congrArg (fun f => Finset.fold max (init (Shape.Idx.first hu)) f (Finset.univ : Finset (Fin 8))) hf

/-- The maximum over b of the scores of head a, folded from the word of −∞. -/
theorem rowMax_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a : Fin 8) :
    val_main_v45 (F := Ideal) a0 a1 a2 a3 a4 a13 a14 (ix2 n a) = Spec.rowMax (Spec.scoresDiv (proj a0 a1 a2 a13 a14 n) (proj a0 a3 a4 a13 a14 n) a) := by
  unfold val_main_v45
  refine (reduceMax_apply _ _ _ _ n a).trans ?_
  rw [val_main_cst_5_apply]
  simp only [scoresDiv_apply]
  rfl

/-- The exponential of each score less the maximum (taken once more against the word of −∞). -/
theorem exp_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a b : Fin 8) :
    val_main_v51 (F := Ideal) a0 a1 a2 a3 a4 a13 a14 (ix3 n a b) = Spec.expLess (Spec.scoresDiv (proj a0 a1 a2 a13 a14 n) (proj a0 a3 a4 a13 a14 n) a) (max (Ideal.ofBits .f32 0xFF800000#32) (Spec.rowMax (Spec.scoresDiv (proj a0 a1 a2 a13 a14 n) (proj a0 a3 a4 a13 a14 n) a))) b := by
  rw [val_main_v51_apply, val_main_v50_apply, scoresDiv_apply, val_main_v49_apply, idx_v49, val_main_v48_apply, idx_v48,
    val_main_v47_apply, rowMax_apply, val_main_v46_apply, val_main_cst_6_apply]
  rfl

/-- The sum over b of the exponentials (from the zero word). -/
theorem expSum_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a : Fin 8) :
    val_main_v52 (F := Ideal) a0 a1 a2 a3 a4 a13 a14 (ix2 n a) = ∑ b' : Fin 8, Spec.expLess (Spec.scoresDiv (proj a0 a1 a2 a13 a14 n) (proj a0 a3 a4 a13 a14 n) a) (max (Ideal.ofBits .f32 0xFF800000#32) (Spec.rowMax (Spec.scoresDiv (proj a0 a1 a2 a13 a14 n) (proj a0 a3 a4 a13 a14 n) a))) b' := by
  rw [val_main_v52_apply, val_main_cst_7_apply]
  simp only [idx_v52, exp_apply, Ideal.ofBits_def, Ideal.ofBits_zero_f32, zero_add]

/-- Each exponential divided by the sum: the weight of head b for head a. -/
theorem weights_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 a13 a14 : (⟨S512, .f32⟩ : BufTy).Contents (Elt Ideal)) (n : Fin 65536) (a b : Fin 8) :
    val_main_v55 (F := Ideal) a0 a1 a2 a3 a4 a13 a14 (ix3 n a b) = Spec.weightsDiv (proj a0 a1 a2 a13 a14 n) (proj a0 a3 a4 a13 a14 n) a b := by
  rw [val_main_v55_apply, exp_apply, val_main_v54_apply, idx_v54, val_main_v53_apply, idx_v53, expSum_apply]
  rfl

/-! ## The heads mixed, the last projection and the residual -/

/-- The batched contraction over b: head a of the result at place d is Σ_b w a b · v (b, d). -/
theorem mixHeads_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 a13 a14 : (⟨S512, .f32⟩ : BufTy).Contents (Elt Ideal)) (n : Fin 65536) (a : Fin 8) (d : Fin 64) :
    val_main_v56 (F := Ideal) a0 a1 a2 a3 a4 a5 a6 a13 a14 (ix3 n a d)
      = ∑ b : Fin 8, Spec.weightsDiv (proj a0 a1 a2 a13 a14 n) (proj a0 a3 a4 a13 a14 n) a b * (proj a0 a5 a6 a13 a14 n) (Spec.headIdx b d) := by
  rw [val_main_v56_apply]
  simp only [lidx_v56, ridx_v56, weights_apply, vh_apply]

/-- The heads side by side again: entry j of the mixed row. -/
theorem mix_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 a13 a14 : (⟨S512, .f32⟩ : BufTy).Contents (Elt Ideal)) (n : Fin 65536) (j : Fin 512) :
    val_main_v57 (F := Ideal) a0 a1 a2 a3 a4 a5 a6 a13 a14 (ix2 n j) = Spec.mix (Spec.weightsDiv (proj a0 a1 a2 a13 a14 n) (proj a0 a3 a4 a13 a14 n)) (proj a0 a5 a6 a13 a14 n) j := by
  rw [val_main_v57_apply, idx_v57, mixHeads_apply]
  rfl

/-- The last projection: the mixed row against the transposed output weights, plus the bias. -/
theorem out_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) (a7 : (⟨S512x512, .f32⟩ : BufTy).Contents (Elt Ideal)) (a8 a13 a14 : (⟨S512, .f32⟩ : BufTy).Contents (Elt Ideal)) (n : Fin 65536) (j : Fin 512) :
    val_main_v62 (F := Ideal) a0 a1 a2 a3 a4 a5 a6 a7 a8 a13 a14 (ix2 n j) = Spec.affine (Spec.mix (Spec.weightsDiv (proj a0 a1 a2 a13 a14 n) (proj a0 a3 a4 a13 a14 n)) (proj a0 a5 a6 a13 a14 n)) (matOf a7) (vecOf a8) j := by
  rw [val_main_v62_apply, val_main_v59_apply, val_main_v61_apply, val_main_v60_apply, idx_v60_v61]
  simp only [lidx_v59, ridx_v59, val_main_v58_apply, idx_v58, mix_apply]
  rfl

/-- The residual: the attention half of the layer on row n, at entry j. -/
theorem attnRow_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) (a7 : (⟨S512x512, .f32⟩ : BufTy).Contents (Elt Ideal)) (a8 a13 a14 : (⟨S512, .f32⟩ : BufTy).Contents (Elt Ideal)) (n : Fin 65536) (j : Fin 512) :
    val_main_v63 (F := Ideal) a0 a1 a2 a3 a4 a5 a6 a7 a8 a13 a14 (ix2 n j)
      = Spec.attnRow Spec.weightsDiv (rowOf a0 n) (matOf a1) (vecOf a2) (matOf a3) (vecOf a4) (matOf a5) (vecOf a6)
          (matOf a7) (vecOf a8) (vecOf a13) (vecOf a14) j := by
  rw [val_main_v63_apply, out_apply]
  rfl

/-- The same with the rows, matrices and vectors written out. -/
theorem attn_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) (a7 : (⟨S512x512, .f32⟩ : BufTy).Contents (Elt Ideal)) (a8 a13 a14 : (⟨S512, .f32⟩ : BufTy).Contents (Elt Ideal)) (n : Fin 65536) (j : Fin 512) :
    Cert.ReferenceIdeal.Read.val_main_v63 (F := Ideal) a0 a1 a2 a3 a4 a5 a6 a7 a8 a13 a14 (ValueIdx.ix2 n j)
      = Cert.Spec.attnRow Cert.Spec.weightsDiv (fun k => a0 (ValueIdx.ix2 n k)) (fun j k => a1 (ValueIdx.ix2 j k)) (fun j => a2 (ValueIdx.ix1 j)) (fun j k => a3 (ValueIdx.ix2 j k)) (fun j => a4 (ValueIdx.ix1 j)) (fun j k => a5 (ValueIdx.ix2 j k)) (fun j => a6 (ValueIdx.ix1 j)) (fun j k => a7 (ValueIdx.ix2 j k)) (fun j => a8 (ValueIdx.ix1 j)) (fun j => a13 (ValueIdx.ix1 j)) (fun j => a14 (ValueIdx.ix1 j)) j :=
  attnRow_apply a0 a1 a2 a3 a4 a5 a6 a7 a8 a13 a14 n j

end Cert.ReferenceIdeal.RefValue

end
-- ==== Proof.RefFfn.lean ====
/-
  The feed-forward half of the reference, read one entry at a time.

  Write y for the row n of the activations after the attention half (stage 63 of the reference program), taken
  here as a hypothesis: stage 63 at entry (n, j) is X n j. The remaining stages compute, for that row,
    μ   = (Σ_k y_k) / 512                        the mean (a float sum started from the zero word),
    c_j = y_j − μ                                the centred row,
    σ²  = (Σ_k c_k · c_k) / 512                  the variance,
    h_j = c_j · rsqrt(σ² + ε) · g_j + β_j        the layer normalisation,
    u_f = Σ_k h_k · W1[f, k] + b1_f              the first projection (the transpose only swaps the index),
    r_f = max(u_f, 0)                            the rectifier,
    t_j = Σ_f r_f · W2[j, f] + b2_j              the second projection,
  and the result is y_j + t_j. Each theorem below reads one of these lines at an entry; no algebra is needed beyond
  0 + s = s for the sums' initial word and the identification of the composed index maps with coordinates.
-/
import proofs.«107231_j40132174414149_2_alg».proof.Proof.Gen.ReferenceIdeal.Read
import proofs.«107231_j40132174414149_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue2

open Cert.ReferenceIdeal Cert.ReferenceIdeal.Read Idealize.ShloMosaic Idealize.ShloMosaic.ValueIdx

/-- Two rank-2 indices (or two rank-1 indices) with the same coordinates are equal. -/
local macro "idx_coords" : tactic =>
  `(tactic| exact funext fun a => Fin.ext (by first | (match a with | ⟨0, _⟩ => rfl | ⟨1, _⟩ => rfl) | (match a with | ⟨0, _⟩ => rfl)))

/-! ## The composed index maps, by coordinates -/

/-- The row sums' column [65536, 1] → [65536] reads row n. -/
theorem i65 (n : Fin 65536) : idx_main_v65 (ix2 n (0 : Fin 1)) = ix1 n := by idx_coords
theorem i72 (n : Fin 65536) : idx_main_v72 (ix2 n (0 : Fin 1)) = ix1 n := by idx_coords
/-- Term k of the sum for row n is entry (n, k). -/
theorem i64 (n : Fin 65536) (k : Fin 512) : idx_main_v64 (ix1 n) k = ix2 n k := by idx_coords
theorem i71 (n : Fin 65536) (k : Fin 512) : idx_main_v71 (ix1 n) k = ix2 n k := by idx_coords
/-- A per-row column broadcast along the row reads (n, 0) at every (n, j). -/
theorem i68 (n : Fin 65536) (j : Fin 512) : idx_main_v68 (ix2 n j) = ix2 n (0 : Fin 1) := by idx_coords
theorem i75 (n : Fin 65536) (j : Fin 512) : idx_main_v75 (ix2 n j) = ix2 n (0 : Fin 1) := by idx_coords
theorem i80 (n : Fin 65536) (j : Fin 512) : idx_main_v80 (ix2 n j) = ix2 n (0 : Fin 1) := by idx_coords
/-- A per-column vector broadcast down the rows reads entry j at every (n, j). -/
theorem i83 (n : Fin 65536) (j : Fin 512) : idx_main_v83 (ix2 n j) = ix2 (0 : Fin 1) j := by idx_coords
theorem i82 (j : Fin 512) : idx_main_v82 (ix2 (0 : Fin 1) j) = ix1 j := by idx_coords
theorem i86 (n : Fin 65536) (j : Fin 512) : idx_main_v86 (ix2 n j) = ix2 (0 : Fin 1) j := by idx_coords
theorem i85 (j : Fin 512) : idx_main_v85 (ix2 (0 : Fin 1) j) = ix1 j := by idx_coords
theorem i91 (n : Fin 65536) (f : Fin 2048) : idx_main_v91 (ix2 n f) = ix2 (0 : Fin 1) f := by idx_coords
theorem i90 (f : Fin 2048) : idx_main_v90 (ix2 (0 : Fin 1) f) = ix1 f := by idx_coords
theorem i97 (n : Fin 65536) (j : Fin 512) : idx_main_v97 (ix2 n j) = ix2 (0 : Fin 1) j := by idx_coords
theorem i96 (j : Fin 512) : idx_main_v96 (ix2 (0 : Fin 1) j) = ix1 j := by idx_coords
/-- The two transposes swap the coordinates. -/
theorem i88 (k : Fin 512) (f : Fin 2048) : idx_main_v88 (ix2 k f) = ix2 f k := by idx_coords
theorem i94 (f : Fin 2048) (j : Fin 512) : idx_main_v94 (ix2 f j) = ix2 j f := by idx_coords
/-- Term k of the first contraction at (n, f): the row's entry k against entry (k, f) of the transposed weights. -/
theorem l89 (n : Fin 65536) (f : Fin 2048) (k : Fin 512) : lidx_main_v89 (ix2 n f) k = ix2 n k := by idx_coords
theorem r89 (n : Fin 65536) (f : Fin 2048) (k : Fin 512) : ridx_main_v89 (ix2 n f) k = ix2 k f := by idx_coords
/-- Term f of the second contraction at (n, j). -/
theorem l95 (n : Fin 65536) (j : Fin 512) (f : Fin 2048) : lidx_main_v95 (ix2 n j) f = ix2 n f := by idx_coords
theorem r95 (n : Fin 65536) (j : Fin 512) (f : Fin 2048) : ridx_main_v95 (ix2 n j) f = ix2 f j := by idx_coords

/-! ## The stages at an entry -/

section Stages

variable {a0 : (⟨S65536x512, .f32⟩ : BufTy).Contents (Elt Ideal)}
  {a1 : (⟨S512x512, .f32⟩ : BufTy).Contents (Elt Ideal)}
  {a2 : (⟨S512, .f32⟩ : BufTy).Contents (Elt Ideal)}
  {a3 : (⟨S512x512, .f32⟩ : BufTy).Contents (Elt Ideal)}
  {a4 : (⟨S512, .f32⟩ : BufTy).Contents (Elt Ideal)}
  {a5 : (⟨S512x512, .f32⟩ : BufTy).Contents (Elt Ideal)}
  {a6 : (⟨S512, .f32⟩ : BufTy).Contents (Elt Ideal)}
  {a7 : (⟨S512x512, .f32⟩ : BufTy).Contents (Elt Ideal)}
  {a8 : (⟨S512, .f32⟩ : BufTy).Contents (Elt Ideal)}
  {a9 : (⟨S2048x512, .f32⟩ : BufTy).Contents (Elt Ideal)}
  {a10 : (⟨S2048, .f32⟩ : BufTy).Contents (Elt Ideal)}
  {a11 : (⟨S512x2048, .f32⟩ : BufTy).Contents (Elt Ideal)}
  {a12 : (⟨S512, .f32⟩ : BufTy).Contents (Elt Ideal)}
  {a13 : (⟨S512, .f32⟩ : BufTy).Contents (Elt Ideal)}
  {a14 : (⟨S512, .f32⟩ : BufTy).Contents (Elt Ideal)}
  {a15 : (⟨S512, .f32⟩ : BufTy).Contents (Elt Ideal)}
  {a16 : (⟨S512, .f32⟩ : BufTy).Contents (Elt Ideal)}
  {X : Fin 65536 → Fin 512 → EReal}
  (h63 : ∀ (n : Fin 65536) (j : Fin 512), val_main_v63 (F := Ideal) a0 a1 a2 a3 a4 a5 a6 a7 a8 a13 a14 (ix2 n j) = X n j)
include h63

/-- The mean of row n. -/
theorem mean_at (n : Fin 65536) :
    val_main_v67 (F := Ideal) a0 a1 a2 a3 a4 a5 a6 a7 a8 a13 a14 (ix2 n (0 : Fin 1)) = Cert.Spec.mean (X n) := by
  rw [val_main_v67_apply, val_main_v65_apply, val_main_v66_apply, val_main_cst_9_apply, i65, val_main_v64_apply,
    val_main_cst_8_apply]
  simp only [Ideal.hostDivf_def, Ideal.ofBits_def, Ideal.ofBits_zero_f32, zero_add]
  unfold Cert.Spec.mean
  refine congrArg (fun s => Ideal.div s _) (Finset.sum_congr rfl fun k _ => ?_)
  rw [i64]
  exact h63 n k

/-- The centred row (the subtraction feeding the variance). -/
theorem centred_at (n : Fin 65536) (j : Fin 512) :
    val_main_v69 (F := Ideal) a0 a1 a2 a3 a4 a5 a6 a7 a8 a13 a14 (ix2 n j) = Cert.Spec.centred (X n) j := by
  rw [val_main_v69_apply, val_main_v68_apply, i68, mean_at h63 n, h63 n j]
  rfl

/-- The centred row (the second, identical subtraction feeding the normalisation). -/
theorem centred_at' (n : Fin 65536) (j : Fin 512) :
    val_main_v76 (F := Ideal) a0 a1 a2 a3 a4 a5 a6 a7 a8 a13 a14 (ix2 n j) = Cert.Spec.centred (X n) j := by
  rw [val_main_v76_apply, val_main_v75_apply, i75, mean_at h63 n, h63 n j]
  rfl

/-- The variance of row n: the mean of the squares of the centred row. -/
theorem variance_at (n : Fin 65536) :
    val_main_v74 (F := Ideal) a0 a1 a2 a3 a4 a5 a6 a7 a8 a13 a14 (ix2 n (0 : Fin 1)) = Cert.Spec.variance (X n) := by
  rw [val_main_v74_apply, val_main_v72_apply, val_main_v73_apply, val_main_cst_11_apply, i72, val_main_v71_apply,
    val_main_cst_10_apply]
  simp only [Ideal.hostDivf_def, Ideal.ofBits_def, Ideal.ofBits_zero_f32, zero_add]
  unfold Cert.Spec.variance Cert.Spec.mean
  refine congrArg (fun s => Ideal.div s _) (Finset.sum_congr rfl fun k _ => ?_)
  rw [i71, val_main_v70_apply, centred_at h63 n k]
  rfl

/-- The reciprocal root of the variance plus ε. -/
theorem rsqrt_at (n : Fin 65536) :
    val_main_v79 (F := Ideal) a0 a1 a2 a3 a4 a5 a6 a7 a8 a13 a14 (ix2 n (0 : Fin 1))
      = Ideal.rsqrt (Cert.Spec.variance (X n) + Ideal.ofBits .f32 0x3727C5AC#32) := by
  rw [val_main_v79_apply, val_main_v78_apply, variance_at h63 n, val_main_v77_apply, val_main_cst_12_apply]
  rfl

/-- The layer normalisation of row n with the second gain and shift. -/
theorem layerNorm_at (n : Fin 65536) (j : Fin 512) :
    val_main_v87 (F := Ideal) a0 a1 a2 a3 a4 a5 a6 a7 a8 a13 a14 a15 a16 (ix2 n j) = Cert.Spec.layerNorm (X n) (fun j : Fin 512 => a15 (ix1 j)) (fun j : Fin 512 => a16 (ix1 j)) j := by
  rw [val_main_v87_apply, val_main_v84_apply, val_main_v81_apply, centred_at' h63 n j, val_main_v80_apply, i80,
    rsqrt_at h63 n, val_main_v83_apply, i83, val_main_v82_apply, i82, val_main_v86_apply, i86, val_main_v85_apply, i85]
  rfl

/-- The first projection: entry f is Σ_k h_k · W1[f, k] + b1_f. -/
theorem hidden_at (n : Fin 65536) (f : Fin 2048) :
    val_main_v92 (F := Ideal) a0 a1 a2 a3 a4 a5 a6 a7 a8 a9 a10 a13 a14 a15 a16 (ix2 n f) = Cert.Spec.affine (Cert.Spec.layerNorm (X n) (fun j : Fin 512 => a15 (ix1 j)) (fun j : Fin 512 => a16 (ix1 j))) (fun (f : Fin 2048) (k : Fin 512) => a9 (ix2 f k)) (fun f : Fin 2048 => a10 (ix1 f)) f := by
  rw [val_main_v92_apply, val_main_v89_apply, val_main_v91_apply, i91, val_main_v90_apply, i90]
  unfold Cert.Spec.affine
  rw [Ideal.addf_def]
  refine congrArg (fun s => s + _) (Finset.sum_congr rfl fun k _ => ?_)
  rw [l89, r89, layerNorm_at h63 n k, val_main_v88_apply, i88]

/-- The rectifier: the maximum with the zero word. -/
theorem relu_at (n : Fin 65536) (f : Fin 2048) :
    val_main_v93 (F := Ideal) a0 a1 a2 a3 a4 a5 a6 a7 a8 a9 a10 a13 a14 a15 a16 (ix2 n f) = max (Cert.Spec.affine (Cert.Spec.layerNorm (X n) (fun j : Fin 512 => a15 (ix1 j)) (fun j : Fin 512 => a16 (ix1 j))) (fun (f : Fin 2048) (k : Fin 512) => a9 (ix2 f k)) (fun f : Fin 2048 => a10 (ix1 f)) f) (Ideal.ofBits .f32 0x00000000#32) := by
  rw [val_main_v93_apply, hidden_at h63 n f, val_main_call0_v0_apply, val_main_call0_cst_apply]
  rfl

/-- The second projection: entry j is Σ_f r_f · W2[j, f] + b2_j. -/
theorem out_at (n : Fin 65536) (j : Fin 512) :
    val_main_v98 (F := Ideal) a0 a1 a2 a3 a4 a5 a6 a7 a8 a9 a10 a11 a12 a13 a14 a15 a16 (ix2 n j)
      = Cert.Spec.affine (fun f : Fin 2048 => max (Cert.Spec.affine (Cert.Spec.layerNorm (X n) (fun j : Fin 512 => a15 (ix1 j)) (fun j : Fin 512 => a16 (ix1 j))) (fun (f : Fin 2048) (k : Fin 512) => a9 (ix2 f k)) (fun f : Fin 2048 => a10 (ix1 f)) f) (Ideal.ofBits .f32 0x00000000#32)) (fun (j : Fin 512) (f : Fin 2048) => a11 (ix2 j f)) (fun j : Fin 512 => a12 (ix1 j)) j := by
  rw [val_main_v98_apply, val_main_v95_apply, val_main_v97_apply, i97, val_main_v96_apply, i96]
  rw [Cert.Spec.affine, Ideal.addf_def]
  refine congrArg (fun s => s + _) (Finset.sum_congr rfl fun f _ => ?_)
  rw [l95, r95, relu_at h63 n f, val_main_v94_apply, i94]

end Stages

/-- The reference's result at entry (n, j) is the feed-forward half applied to row n of stage 63. -/
theorem ffn_apply (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) (a7 : (⟨S512x512, .f32⟩ : BufTy).Contents (Elt Ideal)) (a8 : (⟨S512, .f32⟩ : BufTy).Contents (Elt Ideal)) (a9 : (⟨S2048x512, .f32⟩ : BufTy).Contents (Elt Ideal)) (a10 : (⟨S2048, .f32⟩ : BufTy).Contents (Elt Ideal)) (a11 : (⟨S512x2048, .f32⟩ : BufTy).Contents (Elt Ideal)) (a12 : (⟨S512, .f32⟩ : BufTy).Contents (Elt Ideal)) (a13 : (⟨S512, .f32⟩ : BufTy).Contents (Elt Ideal)) (a14 : (⟨S512, .f32⟩ : BufTy).Contents (Elt Ideal)) (a15 : (⟨S512, .f32⟩ : BufTy).Contents (Elt Ideal)) (a16 : (⟨S512, .f32⟩ : BufTy).Contents (Elt Ideal))
    (X : Fin 65536 → Fin 512 → EReal)
    (h63 : ∀ (n : Fin 65536) (j : Fin 512), Cert.ReferenceIdeal.Read.val_main_v63 (F := Ideal) a0 a1 a2 a3 a4 a5 a6 a7 a8 a13 a14 (ValueIdx.ix2 n j) = X n j)
    (n : Fin 65536) (j : Fin 512) :
    Cert.ReferenceIdeal.Read.val_main_v99 (F := Ideal) a0 a1 a2 a3 a4 a5 a6 a7 a8 a9 a10 a11 a12 a13 a14 a15 a16 (ValueIdx.ix2 n j)
      = Cert.Spec.ffnRow (X n) (fun f k => a9 (ValueIdx.ix2 f k)) (fun f => a10 (ValueIdx.ix1 f)) (fun j f => a11 (ValueIdx.ix2 j f)) (fun j => a12 (ValueIdx.ix1 j)) (fun j => a15 (ValueIdx.ix1 j)) (fun j => a16 (ValueIdx.ix1 j)) j := by
  rw [val_main_v99_apply, h63 n j, out_at h63 n j]
  rfl

end Cert.ReferenceIdeal.RefValue2

end
-- ==== Proof.RefRow.lean ====
/-
  The reference's result, read entry by entry, is the layer's function of the seventeen arguments with the
  8 × 8 weights spelt by division: the attention half (up to the first residual) and the feed-forward half,
  put together.
-/
import proofs.«107231_j40132174414149_2_alg».proof.Proof.Gen.ReferenceIdeal.Read
import proofs.«107231_j40132174414149_2_alg».proof.Proof.RefAttn
import proofs.«107231_j40132174414149_2_alg».proof.Proof.RefFfn
import proofs.«107231_j40132174414149_2_alg».proof.Proof.Layer

noncomputable section

namespace Cert.ReferenceIdeal.RefValue

open Cert.ReferenceIdeal Idealize.ShloMosaic Idealize.ShloMosaic.ValueIdx

/-- The reference's result array is the layer's function of its arguments. -/
theorem ref_eq (a0 : (⟨S65536x512, .f32⟩ : BufTy).Contents (Elt Ideal)) (a1 : (⟨S512x512, .f32⟩ : BufTy).Contents (Elt Ideal)) (a2 : (⟨S512, .f32⟩ : BufTy).Contents (Elt Ideal)) (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) (a7 : (⟨S512x512, .f32⟩ : BufTy).Contents (Elt Ideal)) (a8 : (⟨S512, .f32⟩ : BufTy).Contents (Elt Ideal)) (a9 : (⟨S2048x512, .f32⟩ : BufTy).Contents (Elt Ideal)) (a10 : (⟨S2048, .f32⟩ : BufTy).Contents (Elt Ideal)) (a11 : (⟨S512x2048, .f32⟩ : BufTy).Contents (Elt Ideal)) (a12 : (⟨S512, .f32⟩ : BufTy).Contents (Elt Ideal)) (a13 : (⟨S512, .f32⟩ : BufTy).Contents (Elt Ideal)) (a14 : (⟨S512, .f32⟩ : BufTy).Contents (Elt Ideal)) (a15 : (⟨S512, .f32⟩ : BufTy).Contents (Elt Ideal)) (a16 : (⟨S512, .f32⟩ : BufTy).Contents (Elt Ideal)) :
    Cert.ReferenceIdeal.Read.val_main_v99 (F := Ideal) a0 a1 a2 a3 a4 a5 a6 a7 a8 a9 a10 a11 a12 a13 a14 a15 a16
      = Cert.Layer.layer Cert.Spec.weightsDiv a0 a1 a2 a3 a4 a5 a6 a7 a8 a9 a10 a11 a12 a13 a14 a15 a16 := by
  funext i
  obtain ⟨n, j, rfl⟩ : ∃ (n : Fin 65536) (j : Fin 512), i = ix2 n j := ⟨i 0, i 1, eq_ix2 i⟩
  exact (Cert.ReferenceIdeal.RefValue2.ffn_apply a0 a1 a2 a3 a4 a5 a6 a7 a8 a9 a10 a11 a12 a13 a14 a15 a16 _
    (fun n j => attn_apply a0 a1 a2 a3 a4 a5 a6 a7 a8 a13 a14 n j) n j).trans rfl

end Cert.ReferenceIdeal.RefValue

end
-- ==== Proof.LibERealFinite.lean ====
/-
  Extended reals that are real numbers: the predicate, its closure under the arithmetic the
  normalisation uses, and the two operations with corners (the quotient by a nonzero real and the
  reciprocal square root of a positive real) at real arguments.
-/
import Idealize.ShloMosaic.PureOps.Ideal
import Idealize.ShloMosaic.PureOps.Ideal.Laws
import Idealize.ShloMosaic.Lib.ReduceAll

noncomputable section

namespace Cert.Lib

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := ((isReal_iff x).mp h).1

theorem IsReal.ne_bot {x : EReal} (h : IsReal x) : x ≠ ⊥ := ((isReal_iff x).mp h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals, as extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨_, coe_max a b⟩

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A row of a matrix product of real matrices is real. -/
theorem IsReal.dot {ι : Type*} (s : Finset ι) (x w : ι → EReal) (hx : ∀ k, IsReal (x k)) (hw : ∀ k, IsReal (w k)) :
    IsReal (∑ k ∈ s, x k * w k) :=
  IsReal.sum s _ fun k _ => (hx k).mul (hw k)

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨_, div_coe_coe a hc⟩

/-- The reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_coe_pos h⟩

/-- `(1 + ε) · x + z` of reals is real. -/
theorem IsReal.affine {a x z : EReal} (ha : IsReal a) (hx : IsReal x) (hz : IsReal z) : IsReal ((1 + a) * x + z) :=
  ((isReal_one.add ha).mul hx).add hz

/-- A gather of real entries has real entries: each one is an entry of the operand. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add, on the extended reals, of real updates into real entries has real entries: each one is an
    entry of the operand plus a finite sum of updates. -/
theorem isReal_scatterAdd {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ _, upd j)
  exact (hx i).add (IsReal.sum _ _ fun j _ => hu j)

/-- The f32 pattern `0x7F800000` denotes +∞. -/
theorem ofBits_inf_f32 : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [ofBits_inf_f32] at h
  induction x using EReal.rec with
  | bot => simp at h
  | coe r => exact ⟨r, rfl⟩
  | top => simp at h

/-- `all (|x| < +∞)` over a whole array (the reduction by `and` of the comparison against the broadcast pattern of
    +∞ is 1) says every entry is a real. -/
theorem isReal_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : IsReal (x i) := by
  haveI : Subsingleton (⟨0, ![]⟩ : Shape).Idx := ⟨fun a b => funext fun d => d.elim0⟩
  exact isReal_of_abs_lt_inf (x i) (Host.reduce_andi_all _ _ h hu j e i)

/-- The same for a scalar (no broadcast of the pattern). -/
theorem isReal_of_all_finite₀ {axes : List (Fin (⟨0, ![]⟩ : Shape).rank)} (x : FVec Ideal ⟨0, ![]⟩ .f32)
    (h : (⟨0, ![]⟩ : Shape).ReducesTo axes ⟨0, ![]⟩) (hu : 0 < (⟨0, ![]⟩ : Shape).numel) (j : (⟨0, ![]⟩ : Shape).Idx)
    (e : Host.reduce IntOp.andi (cmpf .olt (Host.absf x) (constant ⟨0, ![]⟩ .f32 0x7F800000#32))
      (constantI ⟨0, ![]⟩ 1 1#1) h hu j = 1#1) (i : (⟨0, ![]⟩ : Shape).Idx) : IsReal (x i) := by
  haveI : Subsingleton (⟨0, ![]⟩ : Shape).Idx := ⟨fun a b => funext fun d => d.elim0⟩
  exact isReal_of_abs_lt_inf (x i) (Host.reduce_andi_all _ _ h hu j e i)

end Cert.Lib

end
-- ==== Proof.SpecReal.lean ====
/-
  Rows of real numbers stay rows of real numbers through the layer normalisation and the affine maps,
  and on real queries and keys the two spellings of the 8 × 8 softmax weights are the same function.

  The words: 0x44000000 is 512, 0x3727C5AC is the positive real 10995116 · 2⁻⁴⁰, 0x3E000000 is 1/8,
  0x41000000 is 8, 0x3F800000 is 1, 0xFF800000 is −∞.

  Layer normalisation: the mean of 512 reals is real; the variance is a mean of squares of reals, a
  real ≥ 0; with the positive word added the argument of the reciprocal root is a positive real, and
  the reciprocal root of a positive real is real.

  Weights: dividing by 8 is multiplying by 1/8 on every extended real, and a maximum with −∞ changes
  nothing, so both spellings have the same scores s, the same row maximum M and the same exponentials
  e_b = exp(s_b − M). With real scores M is real (a maximum of eight reals), every e_b is a positive real
  and so is their sum S; then e_b · (1/S) = e_b / S because S is a nonzero real.
-/
import proofs.«107231_j40132174414149_2_alg».proof.Proof.Spec
import proofs.«107231_j40132174414149_2_alg».proof.Proof.LibERealFinite

noncomputable section

namespace Cert.Spec

open Idealize.ShloMosaic

/-- An extended real that is a real number (neither infinity). -/
def IsReal (x : EReal) : Prop := ∃ r : ℝ, x = (r : EReal)

/-! ### Closure of the reals inside the extended reals -/

theorem isReal_coe (r : ℝ) : IsReal (r : EReal) := ⟨r, rfl⟩

theorem IsReal.ne_top {x : EReal} (h : IsReal x) : x ≠ ⊤ := Cert.Lib.IsReal.ne_top h

theorem IsReal.ne_bot {x : EReal} (h : IsReal x) : x ≠ ⊥ := Cert.Lib.IsReal.ne_bot h

theorem isReal_of_ne {x : EReal} (h1 : x ≠ ⊤) (h2 : x ≠ ⊥) : IsReal x := (Cert.Lib.isReal_iff x).mpr ⟨h1, h2⟩

theorem IsReal.add {x y : EReal} (hx : IsReal x) (hy : IsReal y) : IsReal (x + y) := Cert.Lib.IsReal.add hx hy

theorem IsReal.mul {x y : EReal} (hx : IsReal x) (hy : IsReal y) : IsReal (x * y) := Cert.Lib.IsReal.mul hx hy

/-- A sum of products of reals is real. -/
theorem IsReal.dot {ι : Type*} (s : Finset ι) (x w : ι → EReal) (hx : ∀ k, IsReal (x k)) (hw : ∀ k, IsReal (w k)) :
    IsReal (∑ k ∈ s, x k * w k) := Cert.Lib.IsReal.dot s x w hx hw

/-! ### The words -/

/-- The word 0x44000000 is 512. -/
theorem word_512 : Ideal.ofBits .f32 0x44000000#32 = ((512 : ℝ) : EReal) := by
  simp [Ideal.ofBits, Ideal.ieee]
  rw [← EReal.coe_mul]
  norm_num

/-- The word 0x3E000000 is 1/8. -/
theorem word_eighth : Ideal.ofBits .f32 0x3E000000#32 = ((1 / 8 : ℝ) : EReal) := by
  simp [Ideal.ofBits, Ideal.ieee]
  rw [← EReal.coe_mul]
  norm_num

/-- The word 0x41000000 is 8. -/
theorem word_8 : Ideal.ofBits .f32 0x41000000#32 = ((8 : ℝ) : EReal) := by
  simp [Ideal.ofBits, Ideal.ieee]
  rw [← EReal.coe_mul]
  norm_num

/-- The word 0x3F800000 is 1. -/
theorem word_one : Ideal.ofBits .f32 0x3F800000#32 = (1 : EReal) := by
  simp [Ideal.ofBits, Ideal.ieee]
  rw [← EReal.coe_mul]
  norm_num

/-- The word 0xFF800000 is −∞. -/
theorem word_neginf : Ideal.ofBits .f32 0xFF800000#32 = (⊥ : EReal) := by
  simp [Ideal.ofBits, Ideal.ieee]

/-- The word 0x3727C5AC is 10995116 · 2⁻⁴⁰. -/
theorem word_eps : Ideal.ofBits .f32 0x3727C5AC#32 = (((10995116 : ℝ) * (2 : ℝ) ^ (-40 : ℤ) : ℝ) : EReal) := by
  simp [Ideal.ofBits, Ideal.ieee]

/-- The word 0x3727C5AC is a positive real. -/
theorem word_eps_pos : ∃ c : ℝ, 0 < c ∧ Ideal.ofBits .f32 0x3727C5AC#32 = (c : EReal) :=
  ⟨_, by positivity, word_eps⟩

/-! ### The layer normalisation of a real row -/

/-- The mean of a row of reals is the real mean. -/
theorem mean_coe (f : Fin 512 → ℝ) : mean (fun k => (f k : EReal)) = (((∑ k, f k) / 512 : ℝ) : EReal) := by
  rw [mean, word_512, Cert.Lib.coe_sum, Cert.Lib.div_coe_coe _ (show (512 : ℝ) ≠ 0 by norm_num)]

/-- A real row centred at its mean is the real row less the real mean. -/
theorem centred_coe (f : Fin 512 → ℝ) (j : Fin 512) :
    centred (fun k => (f k : EReal)) j = ((f j - (∑ k, f k) / 512 : ℝ) : EReal) := by
  rw [centred, mean_coe, ← EReal.coe_sub]

/-- The variance of a real row is the real mean of the squares of the centred row. -/
theorem variance_coe (f : Fin 512 → ℝ) :
    variance (fun k => (f k : EReal))
      = (((∑ k, (f k - (∑ i, f i) / 512) * (f k - (∑ i, f i) / 512)) / 512 : ℝ) : EReal) := by
  rw [variance]
  simp only [centred_coe, ← EReal.coe_mul]
  rw [mean_coe]

/-- The layer normalisation of a real row with real gain and shift is a real row: the variance is a real
    ≥ 0, the added word a positive real, so the reciprocal root is taken of a positive real. -/
theorem layerNorm_real (v g b : Fin 512 → EReal) (hv : ∀ j, IsReal (v j)) (hg : ∀ j, IsReal (g j))
    (hb : ∀ j, IsReal (b j)) : ∀ j, IsReal (layerNorm v g b j) := by
  intro j
  have hv' : ∀ j, ∃ r : ℝ, v j = (r : EReal) := hv
  choose f hf using hv'
  obtain rfl : v = fun k => (f k : EReal) := funext hf
  obtain ⟨c, hc0, hc⟩ := word_eps_pos
  have hvar : 0 ≤ (∑ k, (f k - (∑ i, f i) / 512) * (f k - (∑ i, f i) / 512)) / 512 :=
    div_nonneg (Finset.sum_nonneg fun k _ => mul_self_nonneg _) (by norm_num)
  rw [layerNorm, centred_coe, variance_coe, hc, ← EReal.coe_add]
  exact (((isReal_coe _).mul (Cert.Lib.isReal_rsqrt_pos (add_pos_of_nonneg_of_pos hvar hc0))).mul (hg j)).add (hb j)

/-! ### The affine maps -/

/-- A real row times the transpose of a real matrix, plus a real bias, is a real row. -/
theorem affine_real {n m : Nat} (h : Fin n → EReal) (W : Fin m → Fin n → EReal) (b : Fin m → EReal)
    (hh : ∀ k, IsReal (h k)) (hW : ∀ j k, IsReal (W j k)) (hb : ∀ j, IsReal (b j)) :
    ∀ j, IsReal (affine h W b j) :=
  fun j => (IsReal.dot Finset.univ h (W j) hh (hW j)).add (hb j)

/-! ### The weights -/

/-- Dividing by the word of 8 is multiplying by the word of 1/8, on every extended real. -/
theorem scoresDiv_eq (q k : Fin 512 → EReal) : scoresDiv q k = scoresMul q k := by
  funext a b
  rw [scoresDiv, scoresMul, word_8, word_eighth, Ideal.div_coe (show (8 : ℝ) ≠ 0 by norm_num)]

/-- The unscaled scores of real queries and keys are real. -/
theorem score_real (q k : Fin 512 → EReal) (hq : ∀ j, IsReal (q j)) (hk : ∀ j, IsReal (k j)) (a b : Fin 8) :
    IsReal (score q k a b) :=
  IsReal.dot Finset.univ (fun d => q (headIdx a d)) (fun d => k (headIdx b d)) (fun d => hq _) (fun d => hk _)

/-- The scaled scores of real queries and keys are real. -/
theorem scoresMul_real (q k : Fin 512 → EReal) (hq : ∀ j, IsReal (q j)) (hk : ∀ j, IsReal (k j)) (a b : Fin 8) :
    IsReal (scoresMul q k a b) := by
  rw [scoresMul, word_eighth]
  exact (score_real q k hq hk a b).mul (isReal_coe _)

/-- The maximum of eight reals, folded from −∞, is real: it lies below +∞ with all of them and above the first. -/
theorem rowMax_real (s : Fin 8 → EReal) (hs : ∀ b, IsReal (s b)) : IsReal (rowMax s) := by
  rw [rowMax, word_neginf]
  refine isReal_of_ne (ne_of_lt ?_) (ne_of_gt ?_)
  · exact (Finset.fold_max_lt _).mpr ⟨bot_lt_top, fun x _ => lt_top_iff_ne_top.mpr (hs x).ne_top⟩
  · exact (Finset.lt_fold_max _).mpr (Or.inr ⟨0, Finset.mem_univ _, bot_lt_iff_ne_bot.mpr (hs 0).ne_bot⟩)

/-- The exponential of a real score less a real value is a positive real. -/
theorem expLess_pos (s : Fin 8 → EReal) (M : EReal) (hs : ∀ b, IsReal (s b)) (hM : IsReal M) (b : Fin 8) :
    ∃ r : ℝ, 0 < r ∧ expLess s M b = (r : EReal) := by
  obtain ⟨x, hx⟩ := hs b
  obtain ⟨m, rfl⟩ := hM
  refine ⟨Real.exp (x - m), Real.exp_pos _, ?_⟩
  rw [expLess, hx, ← EReal.coe_sub, Ideal.exp_coe]

/-- A sum of positive reals over a nonempty finite type is a positive real. -/
theorem sum_pos_real {ι : Type*} [Fintype ι] [Nonempty ι] (f : ι → EReal)
    (h : ∀ i, ∃ r : ℝ, 0 < r ∧ f i = (r : EReal)) : ∃ r : ℝ, 0 < r ∧ ∑ i, f i = (r : EReal) := by
  choose g hg0 hg using h
  refine ⟨∑ i, g i, Finset.sum_pos (fun i _ => hg0 i) Finset.univ_nonempty, ?_⟩
  rw [← Cert.Lib.coe_sum]
  exact Finset.sum_congr rfl fun i _ => hg i

/-- Times the reciprocal of a nonzero real (the word of 1 divided by it) is divided by it. -/
theorem mul_recip_eq_div (e : EReal) {S : ℝ} (hS : S ≠ 0) :
    e * Ideal.div (Ideal.ofBits .f32 0x3F800000#32) (S : EReal) = Ideal.div e (S : EReal) := by
  rw [word_one, Ideal.div_coe hS, Ideal.div_coe hS, one_mul]

/-- On real queries and keys the two spellings of the weights agree. -/
theorem weights_eq (q k : Fin 512 → EReal) (hq : ∀ j, IsReal (q j)) (hk : ∀ j, IsReal (k j)) :
    weightsMul q k = weightsDiv q k := by
  funext a b
  have hs : ∀ b, IsReal (scoresMul q k a b) := scoresMul_real q k hq hk a
  have hM : IsReal (rowMax (scoresMul q k a)) := rowMax_real _ hs
  obtain ⟨S, hS0, hS⟩ : ∃ S : ℝ, 0 < S ∧
      ∑ b', expLess (scoresMul q k a) (rowMax (scoresMul q k a)) b' = (S : EReal) :=
    sum_pos_real _ fun b' => expLess_pos _ _ hs hM b'
  rw [weightsMul, weightsDiv, scoresDiv_eq, word_neginf, max_bot_left, hS]
  exact mul_recip_eq_div _ hS0.ne'

/-! ### The row -/

/-- The whole layer on a real row with real first-normalisation and query/key parameters does not depend on
    the spelling of the weights: they are only ever applied to the query and key projections of the normalised
    row, which are real. -/
theorem row_eq (x : Fin 512 → EReal) (Wq : Fin 512 → Fin 512 → EReal) (bq : Fin 512 → EReal)
    (Wk : Fin 512 → Fin 512 → EReal) (bk : Fin 512 → EReal) (Wv : Fin 512 → Fin 512 → EReal) (bv : Fin 512 → EReal)
    (Wo : Fin 512 → Fin 512 → EReal) (bo : Fin 512 → EReal)
    (W1 : Fin 2048 → Fin 512 → EReal) (b1 : Fin 2048 → EReal) (W2 : Fin 512 → Fin 2048 → EReal) (b2 : Fin 512 → EReal)
    (g1 beta1 g2 beta2 : Fin 512 → EReal)
    (hx : ∀ j, IsReal (x j)) (hWq : ∀ j k, IsReal (Wq j k)) (hbq : ∀ j, IsReal (bq j))
    (hWk : ∀ j k, IsReal (Wk j k)) (hbk : ∀ j, IsReal (bk j))
    (hg1 : ∀ j, IsReal (g1 j)) (hbeta1 : ∀ j, IsReal (beta1 j)) :
    row weightsMul x Wq bq Wk bk Wv bv Wo bo W1 b1 W2 b2 g1 beta1 g2 beta2
      = row weightsDiv x Wq bq Wk bk Wv bv Wo bo W1 b1 W2 b2 g1 beta1 g2 beta2 := by
  have hh := layerNorm_real x g1 beta1 hx hg1 hbeta1
  have hq := affine_real _ Wq bq hh hWq hbq
  have hk := affine_real _ Wk bk hh hWk hbk
  have hattn : attnRow weightsMul x Wq bq Wk bk Wv bv Wo bo g1 beta1
      = attnRow weightsDiv x Wq bq Wk bk Wv bv Wo bo g1 beta1 := by
    funext j
    rw [attnRow, attnRow, weights_eq _ _ hq hk]
  rw [row, row, hattn]

end Cert.Spec

end
-- ==== Proof.FiniteInputs.lean ====
/-
  The precondition says every entry of every argument array is finite: it is the conjunction, array by array,
  of "all |x| < +∞". Read at the one index of its result, a conjunction of seventeen bits that is 1 has every
  bit 1; a reduction by "and" over a whole array that is 1 had a 1 at every entry; and |x| < +∞ on the
  extended reals holds exactly of the real numbers. So the entries of each array are real numbers; stated here
  for the seven arrays the softmax weights depend on: the activations, the query and key weights and biases,
  and the gain and shift of the first normalisation.
-/
import proofs.«107231_j40132174414149_2_alg».proof.Pre_finite_inputs
import proofs.«107231_j40132174414149_2_alg».proof.Proof.SpecReal
import Idealize.ShloMosaic.Lib.ReduceAll
import Idealize.ShloMosaic.Lib.ValueIdx

noncomputable section

namespace Cert.FiniteInputs

open Idealize.ShloMosaic Cert.Pre_finite_inputs

/-- One conjunct read back: if "all |x| < +∞" over a whole array came out 1, every entry of the array is a
    real number. -/
theorem real_of_all {s : Shape} {axes : List (Fin s.rank)} (x : FVec Ideal s .f32)
    (bc : S_.BroadcastsInDim s (![] : Fin 0 → Fin s.rank)) (h : s.ReducesTo axes S_) (hu : 0 < S_.numel) (j : S_.Idx)
    (e : Host.reduce IntOp.andi (cmpf .olt (Host.absf x) (broadcastInDim s ![] bc (constant S_ .f32 0x7F800000#32)))
      (constantI S_ 1 1#1) h hu j = 1#1) (i : s.Idx) : Cert.Spec.IsReal (x i) :=
  Cert.Lib.isReal_of_all_finite x bc h hu j e i

/-- Under the precondition the activations, the query and key weights and biases, and the first
    normalisation's gain and shift have real entries. -/
theorem real_of_pre [Cert.Pre_finite_inputs.Facts]
    (a0 : FVec Ideal S65536x512 .f32) (a1 : FVec Ideal S512x512 .f32) (a2 : FVec Ideal S512 .f32) (a3 : FVec Ideal S512x512 .f32)
    (a4 : FVec Ideal S512 .f32) (a5 : FVec Ideal S512x512 .f32) (a6 : FVec Ideal S512 .f32) (a7 : FVec Ideal S512x512 .f32)
    (a8 : FVec Ideal S512 .f32) (a9 : FVec Ideal S2048x512 .f32) (a10 : FVec Ideal S2048 .f32) (a11 : FVec Ideal S512x2048 .f32)
    (a12 : FVec Ideal S512 .f32) (a13 : FVec Ideal S512 .f32) (a14 : FVec Ideal S512 .f32) (a15 : FVec Ideal S512 .f32) (a16 : FVec Ideal S512 .f32)
    (h : Cert.Pre_finite_inputs.fn (F := Ideal) a0 a1 a2 a3 a4 a5 a6 a7 a8 a9 a10 a11 a12 a13 a14 a15 a16 = fun _ => 1#1) :
    (∀ i, Cert.Spec.IsReal (a0 i)) ∧ (∀ i, Cert.Spec.IsReal (a1 i)) ∧ (∀ i, Cert.Spec.IsReal (a2 i)) ∧ (∀ i, Cert.Spec.IsReal (a3 i)) ∧ (∀ i, Cert.Spec.IsReal (a4 i)) ∧ (∀ i, Cert.Spec.IsReal (a13 i)) ∧ (∀ i, Cert.Spec.IsReal (a14 i)) := by
  have h0 := congrFun h ValueIdx.ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩ := h0
  exact ⟨real_of_all a0 _ _ _ _ e0, real_of_all a1 _ _ _ _ e1, real_of_all a2 _ _ _ _ e2, real_of_all a3 _ _ _ _ e3, real_of_all a4 _ _ _ _ e4, real_of_all a13 _ _ _ _ e13, real_of_all a14 _ _ _ _ e14⟩

end Cert.FiniteInputs

end
-- ==== Proof.lean ====
/-
  The certificate: the kernel program (as printed, and idealized) and the reference each run to the end and
  leave their arguments unchanged; the idealization changed nothing that needs a statement; and at the ideal
  instance, from memories agreeing on the seventeen arguments, the kernel's result and the reference's are the
  same array of extended reals.

  Both results are the same function of the arguments, row by row: layer normalisation, the three projections,
  an 8 × 8 softmax mixing of the row's own heads, the output projection and residual, a second normalisation and
  the feed-forward with its residual. The kernel computes a block of 512 rows per grid point from whole weight
  arrays the host transposed and joined beforehand; read entry by entry that is the same sums. The one place the
  two differ is the softmax: the kernel scales the scores by the word of 1/8 and multiplies each exponential by
  the reciprocal of their sum, the reference divides by the word of 8 and by the sum. On the extended reals a
  quotient by zero is not the product with a reciprocal, so this is where the precondition is used: finite inputs
  make the normalised row, the queries and keys, and so the scores real; then every exponential is a positive
  real, their sum is not zero, and the two spellings agree.
-/
import proofs.«107231_j40132174414149_2_alg».proof.Defs
import proofs.«107231_j40132174414149_2_alg».proof.Proof.Gen.Kernel
import proofs.«107231_j40132174414149_2_alg».proof.Proof.Gen.KernelIdeal
import proofs.«107231_j40132174414149_2_alg».proof.Proof.Gen.ReferenceIdeal
import proofs.«107231_j40132174414149_2_alg».proof.Proof.Gen.Pre_finite_inputs
import proofs.«107231_j40132174414149_2_alg».proof.Proof.Gen.ReferenceIdeal.Run
import proofs.«107231_j40132174414149_2_alg».proof.Proof.Gen.ReferenceIdeal.Read
import proofs.«107231_j40132174414149_2_alg».proof.Proof.FrameB
import proofs.«107231_j40132174414149_2_alg».proof.Proof.FrameI
import proofs.«107231_j40132174414149_2_alg».proof.Proof.KernelArray
import proofs.«107231_j40132174414149_2_alg».proof.Proof.RefRow
import proofs.«107231_j40132174414149_2_alg».proof.Proof.SpecReal
import proofs.«107231_j40132174414149_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both results are the layer's function of the arguments; the two spellings of the softmax weights agree on
    real scores, which finite inputs give. -/
theorem algebraic : Cert.algebraic_KernelIdeal_ReferenceIdeal := by
  intro m ρ m' ρ' hpre hagree
  refine ⟨fun c => Cert.Layer.layer Cert.Spec.weightsMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, Cert.ReferenceIdeal.RefValue.ref_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  obtain ⟨r0, r1, r2, r3, r4, r13, r14⟩ := Cert.FiniteInputs.real_of_pre _ _ _ _ _ _ _ _ _ _ _ _ _ _ _ _ _ (hpre c)
  funext i
  unfold Cert.Layer.layer Cert.Layer.layerRow
  exact congrFun (Cert.Spec.row_eq _ _ _ _ _ _ _ _ _ _ _ _ _ _ _ _ _ (fun j => r0 _) (fun j k => r1 _) (fun j => r2 _)
    (fun j k => r3 _) (fun j => r4 _) (fun j => r13 _) (fun j => r14 _)).symm _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
